-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x524288x1 : Shape := ⟨3, ![64, 524288, 1]⟩
abbrev S_ : Shape := ⟨0, ![]⟩

class Facts : Prop where
  bcast_S_S64x524288x1 : S_.BroadcastsInDim S64x524288x1 (![] : Fin 0 → Fin S64x524288x1.rank)
  reducesTo_S64x524288x1_S_d0_1_2 : S64x524288x1.ReducesTo [0, 1, 2] S_
  h_S_ : 0 < S_.numel

variable [Facts]

def fn {F : FTy → Type} [FloatOps F] (main_arg0 : FVec F S64x524288x1 .f32) (main_arg1 : FVec F S64x524288x1 .f32) : IVec S_ 1 :=
  let main_v0 : FVec F S64x524288x1 .f32 := Host.absf main_arg0
  let main_cst : FVec F S_ .f32 := constant S_ .f32 0x7F800000#32
  let main_v1 : FVec F S64x524288x1 .f32 := broadcastInDim S64x524288x1 ![] bcast_S_S64x524288x1 main_cst
  let main_v2 : IVec S64x524288x1 1 := cmpf .olt main_v0 main_v1
  let main_c : IVec S_ 1 := constantI S_ 1 1#1
  let main_v3 : IVec S_ 1 := (fun x v => Host.reduce IntOp.andi x v reducesTo_S64x524288x1_S_d0_1_2 h_S_) main_v2 main_c
  let main_v4 : FVec F S64x524288x1 .f32 := Host.absf main_arg1
  let main_cst_0 : FVec F S_ .f32 := constant S_ .f32 0x7F800000#32
  let main_v5 : FVec F S64x524288x1 .f32 := broadcastInDim S64x524288x1 ![] bcast_S_S64x524288x1 main_cst_0
  let main_v6 : IVec S64x524288x1 1 := cmpf .olt main_v4 main_v5
  let main_c_1 : IVec S_ 1 := constantI S_ 1 1#1
  let main_v7 : IVec S_ 1 := (fun x v => Host.reduce IntOp.andi x v reducesTo_S64x524288x1_S_d0_1_2 h_S_) main_v6 main_c_1
  let main_v8 : IVec S_ 1 := andi main_v3 main_v7
  main_v8
-- ==== Kernel.lean ====
abbrev S64x524288x1 : Shape := ⟨3, ![64, 524288, 1]⟩
abbrev S64x524288 : Shape := ⟨2, ![64, 524288]⟩
abbrev S64x128 : Shape := ⟨2, ![64, 128]⟩
abbrev S32x8192 : Shape := ⟨2, ![32, 8192]⟩
abbrev S32x128 : Shape := ⟨2, ![32, 128]⟩
abbrev S32x128x128 : Shape := ⟨3, ![32, 128, 128]⟩
abbrev S32x128x1 : Shape := ⟨3, ![32, 128, 1]⟩
abbrev S64x64 : Shape := ⟨2, ![64, 64]⟩
abbrev S_ : Shape := ⟨0, ![]⟩

abbrev nBuf : Space → Nat
  | .hbm => 31
  | .vmem => 8
  | .smem => 0
  | _ => 0

abbrev bufTy : (tb : Table) → Fin (tcTables nBuf tb) → BufTy
  | .hbm, ⟨0, _⟩ => ⟨S64x524288x1, .f32⟩
  | .hbm, ⟨1, _⟩ => ⟨S64x524288x1, .f32⟩
  | .hbm, ⟨2, _⟩ => ⟨S64x524288, .f32⟩
  | .hbm, ⟨3, _⟩ => ⟨S64x524288, .f32⟩
  | .hbm, ⟨4, _⟩ => ⟨S64x128, .f32⟩
  | .hbm, ⟨5, _⟩ => ⟨S64x128, .f32⟩
  | .hbm, ⟨6, _⟩ => ⟨S64x64, .f32⟩
  | .hbm, ⟨7, _⟩ => ⟨S64x64, .f32⟩
  | .hbm, ⟨8, _⟩ => ⟨S_, .f32⟩
  | .hbm, ⟨9, _⟩ => ⟨S64x64, .f32⟩
  | .hbm, ⟨10, _⟩ => ⟨S64x64, .i1⟩
  | .hbm, ⟨11, _⟩ => ⟨S_, .f32⟩
  | .hbm, ⟨12, _⟩ => ⟨S64x64, .f32⟩
  | .hbm, ⟨13, _⟩ => ⟨S64x64, .f32⟩
  | .hbm, ⟨14, _⟩ => ⟨S_, .f32⟩
  | .hbm, ⟨15, _⟩ => ⟨S_, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S64x64, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .local _ .vmem, ⟨0, _⟩ => ⟨S32x8192, .f32⟩
  | .local _ .vmem, ⟨1, _⟩ => ⟨S32x8192, .f32⟩
  | .local _ .vmem, ⟨2, _⟩ => ⟨S32x8192, .f32⟩
  | .local _ .vmem, ⟨3, _⟩ => ⟨S32x8192, .f32⟩
  | .local _ .vmem, ⟨4, _⟩ => ⟨S32x128, .f32⟩
  | .local _ .vmem, ⟨5, _⟩ => ⟨S32x128, .f32⟩
  | .local _ .vmem, ⟨6, _⟩ => ⟨S32x128, .f32⟩
  | .local _ .vmem, ⟨7, _⟩ => ⟨S32x128, .f32⟩
  | _, _ => ⟨S64x524288x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_cst_3 : Ref sig .tc := ⟨.hbm, 21, rfl⟩
abbrev main_cst_4 : Ref sig .tc := ⟨.hbm, 22, rfl⟩
abbrev main_call1_v0 : Ref sig .tc := ⟨.hbm, 23, rfl⟩
abbrev main_call1_v1 : Ref sig .tc := ⟨.hbm, 24, rfl⟩
abbrev main_v12 : Ref sig .tc := ⟨.hbm, 25, rfl⟩
abbrev main_v13 : Ref sig .tc := ⟨.hbm, 26, rfl⟩
abbrev main_cst_5 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 64], ![false, false]⟩

@[reducible] def k0_t1_loop : Scf.Loop 32 :=
  let c0_i32_2 : BitVec 32 := 0#32
  let c64_i32 : BitVec 32 := 64#32
  let v5 : BitVec 32 := Scalar.addi c0_i32_2 c64_i32
  let c1_i32 : BitVec 32 := 1#32
  ⟨c0_i32_2, v5, c1_i32⟩
def k0_mult1 (k0_t1 : Fin k0_t1_loop.trips) : BitVec 32 :=
  let c0_i32_2 : BitVec 32 := 0#32
  let c1_i32 : BitVec 32 := 1#32
  let arg6 : BitVec 32 := Scf.iv c0_i32_2 c1_i32 k0_t1
  let c128_i32 : BitVec 32 := 128#32
  let v15 : BitVec 32 := Scalar.muli arg6 c128_i32
  v15
def k0_off1 (k0_t1 : Fin k0_t1_loop.trips) : Fin 2 → Nat :=
  let c0_11 : Index := 0#32
  let c0_i32_2 : BitVec 32 := 0#32
  let c1_i32 : BitVec 32 := 1#32
  let arg6 : BitVec 32 := Scf.iv c0_i32_2 c1_i32 k0_t1
  let c128_i32 : BitVec 32 := 128#32
  let v15 : BitVec 32 := Scalar.muli arg6 c128_i32
  let v16 : BitVec 32 := v15
  let v17 : Index := Scalar.indexCast v16
  ![0, v17.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S32x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S64x524288x1_S64x524288 : S64x524288x1.ShapeCasts S64x524288
  inb_S32x128_S32x128_0_0 : ∀ a, (![0, 0] : Fin 2 → Nat) a + S32x128.size a ≤ S32x128.size a
  h_S32x128 : 0 < S32x128.numel
  shapeCasts_S32x128_S32x128 : S32x128.ShapeCasts S32x128
  iota_S32x128x128_d2_w32 : S32x128x128.Iotas .tc 32 [2]
  shapeCasts_S32x128_S32x128x1 : S32x128.ShapeCasts S32x128x1
  broadcasts_S32x128x1_S32x128x128 : S32x128x1.Broadcasts S32x128x128
  natLt_1_32 : 1 < 32
  reduces_S32x128x128_S32x128 : S32x128x128.Reduces [1] S32x128
  slices_S64x128_S64x64_0_0 : S64x128.Slices ![0, 0] S64x64
  bcast_S_S64x64 : S_.BroadcastsInDim S64x64 (![] : Fin 0 → Fin S64x64.rank)
  reducesTo_S64x64_S_d0_1 : S64x64.ReducesTo [0, 1] S_
  h_S_ : 0 < S_.numel
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S32x128.size a ≤ S32x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x8192.size a ≤ S64x524288.size a
  hwx0_0 : ∀ i : grid0.Coords, EltTy.bits .f32 = 32 ∨ (Rect.block (s := S64x524288) S32x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x8192.size a ≤ S64x524288.size a
  hwx0_1 : ∀ i : grid0.Coords, EltTy.bits .f32 = 32 ∨ (Rect.block (s := S64x524288) S32x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S64x128.size a
  hwx0_2 : ∀ i : grid0.Coords, EltTy.bits .f32 = 32 ∨ (Rect.block (s := S64x128) S32x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x128.size a ≤ S64x128.size a
  hwx0_3 : ∀ i : grid0.Coords, EltTy.bits .f32 = 32 ∨ (Rect.block (s := S64x128) S32x128.size (cc0_transform_3 i) (hinb0_3 i)).WholeWords (EltTy.packing .f32)

variable [Facts₀]

abbrev win0_0 : Pipeline.Window sig grid0 :=
  Pipeline.Window.ofSpec (Memref.whole main_v0) S32x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S32x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S32x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x524288x1 : Shape := ⟨3, ![64, 524288, 1]⟩
abbrev S_ : Shape := ⟨0, ![]⟩
abbrev S64x524288 : Shape := ⟨2, ![64, 524288]⟩
abbrev S64 : Shape := ⟨1, ![64]⟩
abbrev S64x1 : Shape := ⟨2, ![64, 1]⟩
abbrev S64x64 : Shape := ⟨2, ![64, 64]⟩
abbrev S64x524288x2 : Shape := ⟨3, ![64, 524288, 2]⟩

abbrev nBuf : Space → Nat
  | .hbm => 74
  | .vmem => 0
  | .smem => 0
  | _ => 0

abbrev bufTy : (tb : Table) → Fin (tcTables nBuf tb) → BufTy
  | .hbm, ⟨0, _⟩ => ⟨S64x524288x1, .f32⟩
  | .hbm, ⟨1, _⟩ => ⟨S64x524288x1, .f32⟩
  | .hbm, ⟨2, _⟩ => ⟨S64x524288x1, .f32⟩
  | .hbm, ⟨3, _⟩ => ⟨S_, .f32⟩
  | .hbm, ⟨4, _⟩ => ⟨S64x524288x1, .f32⟩
  | .hbm, ⟨5, _⟩ => ⟨S64x524288x1, .f32⟩
  | .hbm, ⟨6, _⟩ => ⟨S64x524288x1, .f32⟩
  | .hbm, ⟨7, _⟩ => ⟨S64x524288x1, .f32⟩
  | .hbm, ⟨8, _⟩ => ⟨S64x524288, .f32⟩
  | .hbm, ⟨9, _⟩ => ⟨S64x524288, .f32⟩
  | .hbm, ⟨10, _⟩ => ⟨S64x524288, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S64x524288, .i32⟩
  | .hbm, ⟨15, _⟩ => ⟨S64x524288, .i32⟩
  | .hbm, ⟨16, _⟩ => ⟨S_, .i32⟩
  | .hbm, ⟨17, _⟩ => ⟨S64x524288, .i32⟩
  | .hbm, ⟨18, _⟩ => ⟨S64x524288, .i32⟩
  | .hbm, ⟨19, _⟩ => ⟨S64, .i32⟩
  | .hbm, ⟨20, _⟩ => ⟨S64x1, .i32⟩
  | .hbm, ⟨21, _⟩ => ⟨S_, .f32⟩
  | .hbm, ⟨22, _⟩ => ⟨S64x64, .f32⟩
  | .hbm, ⟨23, _⟩ => ⟨S_, .i32⟩
  | .hbm, ⟨24, _⟩ => ⟨S64x1, .i32⟩
  | .hbm, ⟨25, _⟩ => ⟨S64x1, .i1⟩
  | .hbm, ⟨26, _⟩ => ⟨S_, .i32⟩
  | .hbm, ⟨27, _⟩ => ⟨S64x1, .i32⟩
  | .hbm, ⟨28, _⟩ => ⟨S64x1, .i32⟩
  | .hbm, ⟨29, _⟩ => ⟨S64x1, .i32⟩
  | .hbm, ⟨30, _⟩ => ⟨S_, .i32⟩
  | .hbm, ⟨31, _⟩ => ⟨S64x524288, .i32⟩
  | .hbm, ⟨32, _⟩ => ⟨S64x524288, .i1⟩
  | .hbm, ⟨33, _⟩ => ⟨S_, .i32⟩
  | .hbm, ⟨34, _⟩ => ⟨S64x524288, .i32⟩
  | .hbm, ⟨35, _⟩ => ⟨S64x524288, .i32⟩
  | .hbm, ⟨36, _⟩ => ⟨S64x524288, .i32⟩
  | .hbm, ⟨37, _⟩ => ⟨S64x524288, .i32⟩
  | .hbm, ⟨38, _⟩ => ⟨S64x524288x1, .i32⟩
  | .hbm, ⟨39, _⟩ => ⟨S64x524288x1, .i32⟩
  | .hbm, ⟨40, _⟩ => ⟨S64x524288x2, .i32⟩
  | .hbm, ⟨41, _⟩ => ⟨S_, .f32⟩
  | .hbm, ⟨42, _⟩ => ⟨S64x524288, .f32⟩
  | .hbm, ⟨43, _⟩ => ⟨S64x64, .f32⟩
  | .hbm, ⟨44, _⟩ => ⟨S_, .f32⟩
  | .hbm, ⟨45, _⟩ => ⟨S64x64, .f32⟩
  | .hbm, ⟨46, _⟩ => ⟨S64x64, .f32⟩
  | .hbm, ⟨47, _⟩ => ⟨S_, .i32⟩
  | .hbm, ⟨48, _⟩ => ⟨S64x1, .i32⟩
  | .hbm, ⟨49, _⟩ => ⟨S64x1, .i1⟩
  | .hbm, ⟨50, _⟩ => ⟨S_, .i32⟩
  | .hbm, ⟨51, _⟩ => ⟨S64x1, .i32⟩
  | .hbm, ⟨52, _⟩ => ⟨S64x1, .i32⟩
  | .hbm, ⟨53, _⟩ => ⟨S64x1, .i32⟩
  | .hbm, ⟨54, _⟩ => ⟨S_, .i32⟩
  | .hbm, ⟨55, _⟩ => ⟨S64x524288, .i32⟩
  | .hbm, ⟨56, _⟩ => ⟨S64x524288, .i1⟩
  | .hbm, ⟨57, _⟩ => ⟨S_, .i32⟩
  | .hbm, ⟨58, _⟩ => ⟨S64x524288, .i32⟩
  | .hbm, ⟨59, _⟩ => ⟨S64x524288, .i32⟩
  | .hbm, ⟨60, _⟩ => ⟨S64x524288, .i32⟩
  | .hbm, ⟨61, _⟩ => ⟨S64x524288, .i32⟩
  | .hbm, ⟨62, _⟩ => ⟨S64x524288x1, .i32⟩
  | .hbm, ⟨63, _⟩ => ⟨S64x524288x1, .i32⟩
  | .hbm, ⟨64, _⟩ => ⟨S64x524288x2, .i32⟩
  | .hbm, ⟨65, _⟩ => ⟨S64x524288, .f32⟩
  | .hbm, ⟨66, _⟩ => ⟨S64x524288x1, .f32⟩
  | .hbm, ⟨67, _⟩ => ⟨S64x524288x1, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | _, _ => ⟨S64x524288x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_c_0 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_c_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_c_8 : Ref sig .tc := ⟨.hbm, 47, rfl⟩
abbrev main_v30 : Ref sig .tc := ⟨.hbm, 48, rfl⟩
abbrev main_v31 : Ref sig .tc := ⟨.hbm, 49, rfl⟩
abbrev main_c_9 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_10 : Ref sig .tc := ⟨.hbm, 54, rfl⟩
abbrev main_v35 : Ref sig .tc := ⟨.hbm, 55, rfl⟩
abbrev main_v36 : Ref sig .tc := ⟨.hbm, 56, rfl⟩
abbrev main_c_11 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_12 : Ref sig .tc := ⟨.hbm, 68, rfl⟩
abbrev main_v47 : Ref sig .tc := ⟨.hbm, 69, rfl⟩
abbrev main_cst_13 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩

abbrev nD : Nat := 1
abbrev τ : Topo := Topo.v7x

variable {F : FTy → Type} [FloatOps F]

class Facts₀ : Prop where
  bcast_S_S64x524288x1 : S_.BroadcastsInDim S64x524288x1 (![] : Fin 0 → Fin S64x524288x1.rank)
  shapeCasts_S64x524288x1_S64x524288 : S64x524288x1.ShapeCasts S64x524288
  bcast_S_S64x524288 : S_.BroadcastsInDim S64x524288 (![] : Fin 0 → Fin S64x524288.rank)
  bcast_S64_S64x1_0 : S64.BroadcastsInDim S64x1 (![0] : Fin 1 → Fin S64x1.rank)
  bcast_S_S64x64 : S_.BroadcastsInDim S64x64 (![] : Fin 0 → Fin S64x64.rank)
  bcast_S_S64x1 : S_.BroadcastsInDim S64x1 (![] : Fin 0 → Fin S64x1.rank)
  bcast_S64x1_S64x524288_0_1 : S64x1.BroadcastsInDim S64x524288 (![0, 1] : Fin 2 → Fin S64x524288.rank)
  bcast_S64x524288_S64x524288x1_0_1 : S64x524288.BroadcastsInDim S64x524288x1 (![0, 1] : Fin 2 → Fin S64x524288x1.rank)
  concatenates_S64x524288x1_S64x524288x1_S64x524288x2_d2 : Shape.Concatenates [S64x524288x1, S64x524288x1] S64x524288x2 2
  reducesTo_S64x524288x1_S_d0_1_2 : S64x524288x1.ReducesTo [0, 1, 2] S_
  h_S_ : 0 < S_.numel
  scatter_S64x64_S64x524288x2_S64x524288_n_01_01_2_wf : ScatterDims.WF S64x64 S64x524288x2 S64x524288 [] [0, 1] [0, 1] 2
  gather_S64x64_S64x524288x2_S64x524288_n_01_n_n_01_2_11_wf : GatherDims.WF S64x64 S64x524288x2 S64x524288 [] [0, 1] [] [0, 1] [] 2 ![1, 1]

variable [Facts₀]

def scatter_S64x64_S64x524288x2_S64x524288_n_01_01_2 : ScatterDims S64x64 S64x524288x2 S64x524288 where
  updateWindowDims := []
  insertedWindowDims := [0, 1]
  scatterDimsToOperandDims := [0, 1]
  indexVectorDim := 2
  wf := scatter_S64x64_S64x524288x2_S64x524288_n_01_01_2_wf
def gather_S64x64_S64x524288x2_S64x524288_n_01_n_n_01_2_11 : GatherDims S64x64 S64x524288x2 S64x524288 where
  offsetDims := []
  collapsedSliceDims := [0, 1]
  operandBatchingDims := []
  startIndicesBatchingDims := []
  startIndexMap := [0, 1]
  indexVectorDim := 2
  sliceSizes := ![1, 1]
  wf := gather_S64x64_S64x524288x2_S64x524288_n_01_n_n_01_2_11_wf

class Facts : Prop extends Facts₀ where

variable [Facts]
-- ==== Proof.RefRunSteps.lean ====
/- The reference's 72 host operations walked once, front to back, with every intermediate result shared.
   After k operations the valuation holds, at each reference that a later operation still reads (and at the two arguments,
   and at the final result once written), the value of that reference's stage as a function of the two arguments:
   operation k leaves every other reference as it was (the references are distinct) and writes its own result, which is
   its function of its operands' stages, that is its own stage.  step<k> is that statement for operation k, with the
   facts for the references live before it as hypotheses and the facts live after it handed to a continuation;
   after_ops chains the 72 steps.  One case per operation; the argument is the same in each. -/
import proofs.«148309_j60421599920187_2_alg».proof.Proof.Gen.ReferenceIdeal
import proofs.«148309_j60421599920187_2_alg».proof.Proof.RefStages
import Idealize.ShloMosaic.Lib.StableHlo.Run

noncomputable section

namespace Cert.ReferenceIdeal.FastRun

open Cert.ReferenceIdeal Cert.ReferenceIdeal.Gen Idealize.ShloMosaic Idealize.ShloMosaic.TcCoe Idealize.SL.Sem Idealize.ShloMosaic.StableHlo

variable {F : FTy → Type} [FloatOps F]

/-! ## The operations, one name each, in program order -/

abbrev op0 : HloOp τ sig (Elt F) :=
  unary main_arg1 main_v0 (Host.absf : (⟨S64x524288x1, .f32⟩ : BufTy).Contents (Elt F) → (⟨S64x524288x1, .f32⟩ : BufTy).Contents (Elt F))
abbrev op1 : HloOp τ sig (Elt F) :=
  nullary main_cst (constant S_ .f32 0x34000000#32)
abbrev op2 : HloOp τ sig (Elt F) :=
  unary main_cst main_v1 (broadcastInDim S64x524288x1 ![] bcast_S_S64x524288x1 : (⟨S_, .f32⟩ : BufTy).Contents (Elt F) → (⟨S64x524288x1, .f32⟩ : BufTy).Contents (Elt F))
abbrev op3 : HloOp τ sig (Elt F) :=
  binary main_v0 main_v1 main_v2 (maximumf : (⟨S64x524288x1, .f32⟩ : BufTy).Contents (Elt F) → (⟨S64x524288x1, .f32⟩ : BufTy).Contents (Elt F) → (⟨S64x524288x1, .f32⟩ : BufTy).Contents (Elt F))
abbrev op4 : HloOp τ sig (Elt F) :=
  binary main_arg0 main_arg1 main_v3 (subf : (⟨S64x524288x1, .f32⟩ : BufTy).Contents (Elt F) → (⟨S64x524288x1, .f32⟩ : BufTy).Contents (Elt F) → (⟨S64x524288x1, .f32⟩ : BufTy).Contents (Elt F))
abbrev op5 : HloOp τ sig (Elt F) :=
  binary main_v3 main_v3 main_v4 (mulf : (⟨S64x524288x1, .f32⟩ : BufTy).Contents (Elt F) → (⟨S64x524288x1, .f32⟩ : BufTy).Contents (Elt F) → (⟨S64x524288x1, .f32⟩ : BufTy).Contents (Elt F))
abbrev op6 : HloOp τ sig (Elt F) :=
  reshape main_v2 main_v5 rfl shapeCasts_S64x524288x1_S64x524288
abbrev op7 : HloOp τ sig (Elt F) :=
  unary main_v5 main_v6 (Host.floor : (⟨S64x524288, .f32⟩ : BufTy).Contents (Elt F) → (⟨S64x524288, .f32⟩ : BufTy).Contents (Elt F))
abbrev op8 : HloOp τ sig (Elt F) :=
  unary main_v6 main_v7 (fptosi 32 : (⟨S64x524288, .f32⟩ : BufTy).Contents (Elt F) → (⟨S64x524288, .i32⟩ : BufTy).Contents (Elt F))
abbrev op9 : HloOp τ sig (Elt F) :=
  nullary main_c (constantI S_ 32 0#32)
abbrev op10 : HloOp τ sig (Elt F) :=
  nullary main_c_0 (constantI S_ 32 63#32)
abbrev op11 : HloOp τ sig (Elt F) :=
  TRef.unary (TRef.of (T := ⟨S_, .i32⟩) main_c) (TRef.of (T := ⟨S_, .i32⟩) main_call0_v0) id
abbrev op12 : HloOp τ sig (Elt F) :=
  TRef.unary (TRef.of (T := ⟨S_, .i32⟩) main_call0_v0) (TRef.of (T := ⟨S64x524288, .i32⟩) main_call0_v1) (broadcastInDim S64x524288 ![] bcast_S_S64x524288)
abbrev op13 : HloOp τ sig (Elt F) :=
  TRef.binary (TRef.of (T := ⟨S64x524288, .i32⟩) main_call0_v1) (TRef.of (T := ⟨S64x524288, .i32⟩) main_v7) (TRef.of (T := ⟨S64x524288, .i32⟩) main_call0_v2) maxsi
abbrev op14 : HloOp τ sig (Elt F) :=
  TRef.unary (TRef.of (T := ⟨S_, .i32⟩) main_c_0) (TRef.of (T := ⟨S_, .i32⟩) main_call0_v3) id
abbrev op15 : HloOp τ sig (Elt F) :=
  TRef.unary (TRef.of (T := ⟨S_, .i32⟩) main_call0_v3) (TRef.of (T := ⟨S64x524288, .i32⟩) main_call0_v4) (broadcastInDim S64x524288 ![] bcast_S_S64x524288)
abbrev op16 : HloOp τ sig (Elt F) :=
  TRef.binary (TRef.of (T := ⟨S64x524288, .i32⟩) main_call0_v4) (TRef.of (T := ⟨S64x524288, .i32⟩) main_call0_v2) (TRef.of (T := ⟨S64x524288, .i32⟩) main_v8) minsi
abbrev op17 : HloOp τ sig (Elt F) :=
  nullary main_v9 (iotaInDim S64 32 0)
abbrev op18 : HloOp τ sig (Elt F) :=
  unary main_v9 main_v10 (broadcastInDim S64x1 ![0] bcast_S64_S64x1_0 : (⟨S64, .i32⟩ : BufTy).Contents (Elt F) → (⟨S64x1, .i32⟩ : BufTy).Contents (Elt F))
abbrev op19 : HloOp τ sig (Elt F) :=
  nullary main_cst_1 (constant S_ .f32 0x00000000#32)
abbrev op20 : HloOp τ sig (Elt F) :=
  unary main_cst_1 main_v11 (broadcastInDim S64x64 ![] bcast_S_S64x64 : (⟨S_, .f32⟩ : BufTy).Contents (Elt F) → (⟨S64x64, .f32⟩ : BufTy).Contents (Elt F))
abbrev op21 : HloOp τ sig (Elt F) :=
  nullary main_c_2 (constantI S_ 32 0#32)
abbrev op22 : HloOp τ sig (Elt F) :=
  unary main_c_2 main_v12 (broadcastInDim S64x1 ![] bcast_S_S64x1 : (⟨S_, .i32⟩ : BufTy).Contents (Elt F) → (⟨S64x1, .i32⟩ : BufTy).Contents (Elt F))
abbrev op23 : HloOp τ sig (Elt F) :=
  binary main_v10 main_v12 main_v13 (cmpi .slt : (⟨S64x1, .i32⟩ : BufTy).Contents (Elt F) → (⟨S64x1, .i32⟩ : BufTy).Contents (Elt F) → (⟨S64x1, .i1⟩ : BufTy).Contents (Elt F))
abbrev op24 : HloOp τ sig (Elt F) :=
  nullary main_c_3 (constantI S_ 32 64#32)
abbrev op25 : HloOp τ sig (Elt F) :=
  unary main_c_3 main_v14 (broadcastInDim S64x1 ![] bcast_S_S64x1 : (⟨S_, .i32⟩ : BufTy).Contents (Elt F) → (⟨S64x1, .i32⟩ : BufTy).Contents (Elt F))
abbrev op26 : HloOp τ sig (Elt F) :=
  binary main_v10 main_v14 main_v15 (addi : (⟨S64x1, .i32⟩ : BufTy).Contents (Elt F) → (⟨S64x1, .i32⟩ : BufTy).Contents (Elt F) → (⟨S64x1, .i32⟩ : BufTy).Contents (Elt F))
abbrev op27 : HloOp τ sig (Elt F) :=
  ternary main_v13 main_v15 main_v10 main_v16 (select : (⟨S64x1, .i1⟩ : BufTy).Contents (Elt F) → (⟨S64x1, .i32⟩ : BufTy).Contents (Elt F) → (⟨S64x1, .i32⟩ : BufTy).Contents (Elt F) → (⟨S64x1, .i32⟩ : BufTy).Contents (Elt F))
abbrev op28 : HloOp τ sig (Elt F) :=
  nullary main_c_4 (constantI S_ 32 0#32)
abbrev op29 : HloOp τ sig (Elt F) :=
  unary main_c_4 main_v17 (broadcastInDim S64x524288 ![] bcast_S_S64x524288 : (⟨S_, .i32⟩ : BufTy).Contents (Elt F) → (⟨S64x524288, .i32⟩ : BufTy).Contents (Elt F))
abbrev op30 : HloOp τ sig (Elt F) :=
  binary main_v8 main_v17 main_v18 (cmpi .slt : (⟨S64x524288, .i32⟩ : BufTy).Contents (Elt F) → (⟨S64x524288, .i32⟩ : BufTy).Contents (Elt F) → (⟨S64x524288, .i1⟩ : BufTy).Contents (Elt F))
abbrev op31 : HloOp τ sig (Elt F) :=
  nullary main_c_5 (constantI S_ 32 64#32)
abbrev op32 : HloOp τ sig (Elt F) :=
  unary main_c_5 main_v19 (broadcastInDim S64x524288 ![] bcast_S_S64x524288 : (⟨S_, .i32⟩ : BufTy).Contents (Elt F) → (⟨S64x524288, .i32⟩ : BufTy).Contents (Elt F))
abbrev op33 : HloOp τ sig (Elt F) :=
  binary main_v8 main_v19 main_v20 (addi : (⟨S64x524288, .i32⟩ : BufTy).Contents (Elt F) → (⟨S64x524288, .i32⟩ : BufTy).Contents (Elt F) → (⟨S64x524288, .i32⟩ : BufTy).Contents (Elt F))
abbrev op34 : HloOp τ sig (Elt F) :=
  ternary main_v18 main_v20 main_v8 main_v21 (select : (⟨S64x524288, .i1⟩ : BufTy).Contents (Elt F) → (⟨S64x524288, .i32⟩ : BufTy).Contents (Elt F) → (⟨S64x524288, .i32⟩ : BufTy).Contents (Elt F) → (⟨S64x524288, .i32⟩ : BufTy).Contents (Elt F))
abbrev op35 : HloOp τ sig (Elt F) :=
  unary main_v16 main_v22 (broadcastInDim S64x524288 ![0, 1] bcast_S64x1_S64x524288_0_1 : (⟨S64x1, .i32⟩ : BufTy).Contents (Elt F) → (⟨S64x524288, .i32⟩ : BufTy).Contents (Elt F))
abbrev op36 : HloOp τ sig (Elt F) :=
  unary main_v22 main_v23 (broadcastInDim S64x524288x1 ![0, 1] bcast_S64x524288_S64x524288x1_0_1 : (⟨S64x524288, .i32⟩ : BufTy).Contents (Elt F) → (⟨S64x524288x1, .i32⟩ : BufTy).Contents (Elt F))
abbrev op37 : HloOp τ sig (Elt F) :=
  unary main_v21 main_v24 (broadcastInDim S64x524288x1 ![0, 1] bcast_S64x524288_S64x524288x1_0_1 : (⟨S64x524288, .i32⟩ : BufTy).Contents (Elt F) → (⟨S64x524288x1, .i32⟩ : BufTy).Contents (Elt F))
abbrev op38 : HloOp τ sig (Elt F) :=
  binary main_v23 main_v24 main_v25 ((fun a b => concatenate S64x524288x2 2 [⟨S64x524288x1, a⟩, ⟨S64x524288x1, b⟩] concatenates_S64x524288x1_S64x524288x1_S64x524288x2_d2) : (⟨S64x524288x1, .i32⟩ : BufTy).Contents (Elt F) → (⟨S64x524288x1, .i32⟩ : BufTy).Contents (Elt F) → (⟨S64x524288x2, .i32⟩ : BufTy).Contents (Elt F))
abbrev op39 : HloOp τ sig (Elt F) :=
  nullary main_cst_6 (constant S_ .f32 0x3F800000#32)
abbrev op40 : HloOp τ sig (Elt F) :=
  unary main_cst_6 main_v26 (broadcastInDim S64x524288 ![] bcast_S_S64x524288 : (⟨S_, .f32⟩ : BufTy).Contents (Elt F) → (⟨S64x524288, .f32⟩ : BufTy).Contents (Elt F))
abbrev op41 : HloOp τ sig (Elt F) :=
  ternary main_v11 main_v25 main_v26 main_v27 ((fun x i u => Host.scatterAdd scatter_S64x64_S64x524288x2_S64x524288_n_01_01_2 x i u) : (⟨S64x64, .f32⟩ : BufTy).Contents (Elt F) → (⟨S64x524288x2, .i32⟩ : BufTy).Contents (Elt F) → (⟨S64x524288, .f32⟩ : BufTy).Contents (Elt F) → (⟨S64x64, .f32⟩ : BufTy).Contents (Elt F))
abbrev op42 : HloOp τ sig (Elt F) :=
  nullary main_cst_7 (constant S_ .f32 0x3F800000#32)
abbrev op43 : HloOp τ sig (Elt F) :=
  unary main_cst_7 main_v28 (broadcastInDim S64x64 ![] bcast_S_S64x64 : (⟨S_, .f32⟩ : BufTy).Contents (Elt F) → (⟨S64x64, .f32⟩ : BufTy).Contents (Elt F))
abbrev op44 : HloOp τ sig (Elt F) :=
  binary main_v28 main_v27 main_v29 (Host.divf : (⟨S64x64, .f32⟩ : BufTy).Contents (Elt F) → (⟨S64x64, .f32⟩ : BufTy).Contents (Elt F) → (⟨S64x64, .f32⟩ : BufTy).Contents (Elt F))
abbrev op45 : HloOp τ sig (Elt F) :=
  nullary main_c_8 (constantI S_ 32 0#32)
abbrev op46 : HloOp τ sig (Elt F) :=
  unary main_c_8 main_v30 (broadcastInDim S64x1 ![] bcast_S_S64x1 : (⟨S_, .i32⟩ : BufTy).Contents (Elt F) → (⟨S64x1, .i32⟩ : BufTy).Contents (Elt F))
abbrev op47 : HloOp τ sig (Elt F) :=
  binary main_v10 main_v30 main_v31 (cmpi .slt : (⟨S64x1, .i32⟩ : BufTy).Contents (Elt F) → (⟨S64x1, .i32⟩ : BufTy).Contents (Elt F) → (⟨S64x1, .i1⟩ : BufTy).Contents (Elt F))
abbrev op48 : HloOp τ sig (Elt F) :=
  nullary main_c_9 (constantI S_ 32 64#32)
abbrev op49 : HloOp τ sig (Elt F) :=
  unary main_c_9 main_v32 (broadcastInDim S64x1 ![] bcast_S_S64x1 : (⟨S_, .i32⟩ : BufTy).Contents (Elt F) → (⟨S64x1, .i32⟩ : BufTy).Contents (Elt F))
abbrev op50 : HloOp τ sig (Elt F) :=
  binary main_v10 main_v32 main_v33 (addi : (⟨S64x1, .i32⟩ : BufTy).Contents (Elt F) → (⟨S64x1, .i32⟩ : BufTy).Contents (Elt F) → (⟨S64x1, .i32⟩ : BufTy).Contents (Elt F))
abbrev op51 : HloOp τ sig (Elt F) :=
  ternary main_v31 main_v33 main_v10 main_v34 (select : (⟨S64x1, .i1⟩ : BufTy).Contents (Elt F) → (⟨S64x1, .i32⟩ : BufTy).Contents (Elt F) → (⟨S64x1, .i32⟩ : BufTy).Contents (Elt F) → (⟨S64x1, .i32⟩ : BufTy).Contents (Elt F))
abbrev op52 : HloOp τ sig (Elt F) :=
  nullary main_c_10 (constantI S_ 32 0#32)
abbrev op53 : HloOp τ sig (Elt F) :=
  unary main_c_10 main_v35 (broadcastInDim S64x524288 ![] bcast_S_S64x524288 : (⟨S_, .i32⟩ : BufTy).Contents (Elt F) → (⟨S64x524288, .i32⟩ : BufTy).Contents (Elt F))
abbrev op54 : HloOp τ sig (Elt F) :=
  binary main_v8 main_v35 main_v36 (cmpi .slt : (⟨S64x524288, .i32⟩ : BufTy).Contents (Elt F) → (⟨S64x524288, .i32⟩ : BufTy).Contents (Elt F) → (⟨S64x524288, .i1⟩ : BufTy).Contents (Elt F))
abbrev op55 : HloOp τ sig (Elt F) :=
  nullary main_c_11 (constantI S_ 32 64#32)
abbrev op56 : HloOp τ sig (Elt F) :=
  unary main_c_11 main_v37 (broadcastInDim S64x524288 ![] bcast_S_S64x524288 : (⟨S_, .i32⟩ : BufTy).Contents (Elt F) → (⟨S64x524288, .i32⟩ : BufTy).Contents (Elt F))
abbrev op57 : HloOp τ sig (Elt F) :=
  binary main_v8 main_v37 main_v38 (addi : (⟨S64x524288, .i32⟩ : BufTy).Contents (Elt F) → (⟨S64x524288, .i32⟩ : BufTy).Contents (Elt F) → (⟨S64x524288, .i32⟩ : BufTy).Contents (Elt F))
abbrev op58 : HloOp τ sig (Elt F) :=
  ternary main_v36 main_v38 main_v8 main_v39 (select : (⟨S64x524288, .i1⟩ : BufTy).Contents (Elt F) → (⟨S64x524288, .i32⟩ : BufTy).Contents (Elt F) → (⟨S64x524288, .i32⟩ : BufTy).Contents (Elt F) → (⟨S64x524288, .i32⟩ : BufTy).Contents (Elt F))
abbrev op59 : HloOp τ sig (Elt F) :=
  unary main_v34 main_v40 (broadcastInDim S64x524288 ![0, 1] bcast_S64x1_S64x524288_0_1 : (⟨S64x1, .i32⟩ : BufTy).Contents (Elt F) → (⟨S64x524288, .i32⟩ : BufTy).Contents (Elt F))
abbrev op60 : HloOp τ sig (Elt F) :=
  unary main_v40 main_v41 (broadcastInDim S64x524288x1 ![0, 1] bcast_S64x524288_S64x524288x1_0_1 : (⟨S64x524288, .i32⟩ : BufTy).Contents (Elt F) → (⟨S64x524288x1, .i32⟩ : BufTy).Contents (Elt F))
abbrev op61 : HloOp τ sig (Elt F) :=
  unary main_v39 main_v42 (broadcastInDim S64x524288x1 ![0, 1] bcast_S64x524288_S64x524288x1_0_1 : (⟨S64x524288, .i32⟩ : BufTy).Contents (Elt F) → (⟨S64x524288x1, .i32⟩ : BufTy).Contents (Elt F))
abbrev op62 : HloOp τ sig (Elt F) :=
  binary main_v41 main_v42 main_v43 ((fun a b => concatenate S64x524288x2 2 [⟨S64x524288x1, a⟩, ⟨S64x524288x1, b⟩] concatenates_S64x524288x1_S64x524288x1_S64x524288x2_d2) : (⟨S64x524288x1, .i32⟩ : BufTy).Contents (Elt F) → (⟨S64x524288x1, .i32⟩ : BufTy).Contents (Elt F) → (⟨S64x524288x2, .i32⟩ : BufTy).Contents (Elt F))
abbrev op63 : HloOp τ sig (Elt F) :=
  binary main_v29 main_v43 main_v44 ((fun x i => Host.gather gather_S64x64_S64x524288x2_S64x524288_n_01_n_n_01_2_11 x i) : (⟨S64x64, .f32⟩ : BufTy).Contents (Elt F) → (⟨S64x524288x2, .i32⟩ : BufTy).Contents (Elt F) → (⟨S64x524288, .f32⟩ : BufTy).Contents (Elt F))
abbrev op64 : HloOp τ sig (Elt F) :=
  unary main_v44 main_v45 (broadcastInDim S64x524288x1 ![0, 1] bcast_S64x524288_S64x524288x1_0_1 : (⟨S64x524288, .f32⟩ : BufTy).Contents (Elt F) → (⟨S64x524288x1, .f32⟩ : BufTy).Contents (Elt F))
abbrev op65 : HloOp τ sig (Elt F) :=
  binary main_v4 main_v45 main_v46 (mulf : (⟨S64x524288x1, .f32⟩ : BufTy).Contents (Elt F) → (⟨S64x524288x1, .f32⟩ : BufTy).Contents (Elt F) → (⟨S64x524288x1, .f32⟩ : BufTy).Contents (Elt F))
abbrev op66 : HloOp τ sig (Elt F) :=
  nullary main_cst_12 (constant S_ .f32 0x00000000#32)
abbrev op67 : HloOp τ sig (Elt F) :=
  binary main_v46 main_cst_12 main_v47 ((fun x v => Host.reduceAdd x v reducesTo_S64x524288x1_S_d0_1_2 h_S_) : (⟨S64x524288x1, .f32⟩ : BufTy).Contents (Elt F) → (⟨S_, .f32⟩ : BufTy).Contents (Elt F) → (⟨S_, .f32⟩ : BufTy).Contents (Elt F))
abbrev op68 : HloOp τ sig (Elt F) :=
  nullary main_cst_13 (constant S_ .f32 0x00000000#32)
abbrev op69 : HloOp τ sig (Elt F) :=
  binary main_v45 main_cst_13 main_v48 ((fun x v => Host.reduceAdd x v reducesTo_S64x524288x1_S_d0_1_2 h_S_) : (⟨S64x524288x1, .f32⟩ : BufTy).Contents (Elt F) → (⟨S_, .f32⟩ : BufTy).Contents (Elt F) → (⟨S_, .f32⟩ : BufTy).Contents (Elt F))
abbrev op70 : HloOp τ sig (Elt F) :=
  binary main_v47 main_v48 main_v49 (Host.divf : (⟨S_, .f32⟩ : BufTy).Contents (Elt F) → (⟨S_, .f32⟩ : BufTy).Contents (Elt F) → (⟨S_, .f32⟩ : BufTy).Contents (Elt F))
abbrev op71 : HloOp τ sig (Elt F) :=
  unary main_v49 main_v50 (Host.sqrt : (⟨S_, .f32⟩ : BufTy).Contents (Elt F) → (⟨S_, .f32⟩ : BufTy).Contents (Elt F))

/-- @main's 72 operations, in order. -/
abbrev ops : List (HloOp τ sig (Elt F)) :=
  [op0, op1, op2, op3, op4, op5, op6, op7, op8, op9, op10, op11, op12, op13, op14, op15, op16, op17, op18, op19, op20, op21, op22, op23, op24, op25, op26, op27, op28, op29, op30, op31, op32, op33, op34, op35, op36, op37, op38, op39, op40, op41, op42, op43, op44, op45, op46, op47, op48, op49, op50, op51, op52, op53, op54, op55, op56, op57, op58, op59, op60, op61, op62, op63, op64, op65, op66, op67, op68, op69, op70, op71]

/-! ## One step per operation -/

/-- Operation 0 writes main_v0 from main_arg1: the stages still to be read keep their values and main_v0 gets its own. -/
theorem step0 (x0 x1 : (⟨S64x524288x1, .f32⟩ : BufTy).Contents (Elt F)) (P : Valuation τ sig (Elt F) → Prop)
    (rest : List (HloOp τ sig (Elt F))) (V : Valuation τ sig (Elt F))
    (h_main_arg0 : V (Proc.devRef .tc main_arg0) = x0)
    (h_main_arg1 : V (Proc.devRef .tc main_arg1) = x1)
    (hP : ∀ V' : Valuation τ sig (Elt F), V' (Proc.devRef .tc main_arg0) = x0 →
      V' (Proc.devRef .tc main_arg1) = x1 →
      V' (Proc.devRef .tc main_v0) = ReadP.val_main_v0 (F := F) x1 → P (after rest V')) :
    P (after (op0 (F := F) :: rest) V) := by
  rw [after_cons]
  refine hP _ ?_ ?_ ?_
  · rw [unary_result_ne]; exact h_main_arg0; decide
  · rw [unary_result_ne]; exact h_main_arg1; decide
  · rw [unary_result, h_main_arg1] <;> rfl

/-- Operation 1 writes main_cst: the stages still to be read keep their values and main_cst gets its own. -/
theorem step1 (x0 x1 : (⟨S64x524288x1, .f32⟩ : BufTy).Contents (Elt F)) (P : Valuation τ sig (Elt F) → Prop)
    (rest : List (HloOp τ sig (Elt F))) (V : Valuation τ sig (Elt F))
    (h_main_arg0 : V (Proc.devRef .tc main_arg0) = x0)
    (h_main_arg1 : V (Proc.devRef .tc main_arg1) = x1)
    (h_main_v0 : V (Proc.devRef .tc main_v0) = ReadP.val_main_v0 (F := F) x1)
    (hP : ∀ V' : Valuation τ sig (Elt F), V' (Proc.devRef .tc main_arg0) = x0 →
      V' (Proc.devRef .tc main_arg1) = x1 →
      V' (Proc.devRef .tc main_v0) = ReadP.val_main_v0 (F := F) x1 →
      V' (Proc.devRef .tc main_cst) = ReadP.val_main_cst (F := F) → P (after rest V')) :
    P (after (op1 (F := F) :: rest) V) := by
  rw [after_cons]
  refine hP _ ?_ ?_ ?_ ?_
  · rw [nullary_result_ne]; exact h_main_arg0; decide
  · rw [nullary_result_ne]; exact h_main_arg1; decide
  · rw [nullary_result_ne]; exact h_main_v0; decide
  · rw [nullary_result] <;> rfl

/-- Operation 2 writes main_v1 from main_cst: the stages still to be read keep their values and main_v1 gets its own. -/
theorem step2 (x0 x1 : (⟨S64x524288x1, .f32⟩ : BufTy).Contents (Elt F)) (P : Valuation τ sig (Elt F) → Prop)
    (rest : List (HloOp τ sig (Elt F))) (V : Valuation τ sig (Elt F))
    (h_main_arg0 : V (Proc.devRef .tc main_arg0) = x0)
    (h_main_arg1 : V (Proc.devRef .tc main_arg1) = x1)
    (h_main_v0 : V (Proc.devRef .tc main_v0) = ReadP.val_main_v0 (F := F) x1)
    (h_main_cst : V (Proc.devRef .tc main_cst) = ReadP.val_main_cst (F := F))
    (hP : ∀ V' : Valuation τ sig (Elt F), V' (Proc.devRef .tc main_arg0) = x0 →
      V' (Proc.devRef .tc main_arg1) = x1 →
      V' (Proc.devRef .tc main_v0) = ReadP.val_main_v0 (F := F) x1 →
      V' (Proc.devRef .tc main_v1) = ReadP.val_main_v1 (F := F) → P (after rest V')) :
    P (after (op2 (F := F) :: rest) V) := by
  rw [after_cons]
  refine hP _ ?_ ?_ ?_ ?_
  · rw [unary_result_ne]; exact h_main_arg0; decide
  · rw [unary_result_ne]; exact h_main_arg1; decide
  · rw [unary_result_ne]; exact h_main_v0; decide
  · rw [unary_result, h_main_cst] <;> rfl

/-- Operation 3 writes main_v2 from main_v0, main_v1: the stages still to be read keep their values and main_v2 gets its own. -/
theorem step3 (x0 x1 : (⟨S64x524288x1, .f32⟩ : BufTy).Contents (Elt F)) (P : Valuation τ sig (Elt F) → Prop)
    (rest : List (HloOp τ sig (Elt F))) (V : Valuation τ sig (Elt F))
    (h_main_arg0 : V (Proc.devRef .tc main_arg0) = x0)
    (h_main_arg1 : V (Proc.devRef .tc main_arg1) = x1)
    (h_main_v0 : V (Proc.devRef .tc main_v0) = ReadP.val_main_v0 (F := F) x1)
    (h_main_v1 : V (Proc.devRef .tc main_v1) = ReadP.val_main_v1 (F := F))
    (hP : ∀ V' : Valuation τ sig (Elt F), V' (Proc.devRef .tc main_arg0) = x0 →
      V' (Proc.devRef .tc main_arg1) = x1 →
      V' (Proc.devRef .tc main_v2) = ReadP.val_main_v2 (F := F) x1 → P (after rest V')) :
    P (after (op3 (F := F) :: rest) V) := by
  rw [after_cons]
  refine hP _ ?_ ?_ ?_
  · rw [binary_result_ne]; exact h_main_arg0; decide
  · rw [binary_result_ne]; exact h_main_arg1; decide
  · rw [binary_result, h_main_v0, h_main_v1] <;> rfl

/-- Operation 4 writes main_v3 from main_arg0, main_arg1: the stages still to be read keep their values and main_v3 gets its own. -/
theorem step4 (x0 x1 : (⟨S64x524288x1, .f32⟩ : BufTy).Contents (Elt F)) (P : Valuation τ sig (Elt F) → Prop)
    (rest : List (HloOp τ sig (Elt F))) (V : Valuation τ sig (Elt F))
    (h_main_arg0 : V (Proc.devRef .tc main_arg0) = x0)
    (h_main_arg1 : V (Proc.devRef .tc main_arg1) = x1)
    (h_main_v2 : V (Proc.devRef .tc main_v2) = ReadP.val_main_v2 (F := F) x1)
    (hP : ∀ V' : Valuation τ sig (Elt F), V' (Proc.devRef .tc main_arg0) = x0 →
      V' (Proc.devRef .tc main_arg1) = x1 →
      V' (Proc.devRef .tc main_v2) = ReadP.val_main_v2 (F := F) x1 →
      V' (Proc.devRef .tc main_v3) = ReadP.val_main_v3 (F := F) x0 x1 → P (after rest V')) :
    P (after (op4 (F := F) :: rest) V) := by
  rw [after_cons]
  refine hP _ ?_ ?_ ?_ ?_
  · rw [binary_result_ne]; exact h_main_arg0; decide
  · rw [binary_result_ne]; exact h_main_arg1; decide
  · rw [binary_result_ne]; exact h_main_v2; decide
  · rw [binary_result, h_main_arg0, h_main_arg1] <;> rfl

/-- Operation 5 writes main_v4 from main_v3: the stages still to be read keep their values and main_v4 gets its own. -/
theorem step5 (x0 x1 : (⟨S64x524288x1, .f32⟩ : BufTy).Contents (Elt F)) (P : Valuation τ sig (Elt F) → Prop)
    (rest : List (HloOp τ sig (Elt F))) (V : Valuation τ sig (Elt F))
    (h_main_arg0 : V (Proc.devRef .tc main_arg0) = x0)
    (h_main_arg1 : V (Proc.devRef .tc main_arg1) = x1)
    (h_main_v2 : V (Proc.devRef .tc main_v2) = ReadP.val_main_v2 (F := F) x1)
    (h_main_v3 : V (Proc.devRef .tc main_v3) = ReadP.val_main_v3 (F := F) x0 x1)
    (hP : ∀ V' : Valuation τ sig (Elt F), V' (Proc.devRef .tc main_arg0) = x0 →
      V' (Proc.devRef .tc main_arg1) = x1 →
      V' (Proc.devRef .tc main_v2) = ReadP.val_main_v2 (F := F) x1 →
      V' (Proc.devRef .tc main_v4) = ReadP.val_main_v4 (F := F) x0 x1 → P (after rest V')) :
    P (after (op5 (F := F) :: rest) V) := by
  rw [after_cons]
  refine hP _ ?_ ?_ ?_ ?_
  · rw [binary_result_ne]; exact h_main_arg0; decide
  · rw [binary_result_ne]; exact h_main_arg1; decide
  · rw [binary_result_ne]; exact h_main_v2; decide
  · rw [binary_result, h_main_v3] <;> rfl

/-- Operation 6 writes main_v5 from main_v2: the stages still to be read keep their values and main_v5 gets its own. -/
theorem step6 (x0 x1 : (⟨S64x524288x1, .f32⟩ : BufTy).Contents (Elt F)) (P : Valuation τ sig (Elt F) → Prop)
    (rest : List (HloOp τ sig (Elt F))) (V : Valuation τ sig (Elt F))
    (h_main_arg0 : V (Proc.devRef .tc main_arg0) = x0)
    (h_main_arg1 : V (Proc.devRef .tc main_arg1) = x1)
    (h_main_v2 : V (Proc.devRef .tc main_v2) = ReadP.val_main_v2 (F := F) x1)
    (h_main_v4 : V (Proc.devRef .tc main_v4) = ReadP.val_main_v4 (F := F) x0 x1)
    (hP : ∀ V' : Valuation τ sig (Elt F), V' (Proc.devRef .tc main_arg0) = x0 →
      V' (Proc.devRef .tc main_arg1) = x1 →
      V' (Proc.devRef .tc main_v4) = ReadP.val_main_v4 (F := F) x0 x1 →
      V' (Proc.devRef .tc main_v5) = ReadP.val_main_v5 (F := F) x1 → P (after rest V')) :
    P (after (op6 (F := F) :: rest) V) := by
  rw [after_cons]
  refine hP _ ?_ ?_ ?_ ?_
  · rw [reshape_result_ne]; exact h_main_arg0; decide
  · rw [reshape_result_ne]; exact h_main_arg1; decide
  · rw [reshape_result_ne]; exact h_main_v4; decide
  · rw [reshape_result, h_main_v2] <;> rfl

/-- Operation 7 writes main_v6 from main_v5: the stages still to be read keep their values and main_v6 gets its own. -/
theorem step7 (x0 x1 : (⟨S64x524288x1, .f32⟩ : BufTy).Contents (Elt F)) (P : Valuation τ sig (Elt F) → Prop)
    (rest : List (HloOp τ sig (Elt F))) (V : Valuation τ sig (Elt F))
    (h_main_arg0 : V (Proc.devRef .tc main_arg0) = x0)
    (h_main_arg1 : V (Proc.devRef .tc main_arg1) = x1)
    (h_main_v4 : V (Proc.devRef .tc main_v4) = ReadP.val_main_v4 (F := F) x0 x1)
    (h_main_v5 : V (Proc.devRef .tc main_v5) = ReadP.val_main_v5 (F := F) x1)
    (hP : ∀ V' : Valuation τ sig (Elt F), V' (Proc.devRef .tc main_arg0) = x0 →
      V' (Proc.devRef .tc main_arg1) = x1 →
      V' (Proc.devRef .tc main_v4) = ReadP.val_main_v4 (F := F) x0 x1 →
      V' (Proc.devRef .tc main_v6) = ReadP.val_main_v6 (F := F) x1 → P (after rest V')) :
    P (after (op7 (F := F) :: rest) V) := by
  rw [after_cons]
  refine hP _ ?_ ?_ ?_ ?_
  · rw [unary_result_ne]; exact h_main_arg0; decide
  · rw [unary_result_ne]; exact h_main_arg1; decide
  · rw [unary_result_ne]; exact h_main_v4; decide
  · rw [unary_result, h_main_v5] <;> rfl

/-- Operation 8 writes main_v7 from main_v6: the stages still to be read keep their values and main_v7 gets its own. -/
theorem step8 (x0 x1 : (⟨S64x524288x1, .f32⟩ : BufTy).Contents (Elt F)) (P : Valuation τ sig (Elt F) → Prop)
    (rest : List (HloOp τ sig (Elt F))) (V : Valuation τ sig (Elt F))
    (h_main_arg0 : V (Proc.devRef .tc main_arg0) = x0)
    (h_main_arg1 : V (Proc.devRef .tc main_arg1) = x1)
    (h_main_v4 : V (Proc.devRef .tc main_v4) = ReadP.val_main_v4 (F := F) x0 x1)
    (h_main_v6 : V (Proc.devRef .tc main_v6) = ReadP.val_main_v6 (F := F) x1)
    (hP : ∀ V' : Valuation τ sig (Elt F), V' (Proc.devRef .tc main_arg0) = x0 →
      V' (Proc.devRef .tc main_arg1) = x1 →
      V' (Proc.devRef .tc main_v4) = ReadP.val_main_v4 (F := F) x0 x1 →
      V' (Proc.devRef .tc main_v7) = ReadP.val_main_v7 (F := F) x1 → P (after rest V')) :
    P (after (op8 (F := F) :: rest) V) := by
  rw [after_cons]
  refine hP _ ?_ ?_ ?_ ?_
  · rw [unary_result_ne]; exact h_main_arg0; decide
  · rw [unary_result_ne]; exact h_main_arg1; decide
  · rw [unary_result_ne]; exact h_main_v4; decide
  · rw [unary_result, h_main_v6] <;> rfl

/-- Operation 9 writes main_c: the stages still to be read keep their values and main_c gets its own. -/
theorem step9 (x0 x1 : (⟨S64x524288x1, .f32⟩ : BufTy).Contents (Elt F)) (P : Valuation τ sig (Elt F) → Prop)
    (rest : List (HloOp τ sig (Elt F))) (V : Valuation τ sig (Elt F))
    (h_main_arg0 : V (Proc.devRef .tc main_arg0) = x0)
    (h_main_arg1 : V (Proc.devRef .tc main_arg1) = x1)
    (h_main_v4 : V (Proc.devRef .tc main_v4) = ReadP.val_main_v4 (F := F) x0 x1)
    (h_main_v7 : V (Proc.devRef .tc main_v7) = ReadP.val_main_v7 (F := F) x1)
    (hP : ∀ V' : Valuation τ sig (Elt F), V' (Proc.devRef .tc main_arg0) = x0 →
      V' (Proc.devRef .tc main_arg1) = x1 →
      V' (Proc.devRef .tc main_v4) = ReadP.val_main_v4 (F := F) x0 x1 →
      V' (Proc.devRef .tc main_v7) = ReadP.val_main_v7 (F := F) x1 →
      V' (Proc.devRef .tc main_c) = ReadP.val_main_c (F := F) → P (after rest V')) :
    P (after (op9 (F := F) :: rest) V) := by
  rw [after_cons]
  refine hP _ ?_ ?_ ?_ ?_ ?_
  · rw [nullary_result_ne]; exact h_main_arg0; decide
  · rw [nullary_result_ne]; exact h_main_arg1; decide
  · rw [nullary_result_ne]; exact h_main_v4; decide
  · rw [nullary_result_ne]; exact h_main_v7; decide
  · rw [nullary_result] <;> rfl

/-- Operation 10 writes main_c_0: the stages still to be read keep their values and main_c_0 gets its own. -/
theorem step10 (x0 x1 : (⟨S64x524288x1, .f32⟩ : BufTy).Contents (Elt F)) (P : Valuation τ sig (Elt F) → Prop)
    (rest : List (HloOp τ sig (Elt F))) (V : Valuation τ sig (Elt F))
    (h_main_arg0 : V (Proc.devRef .tc main_arg0) = x0)
    (h_main_arg1 : V (Proc.devRef .tc main_arg1) = x1)
    (h_main_v4 : V (Proc.devRef .tc main_v4) = ReadP.val_main_v4 (F := F) x0 x1)
    (h_main_v7 : V (Proc.devRef .tc main_v7) = ReadP.val_main_v7 (F := F) x1)
    (h_main_c : V (Proc.devRef .tc main_c) = ReadP.val_main_c (F := F))
    (hP : ∀ V' : Valuation τ sig (Elt F), V' (Proc.devRef .tc main_arg0) = x0 →
      V' (Proc.devRef .tc main_arg1) = x1 →
      V' (Proc.devRef .tc main_v4) = ReadP.val_main_v4 (F := F) x0 x1 →
      V' (Proc.devRef .tc main_v7) = ReadP.val_main_v7 (F := F) x1 →
      V' (Proc.devRef .tc main_c) = ReadP.val_main_c (F := F) →
      V' (Proc.devRef .tc main_c_0) = ReadP.val_main_c_0 (F := F) → P (after rest V')) :
    P (after (op10 (F := F) :: rest) V) := by
  rw [after_cons]
  refine hP _ ?_ ?_ ?_ ?_ ?_ ?_
  · rw [nullary_result_ne]; exact h_main_arg0; decide
  · rw [nullary_result_ne]; exact h_main_arg1; decide
  · rw [nullary_result_ne]; exact h_main_v4; decide
  · rw [nullary_result_ne]; exact h_main_v7; decide
  · rw [nullary_result_ne]; exact h_main_c; decide
  · rw [nullary_result] <;> rfl

/-- Operation 11 writes main_call0_v0 from main_c: the stages still to be read keep their values and main_call0_v0 gets its own. -/
theorem step11 (x0 x1 : (⟨S64x524288x1, .f32⟩ : BufTy).Contents (Elt F)) (P : Valuation τ sig (Elt F) → Prop)
    (rest : List (HloOp τ sig (Elt F))) (V : Valuation τ sig (Elt F))
    (h_main_arg0 : V (Proc.devRef .tc main_arg0) = x0)
    (h_main_arg1 : V (Proc.devRef .tc main_arg1) = x1)
    (h_main_v4 : V (Proc.devRef .tc main_v4) = ReadP.val_main_v4 (F := F) x0 x1)
    (h_main_v7 : V (Proc.devRef .tc main_v7) = ReadP.val_main_v7 (F := F) x1)
    (h_main_c : V (Proc.devRef .tc main_c) = ReadP.val_main_c (F := F))
    (h_main_c_0 : V (Proc.devRef .tc main_c_0) = ReadP.val_main_c_0 (F := F))
    (hP : ∀ V' : Valuation τ sig (Elt F), V' (Proc.devRef .tc main_arg0) = x0 →
      V' (Proc.devRef .tc main_arg1) = x1 →
      V' (Proc.devRef .tc main_v4) = ReadP.val_main_v4 (F := F) x0 x1 →
      V' (Proc.devRef .tc main_v7) = ReadP.val_main_v7 (F := F) x1 →
      V' (Proc.devRef .tc main_c_0) = ReadP.val_main_c_0 (F := F) →
      V' (Proc.devRef .tc main_call0_v0) = ReadP.val_main_call0_v0 (F := F) → P (after rest V')) :
    P (after (op11 (F := F) :: rest) V) := by
  rw [after_cons]
  refine hP _ ?_ ?_ ?_ ?_ ?_ ?_
  · rw [unary_result_ne]; exact h_main_arg0; decide
  · rw [unary_result_ne]; exact h_main_arg1; decide
  · rw [unary_result_ne]; exact h_main_v4; decide
  · rw [unary_result_ne]; exact h_main_v7; decide
  · rw [unary_result_ne]; exact h_main_c_0; decide
  · rw [unary_result, h_main_c] <;> rfl

/-- Operation 12 writes main_call0_v1 from main_call0_v0: the stages still to be read keep their values and main_call0_v1 gets its own. -/
theorem step12 (x0 x1 : (⟨S64x524288x1, .f32⟩ : BufTy).Contents (Elt F)) (P : Valuation τ sig (Elt F) → Prop)
    (rest : List (HloOp τ sig (Elt F))) (V : Valuation τ sig (Elt F))
    (h_main_arg0 : V (Proc.devRef .tc main_arg0) = x0)
    (h_main_arg1 : V (Proc.devRef .tc main_arg1) = x1)
    (h_main_v4 : V (Proc.devRef .tc main_v4) = ReadP.val_main_v4 (F := F) x0 x1)
    (h_main_v7 : V (Proc.devRef .tc main_v7) = ReadP.val_main_v7 (F := F) x1)
    (h_main_c_0 : V (Proc.devRef .tc main_c_0) = ReadP.val_main_c_0 (F := F))
    (h_main_call0_v0 : V (Proc.devRef .tc main_call0_v0) = ReadP.val_main_call0_v0 (F := F))
    (hP : ∀ V' : Valuation τ sig (Elt F), V' (Proc.devRef .tc main_arg0) = x0 →
      V' (Proc.devRef .tc main_arg1) = x1 →
      V' (Proc.devRef .tc main_v4) = ReadP.val_main_v4 (F := F) x0 x1 →
      V' (Proc.devRef .tc main_v7) = ReadP.val_main_v7 (F := F) x1 →
      V' (Proc.devRef .tc main_c_0) = ReadP.val_main_c_0 (F := F) →
      V' (Proc.devRef .tc main_call0_v1) = ReadP.val_main_call0_v1 (F := F) → P (after rest V')) :
    P (after (op12 (F := F) :: rest) V) := by
  rw [after_cons]
  refine hP _ ?_ ?_ ?_ ?_ ?_ ?_
  · rw [unary_result_ne]; exact h_main_arg0; decide
  · rw [unary_result_ne]; exact h_main_arg1; decide
  · rw [unary_result_ne]; exact h_main_v4; decide
  · rw [unary_result_ne]; exact h_main_v7; decide
  · rw [unary_result_ne]; exact h_main_c_0; decide
  · rw [unary_result, h_main_call0_v0] <;> rfl

/-- Operation 13 writes main_call0_v2 from main_call0_v1, main_v7: the stages still to be read keep their values and main_call0_v2 gets its own. -/
theorem step13 (x0 x1 : (⟨S64x524288x1, .f32⟩ : BufTy).Contents (Elt F)) (P : Valuation τ sig (Elt F) → Prop)
    (rest : List (HloOp τ sig (Elt F))) (V : Valuation τ sig (Elt F))
    (h_main_arg0 : V (Proc.devRef .tc main_arg0) = x0)
    (h_main_arg1 : V (Proc.devRef .tc main_arg1) = x1)
    (h_main_v4 : V (Proc.devRef .tc main_v4) = ReadP.val_main_v4 (F := F) x0 x1)
    (h_main_v7 : V (Proc.devRef .tc main_v7) = ReadP.val_main_v7 (F := F) x1)
    (h_main_c_0 : V (Proc.devRef .tc main_c_0) = ReadP.val_main_c_0 (F := F))
    (h_main_call0_v1 : V (Proc.devRef .tc main_call0_v1) = ReadP.val_main_call0_v1 (F := F))
    (hP : ∀ V' : Valuation τ sig (Elt F), V' (Proc.devRef .tc main_arg0) = x0 →
      V' (Proc.devRef .tc main_arg1) = x1 →
      V' (Proc.devRef .tc main_v4) = ReadP.val_main_v4 (F := F) x0 x1 →
      V' (Proc.devRef .tc main_c_0) = ReadP.val_main_c_0 (F := F) →
      V' (Proc.devRef .tc main_call0_v2) = ReadP.val_main_call0_v2 (F := F) x1 → P (after rest V')) :
    P (after (op13 (F := F) :: rest) V) := by
  rw [after_cons]
  refine hP _ ?_ ?_ ?_ ?_ ?_
  · rw [binary_result_ne]; exact h_main_arg0; decide
  · rw [binary_result_ne]; exact h_main_arg1; decide
  · rw [binary_result_ne]; exact h_main_v4; decide
  · rw [binary_result_ne]; exact h_main_c_0; decide
  · rw [binary_result, h_main_call0_v1, h_main_v7] <;> rfl

/-- Operation 14 writes main_call0_v3 from main_c_0: the stages still to be read keep their values and main_call0_v3 gets its own. -/
theorem step14 (x0 x1 : (⟨S64x524288x1, .f32⟩ : BufTy).Contents (Elt F)) (P : Valuation τ sig (Elt F) → Prop)
    (rest : List (HloOp τ sig (Elt F))) (V : Valuation τ sig (Elt F))
    (h_main_arg0 : V (Proc.devRef .tc main_arg0) = x0)
    (h_main_arg1 : V (Proc.devRef .tc main_arg1) = x1)
    (h_main_v4 : V (Proc.devRef .tc main_v4) = ReadP.val_main_v4 (F := F) x0 x1)
    (h_main_c_0 : V (Proc.devRef .tc main_c_0) = ReadP.val_main_c_0 (F := F))
    (h_main_call0_v2 : V (Proc.devRef .tc main_call0_v2) = ReadP.val_main_call0_v2 (F := F) x1)
    (hP : ∀ V' : Valuation τ sig (Elt F), V' (Proc.devRef .tc main_arg0) = x0 →
      V' (Proc.devRef .tc main_arg1) = x1 →
      V' (Proc.devRef .tc main_v4) = ReadP.val_main_v4 (F := F) x0 x1 →
      V' (Proc.devRef .tc main_call0_v2) = ReadP.val_main_call0_v2 (F := F) x1 →
      V' (Proc.devRef .tc main_call0_v3) = ReadP.val_main_call0_v3 (F := F) → P (after rest V')) :
    P (after (op14 (F := F) :: rest) V) := by
  rw [after_cons]
  refine hP _ ?_ ?_ ?_ ?_ ?_
  · rw [unary_result_ne]; exact h_main_arg0; decide
  · rw [unary_result_ne]; exact h_main_arg1; decide
  · rw [unary_result_ne]; exact h_main_v4; decide
  · rw [unary_result_ne]; exact h_main_call0_v2; decide
  · rw [unary_result, h_main_c_0] <;> rfl

/-- Operation 15 writes main_call0_v4 from main_call0_v3: the stages still to be read keep their values and main_call0_v4 gets its own. -/
theorem step15 (x0 x1 : (⟨S64x524288x1, .f32⟩ : BufTy).Contents (Elt F)) (P : Valuation τ sig (Elt F) → Prop)
    (rest : List (HloOp τ sig (Elt F))) (V : Valuation τ sig (Elt F))
    (h_main_arg0 : V (Proc.devRef .tc main_arg0) = x0)
    (h_main_arg1 : V (Proc.devRef .tc main_arg1) = x1)
    (h_main_v4 : V (Proc.devRef .tc main_v4) = ReadP.val_main_v4 (F := F) x0 x1)
    (h_main_call0_v2 : V (Proc.devRef .tc main_call0_v2) = ReadP.val_main_call0_v2 (F := F) x1)
    (h_main_call0_v3 : V (Proc.devRef .tc main_call0_v3) = ReadP.val_main_call0_v3 (F := F))
    (hP : ∀ V' : Valuation τ sig (Elt F), V' (Proc.devRef .tc main_arg0) = x0 →
      V' (Proc.devRef .tc main_arg1) = x1 →
      V' (Proc.devRef .tc main_v4) = ReadP.val_main_v4 (F := F) x0 x1 →
      V' (Proc.devRef .tc main_call0_v2) = ReadP.val_main_call0_v2 (F := F) x1 →
      V' (Proc.devRef .tc main_call0_v4) = ReadP.val_main_call0_v4 (F := F) → P (after rest V')) :
    P (after (op15 (F := F) :: rest) V) := by
  rw [after_cons]
  refine hP _ ?_ ?_ ?_ ?_ ?_
  · rw [unary_result_ne]; exact h_main_arg0; decide
  · rw [unary_result_ne]; exact h_main_arg1; decide
  · rw [unary_result_ne]; exact h_main_v4; decide
  · rw [unary_result_ne]; exact h_main_call0_v2; decide
  · rw [unary_result, h_main_call0_v3] <;> rfl

/-- Operation 16 writes main_v8 from main_call0_v4, main_call0_v2: the stages still to be read keep their values and main_v8 gets its own. -/
theorem step16 (x0 x1 : (⟨S64x524288x1, .f32⟩ : BufTy).Contents (Elt F)) (P : Valuation τ sig (Elt F) → Prop)
    (rest : List (HloOp τ sig (Elt F))) (V : Valuation τ sig (Elt F))
    (h_main_arg0 : V (Proc.devRef .tc main_arg0) = x0)
    (h_main_arg1 : V (Proc.devRef .tc main_arg1) = x1)
    (h_main_v4 : V (Proc.devRef .tc main_v4) = ReadP.val_main_v4 (F := F) x0 x1)
    (h_main_call0_v2 : V (Proc.devRef .tc main_call0_v2) = ReadP.val_main_call0_v2 (F := F) x1)
    (h_main_call0_v4 : V (Proc.devRef .tc main_call0_v4) = ReadP.val_main_call0_v4 (F := F))
    (hP : ∀ V' : Valuation τ sig (Elt F), V' (Proc.devRef .tc main_arg0) = x0 →
      V' (Proc.devRef .tc main_arg1) = x1 →
      V' (Proc.devRef .tc main_v4) = ReadP.val_main_v4 (F := F) x0 x1 →
      V' (Proc.devRef .tc main_v8) = ReadP.val_main_v8 (F := F) x1 → P (after rest V')) :
    P (after (op16 (F := F) :: rest) V) := by
  rw [after_cons]
  refine hP _ ?_ ?_ ?_ ?_
  · rw [binary_result_ne]; exact h_main_arg0; decide
  · rw [binary_result_ne]; exact h_main_arg1; decide
  · rw [binary_result_ne]; exact h_main_v4; decide
  · rw [binary_result, h_main_call0_v4, h_main_call0_v2] <;> rfl

/-- Operation 17 writes main_v9: the stages still to be read keep their values and main_v9 gets its own. -/
theorem step17 (x0 x1 : (⟨S64x524288x1, .f32⟩ : BufTy).Contents (Elt F)) (P : Valuation τ sig (Elt F) → Prop)
    (rest : List (HloOp τ sig (Elt F))) (V : Valuation τ sig (Elt F))
    (h_main_arg0 : V (Proc.devRef .tc main_arg0) = x0)
    (h_main_arg1 : V (Proc.devRef .tc main_arg1) = x1)
    (h_main_v4 : V (Proc.devRef .tc main_v4) = ReadP.val_main_v4 (F := F) x0 x1)
    (h_main_v8 : V (Proc.devRef .tc main_v8) = ReadP.val_main_v8 (F := F) x1)
    (hP : ∀ V' : Valuation τ sig (Elt F), V' (Proc.devRef .tc main_arg0) = x0 →
      V' (Proc.devRef .tc main_arg1) = x1 →
      V' (Proc.devRef .tc main_v4) = ReadP.val_main_v4 (F := F) x0 x1 →
      V' (Proc.devRef .tc main_v8) = ReadP.val_main_v8 (F := F) x1 →
      V' (Proc.devRef .tc main_v9) = ReadP.val_main_v9 (F := F) → P (after rest V')) :
    P (after (op17 (F := F) :: rest) V) := by
  rw [after_cons]
  refine hP _ ?_ ?_ ?_ ?_ ?_
  · rw [nullary_result_ne]; exact h_main_arg0; decide
  · rw [nullary_result_ne]; exact h_main_arg1; decide
  · rw [nullary_result_ne]; exact h_main_v4; decide
  · rw [nullary_result_ne]; exact h_main_v8; decide
  · rw [nullary_result] <;> rfl

/-- Operation 18 writes main_v10 from main_v9: the stages still to be read keep their values and main_v10 gets its own. -/
theorem step18 (x0 x1 : (⟨S64x524288x1, .f32⟩ : BufTy).Contents (Elt F)) (P : Valuation τ sig (Elt F) → Prop)
    (rest : List (HloOp τ sig (Elt F))) (V : Valuation τ sig (Elt F))
    (h_main_arg0 : V (Proc.devRef .tc main_arg0) = x0)
    (h_main_arg1 : V (Proc.devRef .tc main_arg1) = x1)
    (h_main_v4 : V (Proc.devRef .tc main_v4) = ReadP.val_main_v4 (F := F) x0 x1)
    (h_main_v8 : V (Proc.devRef .tc main_v8) = ReadP.val_main_v8 (F := F) x1)
    (h_main_v9 : V (Proc.devRef .tc main_v9) = ReadP.val_main_v9 (F := F))
    (hP : ∀ V' : Valuation τ sig (Elt F), V' (Proc.devRef .tc main_arg0) = x0 →
      V' (Proc.devRef .tc main_arg1) = x1 →
      V' (Proc.devRef .tc main_v4) = ReadP.val_main_v4 (F := F) x0 x1 →
      V' (Proc.devRef .tc main_v8) = ReadP.val_main_v8 (F := F) x1 →
      V' (Proc.devRef .tc main_v10) = ReadP.val_main_v10 (F := F) → P (after rest V')) :
    P (after (op18 (F := F) :: rest) V) := by
  rw [after_cons]
  refine hP _ ?_ ?_ ?_ ?_ ?_
  · rw [unary_result_ne]; exact h_main_arg0; decide
  · rw [unary_result_ne]; exact h_main_arg1; decide
  · rw [unary_result_ne]; exact h_main_v4; decide
  · rw [unary_result_ne]; exact h_main_v8; decide
  · rw [unary_result, h_main_v9] <;> rfl

/-- Operation 19 writes main_cst_1: the stages still to be read keep their values and main_cst_1 gets its own. -/
theorem step19 (x0 x1 : (⟨S64x524288x1, .f32⟩ : BufTy).Contents (Elt F)) (P : Valuation τ sig (Elt F) → Prop)
    (rest : List (HloOp τ sig (Elt F))) (V : Valuation τ sig (Elt F))
    (h_main_arg0 : V (Proc.devRef .tc main_arg0) = x0)
    (h_main_arg1 : V (Proc.devRef .tc main_arg1) = x1)
    (h_main_v4 : V (Proc.devRef .tc main_v4) = ReadP.val_main_v4 (F := F) x0 x1)
    (h_main_v8 : V (Proc.devRef .tc main_v8) = ReadP.val_main_v8 (F := F) x1)
    (h_main_v10 : V (Proc.devRef .tc main_v10) = ReadP.val_main_v10 (F := F))
    (hP : ∀ V' : Valuation τ sig (Elt F), V' (Proc.devRef .tc main_arg0) = x0 →
      V' (Proc.devRef .tc main_arg1) = x1 →
      V' (Proc.devRef .tc main_v4) = ReadP.val_main_v4 (F := F) x0 x1 →
      V' (Proc.devRef .tc main_v8) = ReadP.val_main_v8 (F := F) x1 →
      V' (Proc.devRef .tc main_v10) = ReadP.val_main_v10 (F := F) →
      V' (Proc.devRef .tc main_cst_1) = ReadP.val_main_cst_1 (F := F) → P (after rest V')) :
    P (after (op19 (F := F) :: rest) V) := by
  rw [after_cons]
  refine hP _ ?_ ?_ ?_ ?_ ?_ ?_
  · rw [nullary_result_ne]; exact h_main_arg0; decide
  · rw [nullary_result_ne]; exact h_main_arg1; decide
  · rw [nullary_result_ne]; exact h_main_v4; decide
  · rw [nullary_result_ne]; exact h_main_v8; decide
  · rw [nullary_result_ne]; exact h_main_v10; decide
  · rw [nullary_result] <;> rfl

/-- Operation 20 writes main_v11 from main_cst_1: the stages still to be read keep their values and main_v11 gets its own. -/
theorem step20 (x0 x1 : (⟨S64x524288x1, .f32⟩ : BufTy).Contents (Elt F)) (P : Valuation τ sig (Elt F) → Prop)
    (rest : List (HloOp τ sig (Elt F))) (V : Valuation τ sig (Elt F))
    (h_main_arg0 : V (Proc.devRef .tc main_arg0) = x0)
    (h_main_arg1 : V (Proc.devRef .tc main_arg1) = x1)
    (h_main_v4 : V (Proc.devRef .tc main_v4) = ReadP.val_main_v4 (F := F) x0 x1)
    (h_main_v8 : V (Proc.devRef .tc main_v8) = ReadP.val_main_v8 (F := F) x1)
    (h_main_v10 : V (Proc.devRef .tc main_v10) = ReadP.val_main_v10 (F := F))
    (h_main_cst_1 : V (Proc.devRef .tc main_cst_1) = ReadP.val_main_cst_1 (F := F))
    (hP : ∀ V' : Valuation τ sig (Elt F), V' (Proc.devRef .tc main_arg0) = x0 →
      V' (Proc.devRef .tc main_arg1) = x1 →
      V' (Proc.devRef .tc main_v4) = ReadP.val_main_v4 (F := F) x0 x1 →
      V' (Proc.devRef .tc main_v8) = ReadP.val_main_v8 (F := F) x1 →
      V' (Proc.devRef .tc main_v10) = ReadP.val_main_v10 (F := F) →
      V' (Proc.devRef .tc main_v11) = ReadP.val_main_v11 (F := F) → P (after rest V')) :
    P (after (op20 (F := F) :: rest) V) := by
  rw [after_cons]
  refine hP _ ?_ ?_ ?_ ?_ ?_ ?_
  · rw [unary_result_ne]; exact h_main_arg0; decide
  · rw [unary_result_ne]; exact h_main_arg1; decide
  · rw [unary_result_ne]; exact h_main_v4; decide
  · rw [unary_result_ne]; exact h_main_v8; decide
  · rw [unary_result_ne]; exact h_main_v10; decide
  · rw [unary_result, h_main_cst_1] <;> rfl

/-- Operation 21 writes main_c_2: the stages still to be read keep their values and main_c_2 gets its own. -/
theorem step21 (x0 x1 : (⟨S64x524288x1, .f32⟩ : BufTy).Contents (Elt F)) (P : Valuation τ sig (Elt F) → Prop)
    (rest : List (HloOp τ sig (Elt F))) (V : Valuation τ sig (Elt F))
    (h_main_arg0 : V (Proc.devRef .tc main_arg0) = x0)
    (h_main_arg1 : V (Proc.devRef .tc main_arg1) = x1)
    (h_main_v4 : V (Proc.devRef .tc main_v4) = ReadP.val_main_v4 (F := F) x0 x1)
    (h_main_v8 : V (Proc.devRef .tc main_v8) = ReadP.val_main_v8 (F := F) x1)
    (h_main_v10 : V (Proc.devRef .tc main_v10) = ReadP.val_main_v10 (F := F))
    (h_main_v11 : V (Proc.devRef .tc main_v11) = ReadP.val_main_v11 (F := F))
    (hP : ∀ V' : Valuation τ sig (Elt F), V' (Proc.devRef .tc main_arg0) = x0 →
      V' (Proc.devRef .tc main_arg1) = x1 →
      V' (Proc.devRef .tc main_v4) = ReadP.val_main_v4 (F := F) x0 x1 →
      V' (Proc.devRef .tc main_v8) = ReadP.val_main_v8 (F := F) x1 →
      V' (Proc.devRef .tc main_v10) = ReadP.val_main_v10 (F := F) →
      V' (Proc.devRef .tc main_v11) = ReadP.val_main_v11 (F := F) →
      V' (Proc.devRef .tc main_c_2) = ReadP.val_main_c_2 (F := F) → P (after rest V')) :
    P (after (op21 (F := F) :: rest) V) := by
  rw [after_cons]
  refine hP _ ?_ ?_ ?_ ?_ ?_ ?_ ?_
  · rw [nullary_result_ne]; exact h_main_arg0; decide
  · rw [nullary_result_ne]; exact h_main_arg1; decide
  · rw [nullary_result_ne]; exact h_main_v4; decide
  · rw [nullary_result_ne]; exact h_main_v8; decide
  · rw [nullary_result_ne]; exact h_main_v10; decide
  · rw [nullary_result_ne]; exact h_main_v11; decide
  · rw [nullary_result] <;> rfl

/-- Operation 22 writes main_v12 from main_c_2: the stages still to be read keep their values and main_v12 gets its own. -/
theorem step22 (x0 x1 : (⟨S64x524288x1, .f32⟩ : BufTy).Contents (Elt F)) (P : Valuation τ sig (Elt F) → Prop)
    (rest : List (HloOp τ sig (Elt F))) (V : Valuation τ sig (Elt F))
    (h_main_arg0 : V (Proc.devRef .tc main_arg0) = x0)
    (h_main_arg1 : V (Proc.devRef .tc main_arg1) = x1)
    (h_main_v4 : V (Proc.devRef .tc main_v4) = ReadP.val_main_v4 (F := F) x0 x1)
    (h_main_v8 : V (Proc.devRef .tc main_v8) = ReadP.val_main_v8 (F := F) x1)
    (h_main_v10 : V (Proc.devRef .tc main_v10) = ReadP.val_main_v10 (F := F))
    (h_main_v11 : V (Proc.devRef .tc main_v11) = ReadP.val_main_v11 (F := F))
    (h_main_c_2 : V (Proc.devRef .tc main_c_2) = ReadP.val_main_c_2 (F := F))
    (hP : ∀ V' : Valuation τ sig (Elt F), V' (Proc.devRef .tc main_arg0) = x0 →
      V' (Proc.devRef .tc main_arg1) = x1 →
      V' (Proc.devRef .tc main_v4) = ReadP.val_main_v4 (F := F) x0 x1 →
      V' (Proc.devRef .tc main_v8) = ReadP.val_main_v8 (F := F) x1 →
      V' (Proc.devRef .tc main_v10) = ReadP.val_main_v10 (F := F) →
      V' (Proc.devRef .tc main_v11) = ReadP.val_main_v11 (F := F) →
      V' (Proc.devRef .tc main_v12) = ReadP.val_main_v12 (F := F) → P (after rest V')) :
    P (after (op22 (F := F) :: rest) V) := by
  rw [after_cons]
  refine hP _ ?_ ?_ ?_ ?_ ?_ ?_ ?_
  · rw [unary_result_ne]; exact h_main_arg0; decide
  · rw [unary_result_ne]; exact h_main_arg1; decide
  · rw [unary_result_ne]; exact h_main_v4; decide
  · rw [unary_result_ne]; exact h_main_v8; decide
  · rw [unary_result_ne]; exact h_main_v10; decide
  · rw [unary_result_ne]; exact h_main_v11; decide
  · rw [unary_result, h_main_c_2] <;> rfl

/-- Operation 23 writes main_v13 from main_v10, main_v12: the stages still to be read keep their values and main_v13 gets its own. -/
theorem step23 (x0 x1 : (⟨S64x524288x1, .f32⟩ : BufTy).Contents (Elt F)) (P : Valuation τ sig (Elt F) → Prop)
    (rest : List (HloOp τ sig (Elt F))) (V : Valuation τ sig (Elt F))
    (h_main_arg0 : V (Proc.devRef .tc main_arg0) = x0)
    (h_main_arg1 : V (Proc.devRef .tc main_arg1) = x1)
    (h_main_v4 : V (Proc.devRef .tc main_v4) = ReadP.val_main_v4 (F := F) x0 x1)
    (h_main_v8 : V (Proc.devRef .tc main_v8) = ReadP.val_main_v8 (F := F) x1)
    (h_main_v10 : V (Proc.devRef .tc main_v10) = ReadP.val_main_v10 (F := F))
    (h_main_v11 : V (Proc.devRef .tc main_v11) = ReadP.val_main_v11 (F := F))
    (h_main_v12 : V (Proc.devRef .tc main_v12) = ReadP.val_main_v12 (F := F))
    (hP : ∀ V' : Valuation τ sig (Elt F), V' (Proc.devRef .tc main_arg0) = x0 →
      V' (Proc.devRef .tc main_arg1) = x1 →
      V' (Proc.devRef .tc main_v4) = ReadP.val_main_v4 (F := F) x0 x1 →
      V' (Proc.devRef .tc main_v8) = ReadP.val_main_v8 (F := F) x1 →
      V' (Proc.devRef .tc main_v10) = ReadP.val_main_v10 (F := F) →
      V' (Proc.devRef .tc main_v11) = ReadP.val_main_v11 (F := F) →
      V' (Proc.devRef .tc main_v13) = ReadP.val_main_v13 (F := F) → P (after rest V')) :
    P (after (op23 (F := F) :: rest) V) := by
  rw [after_cons]
  refine hP _ ?_ ?_ ?_ ?_ ?_ ?_ ?_
  · rw [binary_result_ne]; exact h_main_arg0; decide
  · rw [binary_result_ne]; exact h_main_arg1; decide
  · rw [binary_result_ne]; exact h_main_v4; decide
  · rw [binary_result_ne]; exact h_main_v8; decide
  · rw [binary_result_ne]; exact h_main_v10; decide
  · rw [binary_result_ne]; exact h_main_v11; decide
  · rw [binary_result, h_main_v10, h_main_v12] <;> rfl

/-- Operation 24 writes main_c_3: the stages still to be read keep their values and main_c_3 gets its own. -/
theorem step24 (x0 x1 : (⟨S64x524288x1, .f32⟩ : BufTy).Contents (Elt F)) (P : Valuation τ sig (Elt F) → Prop)
    (rest : List (HloOp τ sig (Elt F))) (V : Valuation τ sig (Elt F))
    (h_main_arg0 : V (Proc.devRef .tc main_arg0) = x0)
    (h_main_arg1 : V (Proc.devRef .tc main_arg1) = x1)
    (h_main_v4 : V (Proc.devRef .tc main_v4) = ReadP.val_main_v4 (F := F) x0 x1)
    (h_main_v8 : V (Proc.devRef .tc main_v8) = ReadP.val_main_v8 (F := F) x1)
    (h_main_v10 : V (Proc.devRef .tc main_v10) = ReadP.val_main_v10 (F := F))
    (h_main_v11 : V (Proc.devRef .tc main_v11) = ReadP.val_main_v11 (F := F))
    (h_main_v13 : V (Proc.devRef .tc main_v13) = ReadP.val_main_v13 (F := F))
    (hP : ∀ V' : Valuation τ sig (Elt F), V' (Proc.devRef .tc main_arg0) = x0 →
      V' (Proc.devRef .tc main_arg1) = x1 →
      V' (Proc.devRef .tc main_v4) = ReadP.val_main_v4 (F := F) x0 x1 →
      V' (Proc.devRef .tc main_v8) = ReadP.val_main_v8 (F := F) x1 →
      V' (Proc.devRef .tc main_v10) = ReadP.val_main_v10 (F := F) →
      V' (Proc.devRef .tc main_v11) = ReadP.val_main_v11 (F := F) →
      V' (Proc.devRef .tc main_v13) = ReadP.val_main_v13 (F := F) →
      V' (Proc.devRef .tc main_c_3) = ReadP.val_main_c_3 (F := F) → P (after rest V')) :
    P (after (op24 (F := F) :: rest) V) := by
  rw [after_cons]
  refine hP _ ?_ ?_ ?_ ?_ ?_ ?_ ?_ ?_
  · rw [nullary_result_ne]; exact h_main_arg0; decide
  · rw [nullary_result_ne]; exact h_main_arg1; decide
  · rw [nullary_result_ne]; exact h_main_v4; decide
  · rw [nullary_result_ne]; exact h_main_v8; decide
  · rw [nullary_result_ne]; exact h_main_v10; decide
  · rw [nullary_result_ne]; exact h_main_v11; decide
  · rw [nullary_result_ne]; exact h_main_v13; decide
  · rw [nullary_result] <;> rfl

/-- Operation 25 writes main_v14 from main_c_3: the stages still to be read keep their values and main_v14 gets its own. -/
theorem step25 (x0 x1 : (⟨S64x524288x1, .f32⟩ : BufTy).Contents (Elt F)) (P : Valuation τ sig (Elt F) → Prop)
    (rest : List (HloOp τ sig (Elt F))) (V : Valuation τ sig (Elt F))
    (h_main_arg0 : V (Proc.devRef .tc main_arg0) = x0)
    (h_main_arg1 : V (Proc.devRef .tc main_arg1) = x1)
    (h_main_v4 : V (Proc.devRef .tc main_v4) = ReadP.val_main_v4 (F := F) x0 x1)
    (h_main_v8 : V (Proc.devRef .tc main_v8) = ReadP.val_main_v8 (F := F) x1)
    (h_main_v10 : V (Proc.devRef .tc main_v10) = ReadP.val_main_v10 (F := F))
    (h_main_v11 : V (Proc.devRef .tc main_v11) = ReadP.val_main_v11 (F := F))
    (h_main_v13 : V (Proc.devRef .tc main_v13) = ReadP.val_main_v13 (F := F))
    (h_main_c_3 : V (Proc.devRef .tc main_c_3) = ReadP.val_main_c_3 (F := F))
    (hP : ∀ V' : Valuation τ sig (Elt F), V' (Proc.devRef .tc main_arg0) = x0 →
      V' (Proc.devRef .tc main_arg1) = x1 →
      V' (Proc.devRef .tc main_v4) = ReadP.val_main_v4 (F := F) x0 x1 →
      V' (Proc.devRef .tc main_v8) = ReadP.val_main_v8 (F := F) x1 →
      V' (Proc.devRef .tc main_v10) = ReadP.val_main_v10 (F := F) →
      V' (Proc.devRef .tc main_v11) = ReadP.val_main_v11 (F := F) →
      V' (Proc.devRef .tc main_v13) = ReadP.val_main_v13 (F := F) →
      V' (Proc.devRef .tc main_v14) = ReadP.val_main_v14 (F := F) → P (after rest V')) :
    P (after (op25 (F := F) :: rest) V) := by
  rw [after_cons]
  refine hP _ ?_ ?_ ?_ ?_ ?_ ?_ ?_ ?_
  · rw [unary_result_ne]; exact h_main_arg0; decide
  · rw [unary_result_ne]; exact h_main_arg1; decide
  · rw [unary_result_ne]; exact h_main_v4; decide
  · rw [unary_result_ne]; exact h_main_v8; decide
  · rw [unary_result_ne]; exact h_main_v10; decide
  · rw [unary_result_ne]; exact h_main_v11; decide
  · rw [unary_result_ne]; exact h_main_v13; decide
  · rw [unary_result, h_main_c_3] <;> rfl

/-- Operation 26 writes main_v15 from main_v10, main_v14: the stages still to be read keep their values and main_v15 gets its own. -/
theorem step26 (x0 x1 : (⟨S64x524288x1, .f32⟩ : BufTy).Contents (Elt F)) (P : Valuation τ sig (Elt F) → Prop)
    (rest : List (HloOp τ sig (Elt F))) (V : Valuation τ sig (Elt F))
    (h_main_arg0 : V (Proc.devRef .tc main_arg0) = x0)
    (h_main_arg1 : V (Proc.devRef .tc main_arg1) = x1)
    (h_main_v4 : V (Proc.devRef .tc main_v4) = ReadP.val_main_v4 (F := F) x0 x1)
    (h_main_v8 : V (Proc.devRef .tc main_v8) = ReadP.val_main_v8 (F := F) x1)
    (h_main_v10 : V (Proc.devRef .tc main_v10) = ReadP.val_main_v10 (F := F))
    (h_main_v11 : V (Proc.devRef .tc main_v11) = ReadP.val_main_v11 (F := F))
    (h_main_v13 : V (Proc.devRef .tc main_v13) = ReadP.val_main_v13 (F := F))
    (h_main_v14 : V (Proc.devRef .tc main_v14) = ReadP.val_main_v14 (F := F))
    (hP : ∀ V' : Valuation τ sig (Elt F), V' (Proc.devRef .tc main_arg0) = x0 →
      V' (Proc.devRef .tc main_arg1) = x1 →
      V' (Proc.devRef .tc main_v4) = ReadP.val_main_v4 (F := F) x0 x1 →
      V' (Proc.devRef .tc main_v8) = ReadP.val_main_v8 (F := F) x1 →
      V' (Proc.devRef .tc main_v10) = ReadP.val_main_v10 (F := F) →
      V' (Proc.devRef .tc main_v11) = ReadP.val_main_v11 (F := F) →
      V' (Proc.devRef .tc main_v13) = ReadP.val_main_v13 (F := F) →
      V' (Proc.devRef .tc main_v15) = ReadP.val_main_v15 (F := F) → P (after rest V')) :
    P (after (op26 (F := F) :: rest) V) := by
  rw [after_cons]
  refine hP _ ?_ ?_ ?_ ?_ ?_ ?_ ?_ ?_
  · rw [binary_result_ne]; exact h_main_arg0; decide
  · rw [binary_result_ne]; exact h_main_arg1; decide
  · rw [binary_result_ne]; exact h_main_v4; decide
  · rw [binary_result_ne]; exact h_main_v8; decide
  · rw [binary_result_ne]; exact h_main_v10; decide
  · rw [binary_result_ne]; exact h_main_v11; decide
  · rw [binary_result_ne]; exact h_main_v13; decide
  · rw [binary_result, h_main_v10, h_main_v14] <;> rfl

/-- Operation 27 writes main_v16 from main_v13, main_v15, main_v10: the stages still to be read keep their values and main_v16 gets its own. -/
theorem step27 (x0 x1 : (⟨S64x524288x1, .f32⟩ : BufTy).Contents (Elt F)) (P : Valuation τ sig (Elt F) → Prop)
    (rest : List (HloOp τ sig (Elt F))) (V : Valuation τ sig (Elt F))
    (h_main_arg0 : V (Proc.devRef .tc main_arg0) = x0)
    (h_main_arg1 : V (Proc.devRef .tc main_arg1) = x1)
    (h_main_v4 : V (Proc.devRef .tc main_v4) = ReadP.val_main_v4 (F := F) x0 x1)
    (h_main_v8 : V (Proc.devRef .tc main_v8) = ReadP.val_main_v8 (F := F) x1)
    (h_main_v10 : V (Proc.devRef .tc main_v10) = ReadP.val_main_v10 (F := F))
    (h_main_v11 : V (Proc.devRef .tc main_v11) = ReadP.val_main_v11 (F := F))
    (h_main_v13 : V (Proc.devRef .tc main_v13) = ReadP.val_main_v13 (F := F))
    (h_main_v15 : V (Proc.devRef .tc main_v15) = ReadP.val_main_v15 (F := F))
    (hP : ∀ V' : Valuation τ sig (Elt F), V' (Proc.devRef .tc main_arg0) = x0 →
      V' (Proc.devRef .tc main_arg1) = x1 →
      V' (Proc.devRef .tc main_v4) = ReadP.val_main_v4 (F := F) x0 x1 →
      V' (Proc.devRef .tc main_v8) = ReadP.val_main_v8 (F := F) x1 →
      V' (Proc.devRef .tc main_v10) = ReadP.val_main_v10 (F := F) →
      V' (Proc.devRef .tc main_v11) = ReadP.val_main_v11 (F := F) →
      V' (Proc.devRef .tc main_v16) = ReadP.val_main_v16 (F := F) → P (after rest V')) :
    P (after (op27 (F := F) :: rest) V) := by
  rw [after_cons]
  refine hP _ ?_ ?_ ?_ ?_ ?_ ?_ ?_
  · rw [ternary_result_ne]; exact h_main_arg0; decide
  · rw [ternary_result_ne]; exact h_main_arg1; decide
  · rw [ternary_result_ne]; exact h_main_v4; decide
  · rw [ternary_result_ne]; exact h_main_v8; decide
  · rw [ternary_result_ne]; exact h_main_v10; decide
  · rw [ternary_result_ne]; exact h_main_v11; decide
  · rw [ternary_result, h_main_v13, h_main_v15, h_main_v10] <;> rfl

/-- Operation 28 writes main_c_4: the stages still to be read keep their values and main_c_4 gets its own. -/
theorem step28 (x0 x1 : (⟨S64x524288x1, .f32⟩ : BufTy).Contents (Elt F)) (P : Valuation τ sig (Elt F) → Prop)
    (rest : List (HloOp τ sig (Elt F))) (V : Valuation τ sig (Elt F))
    (h_main_arg0 : V (Proc.devRef .tc main_arg0) = x0)
    (h_main_arg1 : V (Proc.devRef .tc main_arg1) = x1)
    (h_main_v4 : V (Proc.devRef .tc main_v4) = ReadP.val_main_v4 (F := F) x0 x1)
    (h_main_v8 : V (Proc.devRef .tc main_v8) = ReadP.val_main_v8 (F := F) x1)
    (h_main_v10 : V (Proc.devRef .tc main_v10) = ReadP.val_main_v10 (F := F))
    (h_main_v11 : V (Proc.devRef .tc main_v11) = ReadP.val_main_v11 (F := F))
    (h_main_v16 : V (Proc.devRef .tc main_v16) = ReadP.val_main_v16 (F := F))
    (hP : ∀ V' : Valuation τ sig (Elt F), V' (Proc.devRef .tc main_arg0) = x0 →
      V' (Proc.devRef .tc main_arg1) = x1 →
      V' (Proc.devRef .tc main_v4) = ReadP.val_main_v4 (F := F) x0 x1 →
      V' (Proc.devRef .tc main_v8) = ReadP.val_main_v8 (F := F) x1 →
      V' (Proc.devRef .tc main_v10) = ReadP.val_main_v10 (F := F) →
      V' (Proc.devRef .tc main_v11) = ReadP.val_main_v11 (F := F) →
      V' (Proc.devRef .tc main_v16) = ReadP.val_main_v16 (F := F) →
      V' (Proc.devRef .tc main_c_4) = ReadP.val_main_c_4 (F := F) → P (after rest V')) :
    P (after (op28 (F := F) :: rest) V) := by
  rw [after_cons]
  refine hP _ ?_ ?_ ?_ ?_ ?_ ?_ ?_ ?_
  · rw [nullary_result_ne]; exact h_main_arg0; decide
  · rw [nullary_result_ne]; exact h_main_arg1; decide
  · rw [nullary_result_ne]; exact h_main_v4; decide
  · rw [nullary_result_ne]; exact h_main_v8; decide
  · rw [nullary_result_ne]; exact h_main_v10; decide
  · rw [nullary_result_ne]; exact h_main_v11; decide
  · rw [nullary_result_ne]; exact h_main_v16; decide
  · rw [nullary_result] <;> rfl

/-- Operation 29 writes main_v17 from main_c_4: the stages still to be read keep their values and main_v17 gets its own. -/
theorem step29 (x0 x1 : (⟨S64x524288x1, .f32⟩ : BufTy).Contents (Elt F)) (P : Valuation τ sig (Elt F) → Prop)
    (rest : List (HloOp τ sig (Elt F))) (V : Valuation τ sig (Elt F))
    (h_main_arg0 : V (Proc.devRef .tc main_arg0) = x0)
    (h_main_arg1 : V (Proc.devRef .tc main_arg1) = x1)
    (h_main_v4 : V (Proc.devRef .tc main_v4) = ReadP.val_main_v4 (F := F) x0 x1)
    (h_main_v8 : V (Proc.devRef .tc main_v8) = ReadP.val_main_v8 (F := F) x1)
    (h_main_v10 : V (Proc.devRef .tc main_v10) = ReadP.val_main_v10 (F := F))
    (h_main_v11 : V (Proc.devRef .tc main_v11) = ReadP.val_main_v11 (F := F))
    (h_main_v16 : V (Proc.devRef .tc main_v16) = ReadP.val_main_v16 (F := F))
    (h_main_c_4 : V (Proc.devRef .tc main_c_4) = ReadP.val_main_c_4 (F := F))
    (hP : ∀ V' : Valuation τ sig (Elt F), V' (Proc.devRef .tc main_arg0) = x0 →
      V' (Proc.devRef .tc main_arg1) = x1 →
      V' (Proc.devRef .tc main_v4) = ReadP.val_main_v4 (F := F) x0 x1 →
      V' (Proc.devRef .tc main_v8) = ReadP.val_main_v8 (F := F) x1 →
      V' (Proc.devRef .tc main_v10) = ReadP.val_main_v10 (F := F) →
      V' (Proc.devRef .tc main_v11) = ReadP.val_main_v11 (F := F) →
      V' (Proc.devRef .tc main_v16) = ReadP.val_main_v16 (F := F) →
      V' (Proc.devRef .tc main_v17) = ReadP.val_main_v17 (F := F) → P (after rest V')) :
    P (after (op29 (F := F) :: rest) V) := by
  rw [after_cons]
  refine hP _ ?_ ?_ ?_ ?_ ?_ ?_ ?_ ?_
  · rw [unary_result_ne]; exact h_main_arg0; decide
  · rw [unary_result_ne]; exact h_main_arg1; decide
  · rw [unary_result_ne]; exact h_main_v4; decide
  · rw [unary_result_ne]; exact h_main_v8; decide
  · rw [unary_result_ne]; exact h_main_v10; decide
  · rw [unary_result_ne]; exact h_main_v11; decide
  · rw [unary_result_ne]; exact h_main_v16; decide
  · rw [unary_result, h_main_c_4] <;> rfl

/-- Operation 30 writes main_v18 from main_v8, main_v17: the stages still to be read keep their values and main_v18 gets its own. -/
theorem step30 (x0 x1 : (⟨S64x524288x1, .f32⟩ : BufTy).Contents (Elt F)) (P : Valuation τ sig (Elt F) → Prop)
    (rest : List (HloOp τ sig (Elt F))) (V : Valuation τ sig (Elt F))
    (h_main_arg0 : V (Proc.devRef .tc main_arg0) = x0)
    (h_main_arg1 : V (Proc.devRef .tc main_arg1) = x1)
    (h_main_v4 : V (Proc.devRef .tc main_v4) = ReadP.val_main_v4 (F := F) x0 x1)
    (h_main_v8 : V (Proc.devRef .tc main_v8) = ReadP.val_main_v8 (F := F) x1)
    (h_main_v10 : V (Proc.devRef .tc main_v10) = ReadP.val_main_v10 (F := F))
    (h_main_v11 : V (Proc.devRef .tc main_v11) = ReadP.val_main_v11 (F := F))
    (h_main_v16 : V (Proc.devRef .tc main_v16) = ReadP.val_main_v16 (F := F))
    (h_main_v17 : V (Proc.devRef .tc main_v17) = ReadP.val_main_v17 (F := F))
    (hP : ∀ V' : Valuation τ sig (Elt F), V' (Proc.devRef .tc main_arg0) = x0 →
      V' (Proc.devRef .tc main_arg1) = x1 →
      V' (Proc.devRef .tc main_v4) = ReadP.val_main_v4 (F := F) x0 x1 →
      V' (Proc.devRef .tc main_v8) = ReadP.val_main_v8 (F := F) x1 →
      V' (Proc.devRef .tc main_v10) = ReadP.val_main_v10 (F := F) →
      V' (Proc.devRef .tc main_v11) = ReadP.val_main_v11 (F := F) →
      V' (Proc.devRef .tc main_v16) = ReadP.val_main_v16 (F := F) →
      V' (Proc.devRef .tc main_v18) = ReadP.val_main_v18 (F := F) x1 → P (after rest V')) :
    P (after (op30 (F := F) :: rest) V) := by
  rw [after_cons]
  refine hP _ ?_ ?_ ?_ ?_ ?_ ?_ ?_ ?_
  · rw [binary_result_ne]; exact h_main_arg0; decide
  · rw [binary_result_ne]; exact h_main_arg1; decide
  · rw [binary_result_ne]; exact h_main_v4; decide
  · rw [binary_result_ne]; exact h_main_v8; decide
  · rw [binary_result_ne]; exact h_main_v10; decide
  · rw [binary_result_ne]; exact h_main_v11; decide
  · rw [binary_result_ne]; exact h_main_v16; decide
  · rw [binary_result, h_main_v8, h_main_v17] <;> rfl

/-- Operation 31 writes main_c_5: the stages still to be read keep their values and main_c_5 gets its own. -/
theorem step31 (x0 x1 : (⟨S64x524288x1, .f32⟩ : BufTy).Contents (Elt F)) (P : Valuation τ sig (Elt F) → Prop)
    (rest : List (HloOp τ sig (Elt F))) (V : Valuation τ sig (Elt F))
    (h_main_arg0 : V (Proc.devRef .tc main_arg0) = x0)
    (h_main_arg1 : V (Proc.devRef .tc main_arg1) = x1)
    (h_main_v4 : V (Proc.devRef .tc main_v4) = ReadP.val_main_v4 (F := F) x0 x1)
    (h_main_v8 : V (Proc.devRef .tc main_v8) = ReadP.val_main_v8 (F := F) x1)
    (h_main_v10 : V (Proc.devRef .tc main_v10) = ReadP.val_main_v10 (F := F))
    (h_main_v11 : V (Proc.devRef .tc main_v11) = ReadP.val_main_v11 (F := F))
    (h_main_v16 : V (Proc.devRef .tc main_v16) = ReadP.val_main_v16 (F := F))
    (h_main_v18 : V (Proc.devRef .tc main_v18) = ReadP.val_main_v18 (F := F) x1)
    (hP : ∀ V' : Valuation τ sig (Elt F), V' (Proc.devRef .tc main_arg0) = x0 →
      V' (Proc.devRef .tc main_arg1) = x1 →
      V' (Proc.devRef .tc main_v4) = ReadP.val_main_v4 (F := F) x0 x1 →
      V' (Proc.devRef .tc main_v8) = ReadP.val_main_v8 (F := F) x1 →
      V' (Proc.devRef .tc main_v10) = ReadP.val_main_v10 (F := F) →
      V' (Proc.devRef .tc main_v11) = ReadP.val_main_v11 (F := F) →
      V' (Proc.devRef .tc main_v16) = ReadP.val_main_v16 (F := F) →
      V' (Proc.devRef .tc main_v18) = ReadP.val_main_v18 (F := F) x1 →
      V' (Proc.devRef .tc main_c_5) = ReadP.val_main_c_5 (F := F) → P (after rest V')) :
    P (after (op31 (F := F) :: rest) V) := by
  rw [after_cons]
  refine hP _ ?_ ?_ ?_ ?_ ?_ ?_ ?_ ?_ ?_
  · rw [nullary_result_ne]; exact h_main_arg0; decide
  · rw [nullary_result_ne]; exact h_main_arg1; decide
  · rw [nullary_result_ne]; exact h_main_v4; decide
  · rw [nullary_result_ne]; exact h_main_v8; decide
  · rw [nullary_result_ne]; exact h_main_v10; decide
  · rw [nullary_result_ne]; exact h_main_v11; decide
  · rw [nullary_result_ne]; exact h_main_v16; decide
  · rw [nullary_result_ne]; exact h_main_v18; decide
  · rw [nullary_result] <;> rfl

/-- Operation 32 writes main_v19 from main_c_5: the stages still to be read keep their values and main_v19 gets its own. -/
theorem step32 (x0 x1 : (⟨S64x524288x1, .f32⟩ : BufTy).Contents (Elt F)) (P : Valuation τ sig (Elt F) → Prop)
    (rest : List (HloOp τ sig (Elt F))) (V : Valuation τ sig (Elt F))
    (h_main_arg0 : V (Proc.devRef .tc main_arg0) = x0)
    (h_main_arg1 : V (Proc.devRef .tc main_arg1) = x1)
    (h_main_v4 : V (Proc.devRef .tc main_v4) = ReadP.val_main_v4 (F := F) x0 x1)
    (h_main_v8 : V (Proc.devRef .tc main_v8) = ReadP.val_main_v8 (F := F) x1)
    (h_main_v10 : V (Proc.devRef .tc main_v10) = ReadP.val_main_v10 (F := F))
    (h_main_v11 : V (Proc.devRef .tc main_v11) = ReadP.val_main_v11 (F := F))
    (h_main_v16 : V (Proc.devRef .tc main_v16) = ReadP.val_main_v16 (F := F))
    (h_main_v18 : V (Proc.devRef .tc main_v18) = ReadP.val_main_v18 (F := F) x1)
    (h_main_c_5 : V (Proc.devRef .tc main_c_5) = ReadP.val_main_c_5 (F := F))
    (hP : ∀ V' : Valuation τ sig (Elt F), V' (Proc.devRef .tc main_arg0) = x0 →
      V' (Proc.devRef .tc main_arg1) = x1 →
      V' (Proc.devRef .tc main_v4) = ReadP.val_main_v4 (F := F) x0 x1 →
      V' (Proc.devRef .tc main_v8) = ReadP.val_main_v8 (F := F) x1 →
      V' (Proc.devRef .tc main_v10) = ReadP.val_main_v10 (F := F) →
      V' (Proc.devRef .tc main_v11) = ReadP.val_main_v11 (F := F) →
      V' (Proc.devRef .tc main_v16) = ReadP.val_main_v16 (F := F) →
      V' (Proc.devRef .tc main_v18) = ReadP.val_main_v18 (F := F) x1 →
      V' (Proc.devRef .tc main_v19) = ReadP.val_main_v19 (F := F) → P (after rest V')) :
    P (after (op32 (F := F) :: rest) V) := by
  rw [after_cons]
  refine hP _ ?_ ?_ ?_ ?_ ?_ ?_ ?_ ?_ ?_
  · rw [unary_result_ne]; exact h_main_arg0; decide
  · rw [unary_result_ne]; exact h_main_arg1; decide
  · rw [unary_result_ne]; exact h_main_v4; decide
  · rw [unary_result_ne]; exact h_main_v8; decide
  · rw [unary_result_ne]; exact h_main_v10; decide
  · rw [unary_result_ne]; exact h_main_v11; decide
  · rw [unary_result_ne]; exact h_main_v16; decide
  · rw [unary_result_ne]; exact h_main_v18; decide
  · rw [unary_result, h_main_c_5] <;> rfl

/-- Operation 33 writes main_v20 from main_v8, main_v19: the stages still to be read keep their values and main_v20 gets its own. -/
theorem step33 (x0 x1 : (⟨S64x524288x1, .f32⟩ : BufTy).Contents (Elt F)) (P : Valuation τ sig (Elt F) → Prop)
    (rest : List (HloOp τ sig (Elt F))) (V : Valuation τ sig (Elt F))
    (h_main_arg0 : V (Proc.devRef .tc main_arg0) = x0)
    (h_main_arg1 : V (Proc.devRef .tc main_arg1) = x1)
    (h_main_v4 : V (Proc.devRef .tc main_v4) = ReadP.val_main_v4 (F := F) x0 x1)
    (h_main_v8 : V (Proc.devRef .tc main_v8) = ReadP.val_main_v8 (F := F) x1)
    (h_main_v10 : V (Proc.devRef .tc main_v10) = ReadP.val_main_v10 (F := F))
    (h_main_v11 : V (Proc.devRef .tc main_v11) = ReadP.val_main_v11 (F := F))
    (h_main_v16 : V (Proc.devRef .tc main_v16) = ReadP.val_main_v16 (F := F))
    (h_main_v18 : V (Proc.devRef .tc main_v18) = ReadP.val_main_v18 (F := F) x1)
    (h_main_v19 : V (Proc.devRef .tc main_v19) = ReadP.val_main_v19 (F := F))
    (hP : ∀ V' : Valuation τ sig (Elt F), V' (Proc.devRef .tc main_arg0) = x0 →
      V' (Proc.devRef .tc main_arg1) = x1 →
      V' (Proc.devRef .tc main_v4) = ReadP.val_main_v4 (F := F) x0 x1 →
      V' (Proc.devRef .tc main_v8) = ReadP.val_main_v8 (F := F) x1 →
      V' (Proc.devRef .tc main_v10) = ReadP.val_main_v10 (F := F) →
      V' (Proc.devRef .tc main_v11) = ReadP.val_main_v11 (F := F) →
      V' (Proc.devRef .tc main_v16) = ReadP.val_main_v16 (F := F) →
      V' (Proc.devRef .tc main_v18) = ReadP.val_main_v18 (F := F) x1 →
      V' (Proc.devRef .tc main_v20) = ReadP.val_main_v20 (F := F) x1 → P (after rest V')) :
    P (after (op33 (F := F) :: rest) V) := by
  rw [after_cons]
  refine hP _ ?_ ?_ ?_ ?_ ?_ ?_ ?_ ?_ ?_
  · rw [binary_result_ne]; exact h_main_arg0; decide
  · rw [binary_result_ne]; exact h_main_arg1; decide
  · rw [binary_result_ne]; exact h_main_v4; decide
  · rw [binary_result_ne]; exact h_main_v8; decide
  · rw [binary_result_ne]; exact h_main_v10; decide
  · rw [binary_result_ne]; exact h_main_v11; decide
  · rw [binary_result_ne]; exact h_main_v16; decide
  · rw [binary_result_ne]; exact h_main_v18; decide
  · rw [binary_result, h_main_v8, h_main_v19] <;> rfl

/-- Operation 34 writes main_v21 from main_v18, main_v20, main_v8: the stages still to be read keep their values and main_v21 gets its own. -/
theorem step34 (x0 x1 : (⟨S64x524288x1, .f32⟩ : BufTy).Contents (Elt F)) (P : Valuation τ sig (Elt F) → Prop)
    (rest : List (HloOp τ sig (Elt F))) (V : Valuation τ sig (Elt F))
    (h_main_arg0 : V (Proc.devRef .tc main_arg0) = x0)
    (h_main_arg1 : V (Proc.devRef .tc main_arg1) = x1)
    (h_main_v4 : V (Proc.devRef .tc main_v4) = ReadP.val_main_v4 (F := F) x0 x1)
    (h_main_v8 : V (Proc.devRef .tc main_v8) = ReadP.val_main_v8 (F := F) x1)
    (h_main_v10 : V (Proc.devRef .tc main_v10) = ReadP.val_main_v10 (F := F))
    (h_main_v11 : V (Proc.devRef .tc main_v11) = ReadP.val_main_v11 (F := F))
    (h_main_v16 : V (Proc.devRef .tc main_v16) = ReadP.val_main_v16 (F := F))
    (h_main_v18 : V (Proc.devRef .tc main_v18) = ReadP.val_main_v18 (F := F) x1)
    (h_main_v20 : V (Proc.devRef .tc main_v20) = ReadP.val_main_v20 (F := F) x1)
    (hP : ∀ V' : Valuation τ sig (Elt F), V' (Proc.devRef .tc main_arg0) = x0 →
      V' (Proc.devRef .tc main_arg1) = x1 →
      V' (Proc.devRef .tc main_v4) = ReadP.val_main_v4 (F := F) x0 x1 →
      V' (Proc.devRef .tc main_v8) = ReadP.val_main_v8 (F := F) x1 →
      V' (Proc.devRef .tc main_v10) = ReadP.val_main_v10 (F := F) →
      V' (Proc.devRef .tc main_v11) = ReadP.val_main_v11 (F := F) →
      V' (Proc.devRef .tc main_v16) = ReadP.val_main_v16 (F := F) →
      V' (Proc.devRef .tc main_v21) = ReadP.val_main_v21 (F := F) x1 → P (after rest V')) :
    P (after (op34 (F := F) :: rest) V) := by
  rw [after_cons]
  refine hP _ ?_ ?_ ?_ ?_ ?_ ?_ ?_ ?_
  · rw [ternary_result_ne]; exact h_main_arg0; decide
  · rw [ternary_result_ne]; exact h_main_arg1; decide
  · rw [ternary_result_ne]; exact h_main_v4; decide
  · rw [ternary_result_ne]; exact h_main_v8; decide
  · rw [ternary_result_ne]; exact h_main_v10; decide
  · rw [ternary_result_ne]; exact h_main_v11; decide
  · rw [ternary_result_ne]; exact h_main_v16; decide
  · rw [ternary_result, h_main_v18, h_main_v20, h_main_v8] <;> rfl

/-- Operation 35 writes main_v22 from main_v16: the stages still to be read keep their values and main_v22 gets its own. -/
theorem step35 (x0 x1 : (⟨S64x524288x1, .f32⟩ : BufTy).Contents (Elt F)) (P : Valuation τ sig (Elt F) → Prop)
    (rest : List (HloOp τ sig (Elt F))) (V : Valuation τ sig (Elt F))
    (h_main_arg0 : V (Proc.devRef .tc main_arg0) = x0)
    (h_main_arg1 : V (Proc.devRef .tc main_arg1) = x1)
    (h_main_v4 : V (Proc.devRef .tc main_v4) = ReadP.val_main_v4 (F := F) x0 x1)
    (h_main_v8 : V (Proc.devRef .tc main_v8) = ReadP.val_main_v8 (F := F) x1)
    (h_main_v10 : V (Proc.devRef .tc main_v10) = ReadP.val_main_v10 (F := F))
    (h_main_v11 : V (Proc.devRef .tc main_v11) = ReadP.val_main_v11 (F := F))
    (h_main_v16 : V (Proc.devRef .tc main_v16) = ReadP.val_main_v16 (F := F))
    (h_main_v21 : V (Proc.devRef .tc main_v21) = ReadP.val_main_v21 (F := F) x1)
    (hP : ∀ V' : Valuation τ sig (Elt F), V' (Proc.devRef .tc main_arg0) = x0 →
      V' (Proc.devRef .tc main_arg1) = x1 →
      V' (Proc.devRef .tc main_v4) = ReadP.val_main_v4 (F := F) x0 x1 →
      V' (Proc.devRef .tc main_v8) = ReadP.val_main_v8 (F := F) x1 →
      V' (Proc.devRef .tc main_v10) = ReadP.val_main_v10 (F := F) →
      V' (Proc.devRef .tc main_v11) = ReadP.val_main_v11 (F := F) →
      V' (Proc.devRef .tc main_v21) = ReadP.val_main_v21 (F := F) x1 →
      V' (Proc.devRef .tc main_v22) = ReadP.val_main_v22 (F := F) → P (after rest V')) :
    P (after (op35 (F := F) :: rest) V) := by
  rw [after_cons]
  refine hP _ ?_ ?_ ?_ ?_ ?_ ?_ ?_ ?_
  · rw [unary_result_ne]; exact h_main_arg0; decide
  · rw [unary_result_ne]; exact h_main_arg1; decide
  · rw [unary_result_ne]; exact h_main_v4; decide
  · rw [unary_result_ne]; exact h_main_v8; decide
  · rw [unary_result_ne]; exact h_main_v10; decide
  · rw [unary_result_ne]; exact h_main_v11; decide
  · rw [unary_result_ne]; exact h_main_v21; decide
  · rw [unary_result, h_main_v16] <;> rfl

/-- Operation 36 writes main_v23 from main_v22: the stages still to be read keep their values and main_v23 gets its own. -/
theorem step36 (x0 x1 : (⟨S64x524288x1, .f32⟩ : BufTy).Contents (Elt F)) (P : Valuation τ sig (Elt F) → Prop)
    (rest : List (HloOp τ sig (Elt F))) (V : Valuation τ sig (Elt F))
    (h_main_arg0 : V (Proc.devRef .tc main_arg0) = x0)
    (h_main_arg1 : V (Proc.devRef .tc main_arg1) = x1)
    (h_main_v4 : V (Proc.devRef .tc main_v4) = ReadP.val_main_v4 (F := F) x0 x1)
    (h_main_v8 : V (Proc.devRef .tc main_v8) = ReadP.val_main_v8 (F := F) x1)
    (h_main_v10 : V (Proc.devRef .tc main_v10) = ReadP.val_main_v10 (F := F))
    (h_main_v11 : V (Proc.devRef .tc main_v11) = ReadP.val_main_v11 (F := F))
    (h_main_v21 : V (Proc.devRef .tc main_v21) = ReadP.val_main_v21 (F := F) x1)
    (h_main_v22 : V (Proc.devRef .tc main_v22) = ReadP.val_main_v22 (F := F))
    (hP : ∀ V' : Valuation τ sig (Elt F), V' (Proc.devRef .tc main_arg0) = x0 →
      V' (Proc.devRef .tc main_arg1) = x1 →
      V' (Proc.devRef .tc main_v4) = ReadP.val_main_v4 (F := F) x0 x1 →
      V' (Proc.devRef .tc main_v8) = ReadP.val_main_v8 (F := F) x1 →
      V' (Proc.devRef .tc main_v10) = ReadP.val_main_v10 (F := F) →
      V' (Proc.devRef .tc main_v11) = ReadP.val_main_v11 (F := F) →
      V' (Proc.devRef .tc main_v21) = ReadP.val_main_v21 (F := F) x1 →
      V' (Proc.devRef .tc main_v23) = ReadP.val_main_v23 (F := F) → P (after rest V')) :
    P (after (op36 (F := F) :: rest) V) := by
  rw [after_cons]
  refine hP _ ?_ ?_ ?_ ?_ ?_ ?_ ?_ ?_
  · rw [unary_result_ne]; exact h_main_arg0; decide
  · rw [unary_result_ne]; exact h_main_arg1; decide
  · rw [unary_result_ne]; exact h_main_v4; decide
  · rw [unary_result_ne]; exact h_main_v8; decide
  · rw [unary_result_ne]; exact h_main_v10; decide
  · rw [unary_result_ne]; exact h_main_v11; decide
  · rw [unary_result_ne]; exact h_main_v21; decide
  · rw [unary_result, h_main_v22] <;> rfl

/-- Operation 37 writes main_v24 from main_v21: the stages still to be read keep their values and main_v24 gets its own. -/
theorem step37 (x0 x1 : (⟨S64x524288x1, .f32⟩ : BufTy).Contents (Elt F)) (P : Valuation τ sig (Elt F) → Prop)
    (rest : List (HloOp τ sig (Elt F))) (V : Valuation τ sig (Elt F))
    (h_main_arg0 : V (Proc.devRef .tc main_arg0) = x0)
    (h_main_arg1 : V (Proc.devRef .tc main_arg1) = x1)
    (h_main_v4 : V (Proc.devRef .tc main_v4) = ReadP.val_main_v4 (F := F) x0 x1)
    (h_main_v8 : V (Proc.devRef .tc main_v8) = ReadP.val_main_v8 (F := F) x1)
    (h_main_v10 : V (Proc.devRef .tc main_v10) = ReadP.val_main_v10 (F := F))
    (h_main_v11 : V (Proc.devRef .tc main_v11) = ReadP.val_main_v11 (F := F))
    (h_main_v21 : V (Proc.devRef .tc main_v21) = ReadP.val_main_v21 (F := F) x1)
    (h_main_v23 : V (Proc.devRef .tc main_v23) = ReadP.val_main_v23 (F := F))
    (hP : ∀ V' : Valuation τ sig (Elt F), V' (Proc.devRef .tc main_arg0) = x0 →
      V' (Proc.devRef .tc main_arg1) = x1 →
      V' (Proc.devRef .tc main_v4) = ReadP.val_main_v4 (F := F) x0 x1 →
      V' (Proc.devRef .tc main_v8) = ReadP.val_main_v8 (F := F) x1 →
      V' (Proc.devRef .tc main_v10) = ReadP.val_main_v10 (F := F) →
      V' (Proc.devRef .tc main_v11) = ReadP.val_main_v11 (F := F) →
      V' (Proc.devRef .tc main_v23) = ReadP.val_main_v23 (F := F) →
      V' (Proc.devRef .tc main_v24) = ReadP.val_main_v24 (F := F) x1 → P (after rest V')) :
    P (after (op37 (F := F) :: rest) V) := by
  rw [after_cons]
  refine hP _ ?_ ?_ ?_ ?_ ?_ ?_ ?_ ?_
  · rw [unary_result_ne]; exact h_main_arg0; decide
  · rw [unary_result_ne]; exact h_main_arg1; decide
  · rw [unary_result_ne]; exact h_main_v4; decide
  · rw [unary_result_ne]; exact h_main_v8; decide
  · rw [unary_result_ne]; exact h_main_v10; decide
  · rw [unary_result_ne]; exact h_main_v11; decide
  · rw [unary_result_ne]; exact h_main_v23; decide
  · rw [unary_result, h_main_v21] <;> rfl

/-- Operation 38 writes main_v25 from main_v23, main_v24: the stages still to be read keep their values and main_v25 gets its own. -/
theorem step38 (x0 x1 : (⟨S64x524288x1, .f32⟩ : BufTy).Contents (Elt F)) (P : Valuation τ sig (Elt F) → Prop)
    (rest : List (HloOp τ sig (Elt F))) (V : Valuation τ sig (Elt F))
    (h_main_arg0 : V (Proc.devRef .tc main_arg0) = x0)
    (h_main_arg1 : V (Proc.devRef .tc main_arg1) = x1)
    (h_main_v4 : V (Proc.devRef .tc main_v4) = ReadP.val_main_v4 (F := F) x0 x1)
    (h_main_v8 : V (Proc.devRef .tc main_v8) = ReadP.val_main_v8 (F := F) x1)
    (h_main_v10 : V (Proc.devRef .tc main_v10) = ReadP.val_main_v10 (F := F))
    (h_main_v11 : V (Proc.devRef .tc main_v11) = ReadP.val_main_v11 (F := F))
    (h_main_v23 : V (Proc.devRef .tc main_v23) = ReadP.val_main_v23 (F := F))
    (h_main_v24 : V (Proc.devRef .tc main_v24) = ReadP.val_main_v24 (F := F) x1)
    (hP : ∀ V' : Valuation τ sig (Elt F), V' (Proc.devRef .tc main_arg0) = x0 →
      V' (Proc.devRef .tc main_arg1) = x1 →
      V' (Proc.devRef .tc main_v4) = ReadP.val_main_v4 (F := F) x0 x1 →
      V' (Proc.devRef .tc main_v8) = ReadP.val_main_v8 (F := F) x1 →
      V' (Proc.devRef .tc main_v10) = ReadP.val_main_v10 (F := F) →
      V' (Proc.devRef .tc main_v11) = ReadP.val_main_v11 (F := F) →
      V' (Proc.devRef .tc main_v25) = ReadP.val_main_v25 (F := F) x1 → P (after rest V')) :
    P (after (op38 (F := F) :: rest) V) := by
  rw [after_cons]
  refine hP _ ?_ ?_ ?_ ?_ ?_ ?_ ?_
  · rw [binary_result_ne]; exact h_main_arg0; decide
  · rw [binary_result_ne]; exact h_main_arg1; decide
  · rw [binary_result_ne]; exact h_main_v4; decide
  · rw [binary_result_ne]; exact h_main_v8; decide
  · rw [binary_result_ne]; exact h_main_v10; decide
  · rw [binary_result_ne]; exact h_main_v11; decide
  · rw [binary_result, h_main_v23, h_main_v24] <;> rfl

/-- Operation 39 writes main_cst_6: the stages still to be read keep their values and main_cst_6 gets its own. -/
theorem step39 (x0 x1 : (⟨S64x524288x1, .f32⟩ : BufTy).Contents (Elt F)) (P : Valuation τ sig (Elt F) → Prop)
    (rest : List (HloOp τ sig (Elt F))) (V : Valuation τ sig (Elt F))
    (h_main_arg0 : V (Proc.devRef .tc main_arg0) = x0)
    (h_main_arg1 : V (Proc.devRef .tc main_arg1) = x1)
    (h_main_v4 : V (Proc.devRef .tc main_v4) = ReadP.val_main_v4 (F := F) x0 x1)
    (h_main_v8 : V (Proc.devRef .tc main_v8) = ReadP.val_main_v8 (F := F) x1)
    (h_main_v10 : V (Proc.devRef .tc main_v10) = ReadP.val_main_v10 (F := F))
    (h_main_v11 : V (Proc.devRef .tc main_v11) = ReadP.val_main_v11 (F := F))
    (h_main_v25 : V (Proc.devRef .tc main_v25) = ReadP.val_main_v25 (F := F) x1)
    (hP : ∀ V' : Valuation τ sig (Elt F), V' (Proc.devRef .tc main_arg0) = x0 →
      V' (Proc.devRef .tc main_arg1) = x1 →
      V' (Proc.devRef .tc main_v4) = ReadP.val_main_v4 (F := F) x0 x1 →
      V' (Proc.devRef .tc main_v8) = ReadP.val_main_v8 (F := F) x1 →
      V' (Proc.devRef .tc main_v10) = ReadP.val_main_v10 (F := F) →
      V' (Proc.devRef .tc main_v11) = ReadP.val_main_v11 (F := F) →
      V' (Proc.devRef .tc main_v25) = ReadP.val_main_v25 (F := F) x1 →
      V' (Proc.devRef .tc main_cst_6) = ReadP.val_main_cst_6 (F := F) → P (after rest V')) :
    P (after (op39 (F := F) :: rest) V) := by
  rw [after_cons]
  refine hP _ ?_ ?_ ?_ ?_ ?_ ?_ ?_ ?_
  · rw [nullary_result_ne]; exact h_main_arg0; decide
  · rw [nullary_result_ne]; exact h_main_arg1; decide
  · rw [nullary_result_ne]; exact h_main_v4; decide
  · rw [nullary_result_ne]; exact h_main_v8; decide
  · rw [nullary_result_ne]; exact h_main_v10; decide
  · rw [nullary_result_ne]; exact h_main_v11; decide
  · rw [nullary_result_ne]; exact h_main_v25; decide
  · rw [nullary_result] <;> rfl

/-- Operation 40 writes main_v26 from main_cst_6: the stages still to be read keep their values and main_v26 gets its own. -/
theorem step40 (x0 x1 : (⟨S64x524288x1, .f32⟩ : BufTy).Contents (Elt F)) (P : Valuation τ sig (Elt F) → Prop)
    (rest : List (HloOp τ sig (Elt F))) (V : Valuation τ sig (Elt F))
    (h_main_arg0 : V (Proc.devRef .tc main_arg0) = x0)
    (h_main_arg1 : V (Proc.devRef .tc main_arg1) = x1)
    (h_main_v4 : V (Proc.devRef .tc main_v4) = ReadP.val_main_v4 (F := F) x0 x1)
    (h_main_v8 : V (Proc.devRef .tc main_v8) = ReadP.val_main_v8 (F := F) x1)
    (h_main_v10 : V (Proc.devRef .tc main_v10) = ReadP.val_main_v10 (F := F))
    (h_main_v11 : V (Proc.devRef .tc main_v11) = ReadP.val_main_v11 (F := F))
    (h_main_v25 : V (Proc.devRef .tc main_v25) = ReadP.val_main_v25 (F := F) x1)
    (h_main_cst_6 : V (Proc.devRef .tc main_cst_6) = ReadP.val_main_cst_6 (F := F))
    (hP : ∀ V' : Valuation τ sig (Elt F), V' (Proc.devRef .tc main_arg0) = x0 →
      V' (Proc.devRef .tc main_arg1) = x1 →
      V' (Proc.devRef .tc main_v4) = ReadP.val_main_v4 (F := F) x0 x1 →
      V' (Proc.devRef .tc main_v8) = ReadP.val_main_v8 (F := F) x1 →
      V' (Proc.devRef .tc main_v10) = ReadP.val_main_v10 (F := F) →
      V' (Proc.devRef .tc main_v11) = ReadP.val_main_v11 (F := F) →
      V' (Proc.devRef .tc main_v25) = ReadP.val_main_v25 (F := F) x1 →
      V' (Proc.devRef .tc main_v26) = ReadP.val_main_v26 (F := F) → P (after rest V')) :
    P (after (op40 (F := F) :: rest) V) := by
  rw [after_cons]
  refine hP _ ?_ ?_ ?_ ?_ ?_ ?_ ?_ ?_
  · rw [unary_result_ne]; exact h_main_arg0; decide
  · rw [unary_result_ne]; exact h_main_arg1; decide
  · rw [unary_result_ne]; exact h_main_v4; decide
  · rw [unary_result_ne]; exact h_main_v8; decide
  · rw [unary_result_ne]; exact h_main_v10; decide
  · rw [unary_result_ne]; exact h_main_v11; decide
  · rw [unary_result_ne]; exact h_main_v25; decide
  · rw [unary_result, h_main_cst_6] <;> rfl

/-- Operation 41 writes main_v27 from main_v11, main_v25, main_v26: the stages still to be read keep their values and main_v27 gets its own. -/
theorem step41 (x0 x1 : (⟨S64x524288x1, .f32⟩ : BufTy).Contents (Elt F)) (P : Valuation τ sig (Elt F) → Prop)
    (rest : List (HloOp τ sig (Elt F))) (V : Valuation τ sig (Elt F))
    (h_main_arg0 : V (Proc.devRef .tc main_arg0) = x0)
    (h_main_arg1 : V (Proc.devRef .tc main_arg1) = x1)
    (h_main_v4 : V (Proc.devRef .tc main_v4) = ReadP.val_main_v4 (F := F) x0 x1)
    (h_main_v8 : V (Proc.devRef .tc main_v8) = ReadP.val_main_v8 (F := F) x1)
    (h_main_v10 : V (Proc.devRef .tc main_v10) = ReadP.val_main_v10 (F := F))
    (h_main_v11 : V (Proc.devRef .tc main_v11) = ReadP.val_main_v11 (F := F))
    (h_main_v25 : V (Proc.devRef .tc main_v25) = ReadP.val_main_v25 (F := F) x1)
    (h_main_v26 : V (Proc.devRef .tc main_v26) = ReadP.val_main_v26 (F := F))
    (hP : ∀ V' : Valuation τ sig (Elt F), V' (Proc.devRef .tc main_arg0) = x0 →
      V' (Proc.devRef .tc main_arg1) = x1 →
      V' (Proc.devRef .tc main_v4) = ReadP.val_main_v4 (F := F) x0 x1 →
      V' (Proc.devRef .tc main_v8) = ReadP.val_main_v8 (F := F) x1 →
      V' (Proc.devRef .tc main_v10) = ReadP.val_main_v10 (F := F) →
      V' (Proc.devRef .tc main_v27) = ReadP.val_main_v27 (F := F) x1 → P (after rest V')) :
    P (after (op41 (F := F) :: rest) V) := by
  rw [after_cons]
  refine hP _ ?_ ?_ ?_ ?_ ?_ ?_
  · rw [ternary_result_ne]; exact h_main_arg0; decide
  · rw [ternary_result_ne]; exact h_main_arg1; decide
  · rw [ternary_result_ne]; exact h_main_v4; decide
  · rw [ternary_result_ne]; exact h_main_v8; decide
  · rw [ternary_result_ne]; exact h_main_v10; decide
  · rw [ternary_result, h_main_v11, h_main_v25, h_main_v26] <;> rfl

/-- Operation 42 writes main_cst_7: the stages still to be read keep their values and main_cst_7 gets its own. -/
theorem step42 (x0 x1 : (⟨S64x524288x1, .f32⟩ : BufTy).Contents (Elt F)) (P : Valuation τ sig (Elt F) → Prop)
    (rest : List (HloOp τ sig (Elt F))) (V : Valuation τ sig (Elt F))
    (h_main_arg0 : V (Proc.devRef .tc main_arg0) = x0)
    (h_main_arg1 : V (Proc.devRef .tc main_arg1) = x1)
    (h_main_v4 : V (Proc.devRef .tc main_v4) = ReadP.val_main_v4 (F := F) x0 x1)
    (h_main_v8 : V (Proc.devRef .tc main_v8) = ReadP.val_main_v8 (F := F) x1)
    (h_main_v10 : V (Proc.devRef .tc main_v10) = ReadP.val_main_v10 (F := F))
    (h_main_v27 : V (Proc.devRef .tc main_v27) = ReadP.val_main_v27 (F := F) x1)
    (hP : ∀ V' : Valuation τ sig (Elt F), V' (Proc.devRef .tc main_arg0) = x0 →
      V' (Proc.devRef .tc main_arg1) = x1 →
      V' (Proc.devRef .tc main_v4) = ReadP.val_main_v4 (F := F) x0 x1 →
      V' (Proc.devRef .tc main_v8) = ReadP.val_main_v8 (F := F) x1 →
      V' (Proc.devRef .tc main_v10) = ReadP.val_main_v10 (F := F) →
      V' (Proc.devRef .tc main_v27) = ReadP.val_main_v27 (F := F) x1 →
      V' (Proc.devRef .tc main_cst_7) = ReadP.val_main_cst_7 (F := F) → P (after rest V')) :
    P (after (op42 (F := F) :: rest) V) := by
  rw [after_cons]
  refine hP _ ?_ ?_ ?_ ?_ ?_ ?_ ?_
  · rw [nullary_result_ne]; exact h_main_arg0; decide
  · rw [nullary_result_ne]; exact h_main_arg1; decide
  · rw [nullary_result_ne]; exact h_main_v4; decide
  · rw [nullary_result_ne]; exact h_main_v8; decide
  · rw [nullary_result_ne]; exact h_main_v10; decide
  · rw [nullary_result_ne]; exact h_main_v27; decide
  · rw [nullary_result] <;> rfl

/-- Operation 43 writes main_v28 from main_cst_7: the stages still to be read keep their values and main_v28 gets its own. -/
theorem step43 (x0 x1 : (⟨S64x524288x1, .f32⟩ : BufTy).Contents (Elt F)) (P : Valuation τ sig (Elt F) → Prop)
    (rest : List (HloOp τ sig (Elt F))) (V : Valuation τ sig (Elt F))
    (h_main_arg0 : V (Proc.devRef .tc main_arg0) = x0)
    (h_main_arg1 : V (Proc.devRef .tc main_arg1) = x1)
    (h_main_v4 : V (Proc.devRef .tc main_v4) = ReadP.val_main_v4 (F := F) x0 x1)
    (h_main_v8 : V (Proc.devRef .tc main_v8) = ReadP.val_main_v8 (F := F) x1)
    (h_main_v10 : V (Proc.devRef .tc main_v10) = ReadP.val_main_v10 (F := F))
    (h_main_v27 : V (Proc.devRef .tc main_v27) = ReadP.val_main_v27 (F := F) x1)
    (h_main_cst_7 : V (Proc.devRef .tc main_cst_7) = ReadP.val_main_cst_7 (F := F))
    (hP : ∀ V' : Valuation τ sig (Elt F), V' (Proc.devRef .tc main_arg0) = x0 →
      V' (Proc.devRef .tc main_arg1) = x1 →
      V' (Proc.devRef .tc main_v4) = ReadP.val_main_v4 (F := F) x0 x1 →
      V' (Proc.devRef .tc main_v8) = ReadP.val_main_v8 (F := F) x1 →
      V' (Proc.devRef .tc main_v10) = ReadP.val_main_v10 (F := F) →
      V' (Proc.devRef .tc main_v27) = ReadP.val_main_v27 (F := F) x1 →
      V' (Proc.devRef .tc main_v28) = ReadP.val_main_v28 (F := F) → P (after rest V')) :
    P (after (op43 (F := F) :: rest) V) := by
  rw [after_cons]
  refine hP _ ?_ ?_ ?_ ?_ ?_ ?_ ?_
  · rw [unary_result_ne]; exact h_main_arg0; decide
  · rw [unary_result_ne]; exact h_main_arg1; decide
  · rw [unary_result_ne]; exact h_main_v4; decide
  · rw [unary_result_ne]; exact h_main_v8; decide
  · rw [unary_result_ne]; exact h_main_v10; decide
  · rw [unary_result_ne]; exact h_main_v27; decide
  · rw [unary_result, h_main_cst_7] <;> rfl

/-- Operation 44 writes main_v29 from main_v28, main_v27: the stages still to be read keep their values and main_v29 gets its own. -/
theorem step44 (x0 x1 : (⟨S64x524288x1, .f32⟩ : BufTy).Contents (Elt F)) (P : Valuation τ sig (Elt F) → Prop)
    (rest : List (HloOp τ sig (Elt F))) (V : Valuation τ sig (Elt F))
    (h_main_arg0 : V (Proc.devRef .tc main_arg0) = x0)
    (h_main_arg1 : V (Proc.devRef .tc main_arg1) = x1)
    (h_main_v4 : V (Proc.devRef .tc main_v4) = ReadP.val_main_v4 (F := F) x0 x1)
    (h_main_v8 : V (Proc.devRef .tc main_v8) = ReadP.val_main_v8 (F := F) x1)
    (h_main_v10 : V (Proc.devRef .tc main_v10) = ReadP.val_main_v10 (F := F))
    (h_main_v27 : V (Proc.devRef .tc main_v27) = ReadP.val_main_v27 (F := F) x1)
    (h_main_v28 : V (Proc.devRef .tc main_v28) = ReadP.val_main_v28 (F := F))
    (hP : ∀ V' : Valuation τ sig (Elt F), V' (Proc.devRef .tc main_arg0) = x0 →
      V' (Proc.devRef .tc main_arg1) = x1 →
      V' (Proc.devRef .tc main_v4) = ReadP.val_main_v4 (F := F) x0 x1 →
      V' (Proc.devRef .tc main_v8) = ReadP.val_main_v8 (F := F) x1 →
      V' (Proc.devRef .tc main_v10) = ReadP.val_main_v10 (F := F) →
      V' (Proc.devRef .tc main_v29) = ReadP.val_main_v29 (F := F) x1 → P (after rest V')) :
    P (after (op44 (F := F) :: rest) V) := by
  rw [after_cons]
  refine hP _ ?_ ?_ ?_ ?_ ?_ ?_
  · rw [binary_result_ne]; exact h_main_arg0; decide
  · rw [binary_result_ne]; exact h_main_arg1; decide
  · rw [binary_result_ne]; exact h_main_v4; decide
  · rw [binary_result_ne]; exact h_main_v8; decide
  · rw [binary_result_ne]; exact h_main_v10; decide
  · rw [binary_result, h_main_v28, h_main_v27] <;> rfl

/-- Operation 45 writes main_c_8: the stages still to be read keep their values and main_c_8 gets its own. -/
theorem step45 (x0 x1 : (⟨S64x524288x1, .f32⟩ : BufTy).Contents (Elt F)) (P : Valuation τ sig (Elt F) → Prop)
    (rest : List (HloOp τ sig (Elt F))) (V : Valuation τ sig (Elt F))
    (h_main_arg0 : V (Proc.devRef .tc main_arg0) = x0)
    (h_main_arg1 : V (Proc.devRef .tc main_arg1) = x1)
    (h_main_v4 : V (Proc.devRef .tc main_v4) = ReadP.val_main_v4 (F := F) x0 x1)
    (h_main_v8 : V (Proc.devRef .tc main_v8) = ReadP.val_main_v8 (F := F) x1)
    (h_main_v10 : V (Proc.devRef .tc main_v10) = ReadP.val_main_v10 (F := F))
    (h_main_v29 : V (Proc.devRef .tc main_v29) = ReadP.val_main_v29 (F := F) x1)
    (hP : ∀ V' : Valuation τ sig (Elt F), V' (Proc.devRef .tc main_arg0) = x0 →
      V' (Proc.devRef .tc main_arg1) = x1 →
      V' (Proc.devRef .tc main_v4) = ReadP.val_main_v4 (F := F) x0 x1 →
      V' (Proc.devRef .tc main_v8) = ReadP.val_main_v8 (F := F) x1 →
      V' (Proc.devRef .tc main_v10) = ReadP.val_main_v10 (F := F) →
      V' (Proc.devRef .tc main_v29) = ReadP.val_main_v29 (F := F) x1 →
      V' (Proc.devRef .tc main_c_8) = ReadP.val_main_c_8 (F := F) → P (after rest V')) :
    P (after (op45 (F := F) :: rest) V) := by
  rw [after_cons]
  refine hP _ ?_ ?_ ?_ ?_ ?_ ?_ ?_
  · rw [nullary_result_ne]; exact h_main_arg0; decide
  · rw [nullary_result_ne]; exact h_main_arg1; decide
  · rw [nullary_result_ne]; exact h_main_v4; decide
  · rw [nullary_result_ne]; exact h_main_v8; decide
  · rw [nullary_result_ne]; exact h_main_v10; decide
  · rw [nullary_result_ne]; exact h_main_v29; decide
  · rw [nullary_result] <;> rfl

/-- Operation 46 writes main_v30 from main_c_8: the stages still to be read keep their values and main_v30 gets its own. -/
theorem step46 (x0 x1 : (⟨S64x524288x1, .f32⟩ : BufTy).Contents (Elt F)) (P : Valuation τ sig (Elt F) → Prop)
    (rest : List (HloOp τ sig (Elt F))) (V : Valuation τ sig (Elt F))
    (h_main_arg0 : V (Proc.devRef .tc main_arg0) = x0)
    (h_main_arg1 : V (Proc.devRef .tc main_arg1) = x1)
    (h_main_v4 : V (Proc.devRef .tc main_v4) = ReadP.val_main_v4 (F := F) x0 x1)
    (h_main_v8 : V (Proc.devRef .tc main_v8) = ReadP.val_main_v8 (F := F) x1)
    (h_main_v10 : V (Proc.devRef .tc main_v10) = ReadP.val_main_v10 (F := F))
    (h_main_v29 : V (Proc.devRef .tc main_v29) = ReadP.val_main_v29 (F := F) x1)
    (h_main_c_8 : V (Proc.devRef .tc main_c_8) = ReadP.val_main_c_8 (F := F))
    (hP : ∀ V' : Valuation τ sig (Elt F), V' (Proc.devRef .tc main_arg0) = x0 →
      V' (Proc.devRef .tc main_arg1) = x1 →
      V' (Proc.devRef .tc main_v4) = ReadP.val_main_v4 (F := F) x0 x1 →
      V' (Proc.devRef .tc main_v8) = ReadP.val_main_v8 (F := F) x1 →
      V' (Proc.devRef .tc main_v10) = ReadP.val_main_v10 (F := F) →
      V' (Proc.devRef .tc main_v29) = ReadP.val_main_v29 (F := F) x1 →
      V' (Proc.devRef .tc main_v30) = ReadP.val_main_v30 (F := F) → P (after rest V')) :
    P (after (op46 (F := F) :: rest) V) := by
  rw [after_cons]
  refine hP _ ?_ ?_ ?_ ?_ ?_ ?_ ?_
  · rw [unary_result_ne]; exact h_main_arg0; decide
  · rw [unary_result_ne]; exact h_main_arg1; decide
  · rw [unary_result_ne]; exact h_main_v4; decide
  · rw [unary_result_ne]; exact h_main_v8; decide
  · rw [unary_result_ne]; exact h_main_v10; decide
  · rw [unary_result_ne]; exact h_main_v29; decide
  · rw [unary_result, h_main_c_8] <;> rfl

/-- Operation 47 writes main_v31 from main_v10, main_v30: the stages still to be read keep their values and main_v31 gets its own. -/
theorem step47 (x0 x1 : (⟨S64x524288x1, .f32⟩ : BufTy).Contents (Elt F)) (P : Valuation τ sig (Elt F) → Prop)
    (rest : List (HloOp τ sig (Elt F))) (V : Valuation τ sig (Elt F))
    (h_main_arg0 : V (Proc.devRef .tc main_arg0) = x0)
    (h_main_arg1 : V (Proc.devRef .tc main_arg1) = x1)
    (h_main_v4 : V (Proc.devRef .tc main_v4) = ReadP.val_main_v4 (F := F) x0 x1)
    (h_main_v8 : V (Proc.devRef .tc main_v8) = ReadP.val_main_v8 (F := F) x1)
    (h_main_v10 : V (Proc.devRef .tc main_v10) = ReadP.val_main_v10 (F := F))
    (h_main_v29 : V (Proc.devRef .tc main_v29) = ReadP.val_main_v29 (F := F) x1)
    (h_main_v30 : V (Proc.devRef .tc main_v30) = ReadP.val_main_v30 (F := F))
    (hP : ∀ V' : Valuation τ sig (Elt F), V' (Proc.devRef .tc main_arg0) = x0 →
      V' (Proc.devRef .tc main_arg1) = x1 →
      V' (Proc.devRef .tc main_v4) = ReadP.val_main_v4 (F := F) x0 x1 →
      V' (Proc.devRef .tc main_v8) = ReadP.val_main_v8 (F := F) x1 →
      V' (Proc.devRef .tc main_v10) = ReadP.val_main_v10 (F := F) →
      V' (Proc.devRef .tc main_v29) = ReadP.val_main_v29 (F := F) x1 →
      V' (Proc.devRef .tc main_v31) = ReadP.val_main_v31 (F := F) → P (after rest V')) :
    P (after (op47 (F := F) :: rest) V) := by
  rw [after_cons]
  refine hP _ ?_ ?_ ?_ ?_ ?_ ?_ ?_
  · rw [binary_result_ne]; exact h_main_arg0; decide
  · rw [binary_result_ne]; exact h_main_arg1; decide
  · rw [binary_result_ne]; exact h_main_v4; decide
  · rw [binary_result_ne]; exact h_main_v8; decide
  · rw [binary_result_ne]; exact h_main_v10; decide
  · rw [binary_result_ne]; exact h_main_v29; decide
  · rw [binary_result, h_main_v10, h_main_v30] <;> rfl

/-- Operation 48 writes main_c_9: the stages still to be read keep their values and main_c_9 gets its own. -/
theorem step48 (x0 x1 : (⟨S64x524288x1, .f32⟩ : BufTy).Contents (Elt F)) (P : Valuation τ sig (Elt F) → Prop)
    (rest : List (HloOp τ sig (Elt F))) (V : Valuation τ sig (Elt F))
    (h_main_arg0 : V (Proc.devRef .tc main_arg0) = x0)
    (h_main_arg1 : V (Proc.devRef .tc main_arg1) = x1)
    (h_main_v4 : V (Proc.devRef .tc main_v4) = ReadP.val_main_v4 (F := F) x0 x1)
    (h_main_v8 : V (Proc.devRef .tc main_v8) = ReadP.val_main_v8 (F := F) x1)
    (h_main_v10 : V (Proc.devRef .tc main_v10) = ReadP.val_main_v10 (F := F))
    (h_main_v29 : V (Proc.devRef .tc main_v29) = ReadP.val_main_v29 (F := F) x1)
    (h_main_v31 : V (Proc.devRef .tc main_v31) = ReadP.val_main_v31 (F := F))
    (hP : ∀ V' : Valuation τ sig (Elt F), V' (Proc.devRef .tc main_arg0) = x0 →
      V' (Proc.devRef .tc main_arg1) = x1 →
      V' (Proc.devRef .tc main_v4) = ReadP.val_main_v4 (F := F) x0 x1 →
      V' (Proc.devRef .tc main_v8) = ReadP.val_main_v8 (F := F) x1 →
      V' (Proc.devRef .tc main_v10) = ReadP.val_main_v10 (F := F) →
      V' (Proc.devRef .tc main_v29) = ReadP.val_main_v29 (F := F) x1 →
      V' (Proc.devRef .tc main_v31) = ReadP.val_main_v31 (F := F) →
      V' (Proc.devRef .tc main_c_9) = ReadP.val_main_c_9 (F := F) → P (after rest V')) :
    P (after (op48 (F := F) :: rest) V) := by
  rw [after_cons]
  refine hP _ ?_ ?_ ?_ ?_ ?_ ?_ ?_ ?_
  · rw [nullary_result_ne]; exact h_main_arg0; decide
  · rw [nullary_result_ne]; exact h_main_arg1; decide
  · rw [nullary_result_ne]; exact h_main_v4; decide
  · rw [nullary_result_ne]; exact h_main_v8; decide
  · rw [nullary_result_ne]; exact h_main_v10; decide
  · rw [nullary_result_ne]; exact h_main_v29; decide
  · rw [nullary_result_ne]; exact h_main_v31; decide
  · rw [nullary_result] <;> rfl

/-- Operation 49 writes main_v32 from main_c_9: the stages still to be read keep their values and main_v32 gets its own. -/
theorem step49 (x0 x1 : (⟨S64x524288x1, .f32⟩ : BufTy).Contents (Elt F)) (P : Valuation τ sig (Elt F) → Prop)
    (rest : List (HloOp τ sig (Elt F))) (V : Valuation τ sig (Elt F))
    (h_main_arg0 : V (Proc.devRef .tc main_arg0) = x0)
    (h_main_arg1 : V (Proc.devRef .tc main_arg1) = x1)
    (h_main_v4 : V (Proc.devRef .tc main_v4) = ReadP.val_main_v4 (F := F) x0 x1)
    (h_main_v8 : V (Proc.devRef .tc main_v8) = ReadP.val_main_v8 (F := F) x1)
    (h_main_v10 : V (Proc.devRef .tc main_v10) = ReadP.val_main_v10 (F := F))
    (h_main_v29 : V (Proc.devRef .tc main_v29) = ReadP.val_main_v29 (F := F) x1)
    (h_main_v31 : V (Proc.devRef .tc main_v31) = ReadP.val_main_v31 (F := F))
    (h_main_c_9 : V (Proc.devRef .tc main_c_9) = ReadP.val_main_c_9 (F := F))
    (hP : ∀ V' : Valuation τ sig (Elt F), V' (Proc.devRef .tc main_arg0) = x0 →
      V' (Proc.devRef .tc main_arg1) = x1 →
      V' (Proc.devRef .tc main_v4) = ReadP.val_main_v4 (F := F) x0 x1 →
      V' (Proc.devRef .tc main_v8) = ReadP.val_main_v8 (F := F) x1 →
      V' (Proc.devRef .tc main_v10) = ReadP.val_main_v10 (F := F) →
      V' (Proc.devRef .tc main_v29) = ReadP.val_main_v29 (F := F) x1 →
      V' (Proc.devRef .tc main_v31) = ReadP.val_main_v31 (F := F) →
      V' (Proc.devRef .tc main_v32) = ReadP.val_main_v32 (F := F) → P (after rest V')) :
    P (after (op49 (F := F) :: rest) V) := by
  rw [after_cons]
  refine hP _ ?_ ?_ ?_ ?_ ?_ ?_ ?_ ?_
  · rw [unary_result_ne]; exact h_main_arg0; decide
  · rw [unary_result_ne]; exact h_main_arg1; decide
  · rw [unary_result_ne]; exact h_main_v4; decide
  · rw [unary_result_ne]; exact h_main_v8; decide
  · rw [unary_result_ne]; exact h_main_v10; decide
  · rw [unary_result_ne]; exact h_main_v29; decide
  · rw [unary_result_ne]; exact h_main_v31; decide
  · rw [unary_result, h_main_c_9] <;> rfl

/-- Operation 50 writes main_v33 from main_v10, main_v32: the stages still to be read keep their values and main_v33 gets its own. -/
theorem step50 (x0 x1 : (⟨S64x524288x1, .f32⟩ : BufTy).Contents (Elt F)) (P : Valuation τ sig (Elt F) → Prop)
    (rest : List (HloOp τ sig (Elt F))) (V : Valuation τ sig (Elt F))
    (h_main_arg0 : V (Proc.devRef .tc main_arg0) = x0)
    (h_main_arg1 : V (Proc.devRef .tc main_arg1) = x1)
    (h_main_v4 : V (Proc.devRef .tc main_v4) = ReadP.val_main_v4 (F := F) x0 x1)
    (h_main_v8 : V (Proc.devRef .tc main_v8) = ReadP.val_main_v8 (F := F) x1)
    (h_main_v10 : V (Proc.devRef .tc main_v10) = ReadP.val_main_v10 (F := F))
    (h_main_v29 : V (Proc.devRef .tc main_v29) = ReadP.val_main_v29 (F := F) x1)
    (h_main_v31 : V (Proc.devRef .tc main_v31) = ReadP.val_main_v31 (F := F))
    (h_main_v32 : V (Proc.devRef .tc main_v32) = ReadP.val_main_v32 (F := F))
    (hP : ∀ V' : Valuation τ sig (Elt F), V' (Proc.devRef .tc main_arg0) = x0 →
      V' (Proc.devRef .tc main_arg1) = x1 →
      V' (Proc.devRef .tc main_v4) = ReadP.val_main_v4 (F := F) x0 x1 →
      V' (Proc.devRef .tc main_v8) = ReadP.val_main_v8 (F := F) x1 →
      V' (Proc.devRef .tc main_v10) = ReadP.val_main_v10 (F := F) →
      V' (Proc.devRef .tc main_v29) = ReadP.val_main_v29 (F := F) x1 →
      V' (Proc.devRef .tc main_v31) = ReadP.val_main_v31 (F := F) →
      V' (Proc.devRef .tc main_v33) = ReadP.val_main_v33 (F := F) → P (after rest V')) :
    P (after (op50 (F := F) :: rest) V) := by
  rw [after_cons]
  refine hP _ ?_ ?_ ?_ ?_ ?_ ?_ ?_ ?_
  · rw [binary_result_ne]; exact h_main_arg0; decide
  · rw [binary_result_ne]; exact h_main_arg1; decide
  · rw [binary_result_ne]; exact h_main_v4; decide
  · rw [binary_result_ne]; exact h_main_v8; decide
  · rw [binary_result_ne]; exact h_main_v10; decide
  · rw [binary_result_ne]; exact h_main_v29; decide
  · rw [binary_result_ne]; exact h_main_v31; decide
  · rw [binary_result, h_main_v10, h_main_v32] <;> rfl

/-- Operation 51 writes main_v34 from main_v31, main_v33, main_v10: the stages still to be read keep their values and main_v34 gets its own. -/
theorem step51 (x0 x1 : (⟨S64x524288x1, .f32⟩ : BufTy).Contents (Elt F)) (P : Valuation τ sig (Elt F) → Prop)
    (rest : List (HloOp τ sig (Elt F))) (V : Valuation τ sig (Elt F))
    (h_main_arg0 : V (Proc.devRef .tc main_arg0) = x0)
    (h_main_arg1 : V (Proc.devRef .tc main_arg1) = x1)
    (h_main_v4 : V (Proc.devRef .tc main_v4) = ReadP.val_main_v4 (F := F) x0 x1)
    (h_main_v8 : V (Proc.devRef .tc main_v8) = ReadP.val_main_v8 (F := F) x1)
    (h_main_v10 : V (Proc.devRef .tc main_v10) = ReadP.val_main_v10 (F := F))
    (h_main_v29 : V (Proc.devRef .tc main_v29) = ReadP.val_main_v29 (F := F) x1)
    (h_main_v31 : V (Proc.devRef .tc main_v31) = ReadP.val_main_v31 (F := F))
    (h_main_v33 : V (Proc.devRef .tc main_v33) = ReadP.val_main_v33 (F := F))
    (hP : ∀ V' : Valuation τ sig (Elt F), V' (Proc.devRef .tc main_arg0) = x0 →
      V' (Proc.devRef .tc main_arg1) = x1 →
      V' (Proc.devRef .tc main_v4) = ReadP.val_main_v4 (F := F) x0 x1 →
      V' (Proc.devRef .tc main_v8) = ReadP.val_main_v8 (F := F) x1 →
      V' (Proc.devRef .tc main_v29) = ReadP.val_main_v29 (F := F) x1 →
      V' (Proc.devRef .tc main_v34) = ReadP.val_main_v34 (F := F) → P (after rest V')) :
    P (after (op51 (F := F) :: rest) V) := by
  rw [after_cons]
  refine hP _ ?_ ?_ ?_ ?_ ?_ ?_
  · rw [ternary_result_ne]; exact h_main_arg0; decide
  · rw [ternary_result_ne]; exact h_main_arg1; decide
  · rw [ternary_result_ne]; exact h_main_v4; decide
  · rw [ternary_result_ne]; exact h_main_v8; decide
  · rw [ternary_result_ne]; exact h_main_v29; decide
  · rw [ternary_result, h_main_v31, h_main_v33, h_main_v10] <;> rfl

/-- Operation 52 writes main_c_10: the stages still to be read keep their values and main_c_10 gets its own. -/
theorem step52 (x0 x1 : (⟨S64x524288x1, .f32⟩ : BufTy).Contents (Elt F)) (P : Valuation τ sig (Elt F) → Prop)
    (rest : List (HloOp τ sig (Elt F))) (V : Valuation τ sig (Elt F))
    (h_main_arg0 : V (Proc.devRef .tc main_arg0) = x0)
    (h_main_arg1 : V (Proc.devRef .tc main_arg1) = x1)
    (h_main_v4 : V (Proc.devRef .tc main_v4) = ReadP.val_main_v4 (F := F) x0 x1)
    (h_main_v8 : V (Proc.devRef .tc main_v8) = ReadP.val_main_v8 (F := F) x1)
    (h_main_v29 : V (Proc.devRef .tc main_v29) = ReadP.val_main_v29 (F := F) x1)
    (h_main_v34 : V (Proc.devRef .tc main_v34) = ReadP.val_main_v34 (F := F))
    (hP : ∀ V' : Valuation τ sig (Elt F), V' (Proc.devRef .tc main_arg0) = x0 →
      V' (Proc.devRef .tc main_arg1) = x1 →
      V' (Proc.devRef .tc main_v4) = ReadP.val_main_v4 (F := F) x0 x1 →
      V' (Proc.devRef .tc main_v8) = ReadP.val_main_v8 (F := F) x1 →
      V' (Proc.devRef .tc main_v29) = ReadP.val_main_v29 (F := F) x1 →
      V' (Proc.devRef .tc main_v34) = ReadP.val_main_v34 (F := F) →
      V' (Proc.devRef .tc main_c_10) = ReadP.val_main_c_10 (F := F) → P (after rest V')) :
    P (after (op52 (F := F) :: rest) V) := by
  rw [after_cons]
  refine hP _ ?_ ?_ ?_ ?_ ?_ ?_ ?_
  · rw [nullary_result_ne]; exact h_main_arg0; decide
  · rw [nullary_result_ne]; exact h_main_arg1; decide
  · rw [nullary_result_ne]; exact h_main_v4; decide
  · rw [nullary_result_ne]; exact h_main_v8; decide
  · rw [nullary_result_ne]; exact h_main_v29; decide
  · rw [nullary_result_ne]; exact h_main_v34; decide
  · rw [nullary_result] <;> rfl

/-- Operation 53 writes main_v35 from main_c_10: the stages still to be read keep their values and main_v35 gets its own. -/
theorem step53 (x0 x1 : (⟨S64x524288x1, .f32⟩ : BufTy).Contents (Elt F)) (P : Valuation τ sig (Elt F) → Prop)
    (rest : List (HloOp τ sig (Elt F))) (V : Valuation τ sig (Elt F))
    (h_main_arg0 : V (Proc.devRef .tc main_arg0) = x0)
    (h_main_arg1 : V (Proc.devRef .tc main_arg1) = x1)
    (h_main_v4 : V (Proc.devRef .tc main_v4) = ReadP.val_main_v4 (F := F) x0 x1)
    (h_main_v8 : V (Proc.devRef .tc main_v8) = ReadP.val_main_v8 (F := F) x1)
    (h_main_v29 : V (Proc.devRef .tc main_v29) = ReadP.val_main_v29 (F := F) x1)
    (h_main_v34 : V (Proc.devRef .tc main_v34) = ReadP.val_main_v34 (F := F))
    (h_main_c_10 : V (Proc.devRef .tc main_c_10) = ReadP.val_main_c_10 (F := F))
    (hP : ∀ V' : Valuation τ sig (Elt F), V' (Proc.devRef .tc main_arg0) = x0 →
      V' (Proc.devRef .tc main_arg1) = x1 →
      V' (Proc.devRef .tc main_v4) = ReadP.val_main_v4 (F := F) x0 x1 →
      V' (Proc.devRef .tc main_v8) = ReadP.val_main_v8 (F := F) x1 →
      V' (Proc.devRef .tc main_v29) = ReadP.val_main_v29 (F := F) x1 →
      V' (Proc.devRef .tc main_v34) = ReadP.val_main_v34 (F := F) →
      V' (Proc.devRef .tc main_v35) = ReadP.val_main_v35 (F := F) → P (after rest V')) :
    P (after (op53 (F := F) :: rest) V) := by
  rw [after_cons]
  refine hP _ ?_ ?_ ?_ ?_ ?_ ?_ ?_
  · rw [unary_result_ne]; exact h_main_arg0; decide
  · rw [unary_result_ne]; exact h_main_arg1; decide
  · rw [unary_result_ne]; exact h_main_v4; decide
  · rw [unary_result_ne]; exact h_main_v8; decide
  · rw [unary_result_ne]; exact h_main_v29; decide
  · rw [unary_result_ne]; exact h_main_v34; decide
  · rw [unary_result, h_main_c_10] <;> rfl

/-- Operation 54 writes main_v36 from main_v8, main_v35: the stages still to be read keep their values and main_v36 gets its own. -/
theorem step54 (x0 x1 : (⟨S64x524288x1, .f32⟩ : BufTy).Contents (Elt F)) (P : Valuation τ sig (Elt F) → Prop)
    (rest : List (HloOp τ sig (Elt F))) (V : Valuation τ sig (Elt F))
    (h_main_arg0 : V (Proc.devRef .tc main_arg0) = x0)
    (h_main_arg1 : V (Proc.devRef .tc main_arg1) = x1)
    (h_main_v4 : V (Proc.devRef .tc main_v4) = ReadP.val_main_v4 (F := F) x0 x1)
    (h_main_v8 : V (Proc.devRef .tc main_v8) = ReadP.val_main_v8 (F := F) x1)
    (h_main_v29 : V (Proc.devRef .tc main_v29) = ReadP.val_main_v29 (F := F) x1)
    (h_main_v34 : V (Proc.devRef .tc main_v34) = ReadP.val_main_v34 (F := F))
    (h_main_v35 : V (Proc.devRef .tc main_v35) = ReadP.val_main_v35 (F := F))
    (hP : ∀ V' : Valuation τ sig (Elt F), V' (Proc.devRef .tc main_arg0) = x0 →
      V' (Proc.devRef .tc main_arg1) = x1 →
      V' (Proc.devRef .tc main_v4) = ReadP.val_main_v4 (F := F) x0 x1 →
      V' (Proc.devRef .tc main_v8) = ReadP.val_main_v8 (F := F) x1 →
      V' (Proc.devRef .tc main_v29) = ReadP.val_main_v29 (F := F) x1 →
      V' (Proc.devRef .tc main_v34) = ReadP.val_main_v34 (F := F) →
      V' (Proc.devRef .tc main_v36) = ReadP.val_main_v36 (F := F) x1 → P (after rest V')) :
    P (after (op54 (F := F) :: rest) V) := by
  rw [after_cons]
  refine hP _ ?_ ?_ ?_ ?_ ?_ ?_ ?_
  · rw [binary_result_ne]; exact h_main_arg0; decide
  · rw [binary_result_ne]; exact h_main_arg1; decide
  · rw [binary_result_ne]; exact h_main_v4; decide
  · rw [binary_result_ne]; exact h_main_v8; decide
  · rw [binary_result_ne]; exact h_main_v29; decide
  · rw [binary_result_ne]; exact h_main_v34; decide
  · rw [binary_result, h_main_v8, h_main_v35] <;> rfl

/-- Operation 55 writes main_c_11: the stages still to be read keep their values and main_c_11 gets its own. -/
theorem step55 (x0 x1 : (⟨S64x524288x1, .f32⟩ : BufTy).Contents (Elt F)) (P : Valuation τ sig (Elt F) → Prop)
    (rest : List (HloOp τ sig (Elt F))) (V : Valuation τ sig (Elt F))
    (h_main_arg0 : V (Proc.devRef .tc main_arg0) = x0)
    (h_main_arg1 : V (Proc.devRef .tc main_arg1) = x1)
    (h_main_v4 : V (Proc.devRef .tc main_v4) = ReadP.val_main_v4 (F := F) x0 x1)
    (h_main_v8 : V (Proc.devRef .tc main_v8) = ReadP.val_main_v8 (F := F) x1)
    (h_main_v29 : V (Proc.devRef .tc main_v29) = ReadP.val_main_v29 (F := F) x1)
    (h_main_v34 : V (Proc.devRef .tc main_v34) = ReadP.val_main_v34 (F := F))
    (h_main_v36 : V (Proc.devRef .tc main_v36) = ReadP.val_main_v36 (F := F) x1)
    (hP : ∀ V' : Valuation τ sig (Elt F), V' (Proc.devRef .tc main_arg0) = x0 →
      V' (Proc.devRef .tc main_arg1) = x1 →
      V' (Proc.devRef .tc main_v4) = ReadP.val_main_v4 (F := F) x0 x1 →
      V' (Proc.devRef .tc main_v8) = ReadP.val_main_v8 (F := F) x1 →
      V' (Proc.devRef .tc main_v29) = ReadP.val_main_v29 (F := F) x1 →
      V' (Proc.devRef .tc main_v34) = ReadP.val_main_v34 (F := F) →
      V' (Proc.devRef .tc main_v36) = ReadP.val_main_v36 (F := F) x1 →
      V' (Proc.devRef .tc main_c_11) = ReadP.val_main_c_11 (F := F) → P (after rest V')) :
    P (after (op55 (F := F) :: rest) V) := by
  rw [after_cons]
  refine hP _ ?_ ?_ ?_ ?_ ?_ ?_ ?_ ?_
  · rw [nullary_result_ne]; exact h_main_arg0; decide
  · rw [nullary_result_ne]; exact h_main_arg1; decide
  · rw [nullary_result_ne]; exact h_main_v4; decide
  · rw [nullary_result_ne]; exact h_main_v8; decide
  · rw [nullary_result_ne]; exact h_main_v29; decide
  · rw [nullary_result_ne]; exact h_main_v34; decide
  · rw [nullary_result_ne]; exact h_main_v36; decide
  · rw [nullary_result] <;> rfl

/-- Operation 56 writes main_v37 from main_c_11: the stages still to be read keep their values and main_v37 gets its own. -/
theorem step56 (x0 x1 : (⟨S64x524288x1, .f32⟩ : BufTy).Contents (Elt F)) (P : Valuation τ sig (Elt F) → Prop)
    (rest : List (HloOp τ sig (Elt F))) (V : Valuation τ sig (Elt F))
    (h_main_arg0 : V (Proc.devRef .tc main_arg0) = x0)
    (h_main_arg1 : V (Proc.devRef .tc main_arg1) = x1)
    (h_main_v4 : V (Proc.devRef .tc main_v4) = ReadP.val_main_v4 (F := F) x0 x1)
    (h_main_v8 : V (Proc.devRef .tc main_v8) = ReadP.val_main_v8 (F := F) x1)
    (h_main_v29 : V (Proc.devRef .tc main_v29) = ReadP.val_main_v29 (F := F) x1)
    (h_main_v34 : V (Proc.devRef .tc main_v34) = ReadP.val_main_v34 (F := F))
    (h_main_v36 : V (Proc.devRef .tc main_v36) = ReadP.val_main_v36 (F := F) x1)
    (h_main_c_11 : V (Proc.devRef .tc main_c_11) = ReadP.val_main_c_11 (F := F))
    (hP : ∀ V' : Valuation τ sig (Elt F), V' (Proc.devRef .tc main_arg0) = x0 →
      V' (Proc.devRef .tc main_arg1) = x1 →
      V' (Proc.devRef .tc main_v4) = ReadP.val_main_v4 (F := F) x0 x1 →
      V' (Proc.devRef .tc main_v8) = ReadP.val_main_v8 (F := F) x1 →
      V' (Proc.devRef .tc main_v29) = ReadP.val_main_v29 (F := F) x1 →
      V' (Proc.devRef .tc main_v34) = ReadP.val_main_v34 (F := F) →
      V' (Proc.devRef .tc main_v36) = ReadP.val_main_v36 (F := F) x1 →
      V' (Proc.devRef .tc main_v37) = ReadP.val_main_v37 (F := F) → P (after rest V')) :
    P (after (op56 (F := F) :: rest) V) := by
  rw [after_cons]
  refine hP _ ?_ ?_ ?_ ?_ ?_ ?_ ?_ ?_
  · rw [unary_result_ne]; exact h_main_arg0; decide
  · rw [unary_result_ne]; exact h_main_arg1; decide
  · rw [unary_result_ne]; exact h_main_v4; decide
  · rw [unary_result_ne]; exact h_main_v8; decide
  · rw [unary_result_ne]; exact h_main_v29; decide
  · rw [unary_result_ne]; exact h_main_v34; decide
  · rw [unary_result_ne]; exact h_main_v36; decide
  · rw [unary_result, h_main_c_11] <;> rfl

/-- Operation 57 writes main_v38 from main_v8, main_v37: the stages still to be read keep their values and main_v38 gets its own. -/
theorem step57 (x0 x1 : (⟨S64x524288x1, .f32⟩ : BufTy).Contents (Elt F)) (P : Valuation τ sig (Elt F) → Prop)
    (rest : List (HloOp τ sig (Elt F))) (V : Valuation τ sig (Elt F))
    (h_main_arg0 : V (Proc.devRef .tc main_arg0) = x0)
    (h_main_arg1 : V (Proc.devRef .tc main_arg1) = x1)
    (h_main_v4 : V (Proc.devRef .tc main_v4) = ReadP.val_main_v4 (F := F) x0 x1)
    (h_main_v8 : V (Proc.devRef .tc main_v8) = ReadP.val_main_v8 (F := F) x1)
    (h_main_v29 : V (Proc.devRef .tc main_v29) = ReadP.val_main_v29 (F := F) x1)
    (h_main_v34 : V (Proc.devRef .tc main_v34) = ReadP.val_main_v34 (F := F))
    (h_main_v36 : V (Proc.devRef .tc main_v36) = ReadP.val_main_v36 (F := F) x1)
    (h_main_v37 : V (Proc.devRef .tc main_v37) = ReadP.val_main_v37 (F := F))
    (hP : ∀ V' : Valuation τ sig (Elt F), V' (Proc.devRef .tc main_arg0) = x0 →
      V' (Proc.devRef .tc main_arg1) = x1 →
      V' (Proc.devRef .tc main_v4) = ReadP.val_main_v4 (F := F) x0 x1 →
      V' (Proc.devRef .tc main_v8) = ReadP.val_main_v8 (F := F) x1 →
      V' (Proc.devRef .tc main_v29) = ReadP.val_main_v29 (F := F) x1 →
      V' (Proc.devRef .tc main_v34) = ReadP.val_main_v34 (F := F) →
      V' (Proc.devRef .tc main_v36) = ReadP.val_main_v36 (F := F) x1 →
      V' (Proc.devRef .tc main_v38) = ReadP.val_main_v38 (F := F) x1 → P (after rest V')) :
    P (after (op57 (F := F) :: rest) V) := by
  rw [after_cons]
  refine hP _ ?_ ?_ ?_ ?_ ?_ ?_ ?_ ?_
  · rw [binary_result_ne]; exact h_main_arg0; decide
  · rw [binary_result_ne]; exact h_main_arg1; decide
  · rw [binary_result_ne]; exact h_main_v4; decide
  · rw [binary_result_ne]; exact h_main_v8; decide
  · rw [binary_result_ne]; exact h_main_v29; decide
  · rw [binary_result_ne]; exact h_main_v34; decide
  · rw [binary_result_ne]; exact h_main_v36; decide
  · rw [binary_result, h_main_v8, h_main_v37] <;> rfl

/-- Operation 58 writes main_v39 from main_v36, main_v38, main_v8: the stages still to be read keep their values and main_v39 gets its own. -/
theorem step58 (x0 x1 : (⟨S64x524288x1, .f32⟩ : BufTy).Contents (Elt F)) (P : Valuation τ sig (Elt F) → Prop)
    (rest : List (HloOp τ sig (Elt F))) (V : Valuation τ sig (Elt F))
    (h_main_arg0 : V (Proc.devRef .tc main_arg0) = x0)
    (h_main_arg1 : V (Proc.devRef .tc main_arg1) = x1)
    (h_main_v4 : V (Proc.devRef .tc main_v4) = ReadP.val_main_v4 (F := F) x0 x1)
    (h_main_v8 : V (Proc.devRef .tc main_v8) = ReadP.val_main_v8 (F := F) x1)
    (h_main_v29 : V (Proc.devRef .tc main_v29) = ReadP.val_main_v29 (F := F) x1)
    (h_main_v34 : V (Proc.devRef .tc main_v34) = ReadP.val_main_v34 (F := F))
    (h_main_v36 : V (Proc.devRef .tc main_v36) = ReadP.val_main_v36 (F := F) x1)
    (h_main_v38 : V (Proc.devRef .tc main_v38) = ReadP.val_main_v38 (F := F) x1)
    (hP : ∀ V' : Valuation τ sig (Elt F), V' (Proc.devRef .tc main_arg0) = x0 →
      V' (Proc.devRef .tc main_arg1) = x1 →
      V' (Proc.devRef .tc main_v4) = ReadP.val_main_v4 (F := F) x0 x1 →
      V' (Proc.devRef .tc main_v29) = ReadP.val_main_v29 (F := F) x1 →
      V' (Proc.devRef .tc main_v34) = ReadP.val_main_v34 (F := F) →
      V' (Proc.devRef .tc main_v39) = ReadP.val_main_v39 (F := F) x1 → P (after rest V')) :
    P (after (op58 (F := F) :: rest) V) := by
  rw [after_cons]
  refine hP _ ?_ ?_ ?_ ?_ ?_ ?_
  · rw [ternary_result_ne]; exact h_main_arg0; decide
  · rw [ternary_result_ne]; exact h_main_arg1; decide
  · rw [ternary_result_ne]; exact h_main_v4; decide
  · rw [ternary_result_ne]; exact h_main_v29; decide
  · rw [ternary_result_ne]; exact h_main_v34; decide
  · rw [ternary_result, h_main_v36, h_main_v38, h_main_v8] <;> rfl

/-- Operation 59 writes main_v40 from main_v34: the stages still to be read keep their values and main_v40 gets its own. -/
theorem step59 (x0 x1 : (⟨S64x524288x1, .f32⟩ : BufTy).Contents (Elt F)) (P : Valuation τ sig (Elt F) → Prop)
    (rest : List (HloOp τ sig (Elt F))) (V : Valuation τ sig (Elt F))
    (h_main_arg0 : V (Proc.devRef .tc main_arg0) = x0)
    (h_main_arg1 : V (Proc.devRef .tc main_arg1) = x1)
    (h_main_v4 : V (Proc.devRef .tc main_v4) = ReadP.val_main_v4 (F := F) x0 x1)
    (h_main_v29 : V (Proc.devRef .tc main_v29) = ReadP.val_main_v29 (F := F) x1)
    (h_main_v34 : V (Proc.devRef .tc main_v34) = ReadP.val_main_v34 (F := F))
    (h_main_v39 : V (Proc.devRef .tc main_v39) = ReadP.val_main_v39 (F := F) x1)
    (hP : ∀ V' : Valuation τ sig (Elt F), V' (Proc.devRef .tc main_arg0) = x0 →
      V' (Proc.devRef .tc main_arg1) = x1 →
      V' (Proc.devRef .tc main_v4) = ReadP.val_main_v4 (F := F) x0 x1 →
      V' (Proc.devRef .tc main_v29) = ReadP.val_main_v29 (F := F) x1 →
      V' (Proc.devRef .tc main_v39) = ReadP.val_main_v39 (F := F) x1 →
      V' (Proc.devRef .tc main_v40) = ReadP.val_main_v40 (F := F) → P (after rest V')) :
    P (after (op59 (F := F) :: rest) V) := by
  rw [after_cons]
  refine hP _ ?_ ?_ ?_ ?_ ?_ ?_
  · rw [unary_result_ne]; exact h_main_arg0; decide
  · rw [unary_result_ne]; exact h_main_arg1; decide
  · rw [unary_result_ne]; exact h_main_v4; decide
  · rw [unary_result_ne]; exact h_main_v29; decide
  · rw [unary_result_ne]; exact h_main_v39; decide
  · rw [unary_result, h_main_v34] <;> rfl

/-- Operation 60 writes main_v41 from main_v40: the stages still to be read keep their values and main_v41 gets its own. -/
theorem step60 (x0 x1 : (⟨S64x524288x1, .f32⟩ : BufTy).Contents (Elt F)) (P : Valuation τ sig (Elt F) → Prop)
    (rest : List (HloOp τ sig (Elt F))) (V : Valuation τ sig (Elt F))
    (h_main_arg0 : V (Proc.devRef .tc main_arg0) = x0)
    (h_main_arg1 : V (Proc.devRef .tc main_arg1) = x1)
    (h_main_v4 : V (Proc.devRef .tc main_v4) = ReadP.val_main_v4 (F := F) x0 x1)
    (h_main_v29 : V (Proc.devRef .tc main_v29) = ReadP.val_main_v29 (F := F) x1)
    (h_main_v39 : V (Proc.devRef .tc main_v39) = ReadP.val_main_v39 (F := F) x1)
    (h_main_v40 : V (Proc.devRef .tc main_v40) = ReadP.val_main_v40 (F := F))
    (hP : ∀ V' : Valuation τ sig (Elt F), V' (Proc.devRef .tc main_arg0) = x0 →
      V' (Proc.devRef .tc main_arg1) = x1 →
      V' (Proc.devRef .tc main_v4) = ReadP.val_main_v4 (F := F) x0 x1 →
      V' (Proc.devRef .tc main_v29) = ReadP.val_main_v29 (F := F) x1 →
      V' (Proc.devRef .tc main_v39) = ReadP.val_main_v39 (F := F) x1 →
      V' (Proc.devRef .tc main_v41) = ReadP.val_main_v41 (F := F) → P (after rest V')) :
    P (after (op60 (F := F) :: rest) V) := by
  rw [after_cons]
  refine hP _ ?_ ?_ ?_ ?_ ?_ ?_
  · rw [unary_result_ne]; exact h_main_arg0; decide
  · rw [unary_result_ne]; exact h_main_arg1; decide
  · rw [unary_result_ne]; exact h_main_v4; decide
  · rw [unary_result_ne]; exact h_main_v29; decide
  · rw [unary_result_ne]; exact h_main_v39; decide
  · rw [unary_result, h_main_v40] <;> rfl

/-- Operation 61 writes main_v42 from main_v39: the stages still to be read keep their values and main_v42 gets its own. -/
theorem step61 (x0 x1 : (⟨S64x524288x1, .f32⟩ : BufTy).Contents (Elt F)) (P : Valuation τ sig (Elt F) → Prop)
    (rest : List (HloOp τ sig (Elt F))) (V : Valuation τ sig (Elt F))
    (h_main_arg0 : V (Proc.devRef .tc main_arg0) = x0)
    (h_main_arg1 : V (Proc.devRef .tc main_arg1) = x1)
    (h_main_v4 : V (Proc.devRef .tc main_v4) = ReadP.val_main_v4 (F := F) x0 x1)
    (h_main_v29 : V (Proc.devRef .tc main_v29) = ReadP.val_main_v29 (F := F) x1)
    (h_main_v39 : V (Proc.devRef .tc main_v39) = ReadP.val_main_v39 (F := F) x1)
    (h_main_v41 : V (Proc.devRef .tc main_v41) = ReadP.val_main_v41 (F := F))
    (hP : ∀ V' : Valuation τ sig (Elt F), V' (Proc.devRef .tc main_arg0) = x0 →
      V' (Proc.devRef .tc main_arg1) = x1 →
      V' (Proc.devRef .tc main_v4) = ReadP.val_main_v4 (F := F) x0 x1 →
      V' (Proc.devRef .tc main_v29) = ReadP.val_main_v29 (F := F) x1 →
      V' (Proc.devRef .tc main_v41) = ReadP.val_main_v41 (F := F) →
      V' (Proc.devRef .tc main_v42) = ReadP.val_main_v42 (F := F) x1 → P (after rest V')) :
    P (after (op61 (F := F) :: rest) V) := by
  rw [after_cons]
  refine hP _ ?_ ?_ ?_ ?_ ?_ ?_
  · rw [unary_result_ne]; exact h_main_arg0; decide
  · rw [unary_result_ne]; exact h_main_arg1; decide
  · rw [unary_result_ne]; exact h_main_v4; decide
  · rw [unary_result_ne]; exact h_main_v29; decide
  · rw [unary_result_ne]; exact h_main_v41; decide
  · rw [unary_result, h_main_v39] <;> rfl

/-- Operation 62 writes main_v43 from main_v41, main_v42: the stages still to be read keep their values and main_v43 gets its own. -/
theorem step62 (x0 x1 : (⟨S64x524288x1, .f32⟩ : BufTy).Contents (Elt F)) (P : Valuation τ sig (Elt F) → Prop)
    (rest : List (HloOp τ sig (Elt F))) (V : Valuation τ sig (Elt F))
    (h_main_arg0 : V (Proc.devRef .tc main_arg0) = x0)
    (h_main_arg1 : V (Proc.devRef .tc main_arg1) = x1)
    (h_main_v4 : V (Proc.devRef .tc main_v4) = ReadP.val_main_v4 (F := F) x0 x1)
    (h_main_v29 : V (Proc.devRef .tc main_v29) = ReadP.val_main_v29 (F := F) x1)
    (h_main_v41 : V (Proc.devRef .tc main_v41) = ReadP.val_main_v41 (F := F))
    (h_main_v42 : V (Proc.devRef .tc main_v42) = ReadP.val_main_v42 (F := F) x1)
    (hP : ∀ V' : Valuation τ sig (Elt F), V' (Proc.devRef .tc main_arg0) = x0 →
      V' (Proc.devRef .tc main_arg1) = x1 →
      V' (Proc.devRef .tc main_v4) = ReadP.val_main_v4 (F := F) x0 x1 →
      V' (Proc.devRef .tc main_v29) = ReadP.val_main_v29 (F := F) x1 →
      V' (Proc.devRef .tc main_v43) = ReadP.val_main_v43 (F := F) x1 → P (after rest V')) :
    P (after (op62 (F := F) :: rest) V) := by
  rw [after_cons]
  refine hP _ ?_ ?_ ?_ ?_ ?_
  · rw [binary_result_ne]; exact h_main_arg0; decide
  · rw [binary_result_ne]; exact h_main_arg1; decide
  · rw [binary_result_ne]; exact h_main_v4; decide
  · rw [binary_result_ne]; exact h_main_v29; decide
  · rw [binary_result, h_main_v41, h_main_v42] <;> rfl

/-- Operation 63 writes main_v44 from main_v29, main_v43: the stages still to be read keep their values and main_v44 gets its own. -/
theorem step63 (x0 x1 : (⟨S64x524288x1, .f32⟩ : BufTy).Contents (Elt F)) (P : Valuation τ sig (Elt F) → Prop)
    (rest : List (HloOp τ sig (Elt F))) (V : Valuation τ sig (Elt F))
    (h_main_arg0 : V (Proc.devRef .tc main_arg0) = x0)
    (h_main_arg1 : V (Proc.devRef .tc main_arg1) = x1)
    (h_main_v4 : V (Proc.devRef .tc main_v4) = ReadP.val_main_v4 (F := F) x0 x1)
    (h_main_v29 : V (Proc.devRef .tc main_v29) = ReadP.val_main_v29 (F := F) x1)
    (h_main_v43 : V (Proc.devRef .tc main_v43) = ReadP.val_main_v43 (F := F) x1)
    (hP : ∀ V' : Valuation τ sig (Elt F), V' (Proc.devRef .tc main_arg0) = x0 →
      V' (Proc.devRef .tc main_arg1) = x1 →
      V' (Proc.devRef .tc main_v4) = ReadP.val_main_v4 (F := F) x0 x1 →
      V' (Proc.devRef .tc main_v44) = ReadP.val_main_v44 (F := F) x1 → P (after rest V')) :
    P (after (op63 (F := F) :: rest) V) := by
  rw [after_cons]
  refine hP _ ?_ ?_ ?_ ?_
  · rw [binary_result_ne]; exact h_main_arg0; decide
  · rw [binary_result_ne]; exact h_main_arg1; decide
  · rw [binary_result_ne]; exact h_main_v4; decide
  · rw [binary_result, h_main_v29, h_main_v43] <;> rfl

/-- Operation 64 writes main_v45 from main_v44: the stages still to be read keep their values and main_v45 gets its own. -/
theorem step64 (x0 x1 : (⟨S64x524288x1, .f32⟩ : BufTy).Contents (Elt F)) (P : Valuation τ sig (Elt F) → Prop)
    (rest : List (HloOp τ sig (Elt F))) (V : Valuation τ sig (Elt F))
    (h_main_arg0 : V (Proc.devRef .tc main_arg0) = x0)
    (h_main_arg1 : V (Proc.devRef .tc main_arg1) = x1)
    (h_main_v4 : V (Proc.devRef .tc main_v4) = ReadP.val_main_v4 (F := F) x0 x1)
    (h_main_v44 : V (Proc.devRef .tc main_v44) = ReadP.val_main_v44 (F := F) x1)
    (hP : ∀ V' : Valuation τ sig (Elt F), V' (Proc.devRef .tc main_arg0) = x0 →
      V' (Proc.devRef .tc main_arg1) = x1 →
      V' (Proc.devRef .tc main_v4) = ReadP.val_main_v4 (F := F) x0 x1 →
      V' (Proc.devRef .tc main_v45) = ReadP.val_main_v45 (F := F) x1 → P (after rest V')) :
    P (after (op64 (F := F) :: rest) V) := by
  rw [after_cons]
  refine hP _ ?_ ?_ ?_ ?_
  · rw [unary_result_ne]; exact h_main_arg0; decide
  · rw [unary_result_ne]; exact h_main_arg1; decide
  · rw [unary_result_ne]; exact h_main_v4; decide
  · rw [unary_result, h_main_v44] <;> rfl

/-- Operation 65 writes main_v46 from main_v4, main_v45: the stages still to be read keep their values and main_v46 gets its own. -/
theorem step65 (x0 x1 : (⟨S64x524288x1, .f32⟩ : BufTy).Contents (Elt F)) (P : Valuation τ sig (Elt F) → Prop)
    (rest : List (HloOp τ sig (Elt F))) (V : Valuation τ sig (Elt F))
    (h_main_arg0 : V (Proc.devRef .tc main_arg0) = x0)
    (h_main_arg1 : V (Proc.devRef .tc main_arg1) = x1)
    (h_main_v4 : V (Proc.devRef .tc main_v4) = ReadP.val_main_v4 (F := F) x0 x1)
    (h_main_v45 : V (Proc.devRef .tc main_v45) = ReadP.val_main_v45 (F := F) x1)
    (hP : ∀ V' : Valuation τ sig (Elt F), V' (Proc.devRef .tc main_arg0) = x0 →
      V' (Proc.devRef .tc main_arg1) = x1 →
      V' (Proc.devRef .tc main_v45) = ReadP.val_main_v45 (F := F) x1 →
      V' (Proc.devRef .tc main_v46) = ReadP.val_main_v46 (F := F) x0 x1 → P (after rest V')) :
    P (after (op65 (F := F) :: rest) V) := by
  rw [after_cons]
  refine hP _ ?_ ?_ ?_ ?_
  · rw [binary_result_ne]; exact h_main_arg0; decide
  · rw [binary_result_ne]; exact h_main_arg1; decide
  · rw [binary_result_ne]; exact h_main_v45; decide
  · rw [binary_result, h_main_v4, h_main_v45] <;> rfl

/-- Operation 66 writes main_cst_12: the stages still to be read keep their values and main_cst_12 gets its own. -/
theorem step66 (x0 x1 : (⟨S64x524288x1, .f32⟩ : BufTy).Contents (Elt F)) (P : Valuation τ sig (Elt F) → Prop)
    (rest : List (HloOp τ sig (Elt F))) (V : Valuation τ sig (Elt F))
    (h_main_arg0 : V (Proc.devRef .tc main_arg0) = x0)
    (h_main_arg1 : V (Proc.devRef .tc main_arg1) = x1)
    (h_main_v45 : V (Proc.devRef .tc main_v45) = ReadP.val_main_v45 (F := F) x1)
    (h_main_v46 : V (Proc.devRef .tc main_v46) = ReadP.val_main_v46 (F := F) x0 x1)
    (hP : ∀ V' : Valuation τ sig (Elt F), V' (Proc.devRef .tc main_arg0) = x0 →
      V' (Proc.devRef .tc main_arg1) = x1 →
      V' (Proc.devRef .tc main_v45) = ReadP.val_main_v45 (F := F) x1 →
      V' (Proc.devRef .tc main_v46) = ReadP.val_main_v46 (F := F) x0 x1 →
      V' (Proc.devRef .tc main_cst_12) = ReadP.val_main_cst_12 (F := F) → P (after rest V')) :
    P (after (op66 (F := F) :: rest) V) := by
  rw [after_cons]
  refine hP _ ?_ ?_ ?_ ?_ ?_
  · rw [nullary_result_ne]; exact h_main_arg0; decide
  · rw [nullary_result_ne]; exact h_main_arg1; decide
  · rw [nullary_result_ne]; exact h_main_v45; decide
  · rw [nullary_result_ne]; exact h_main_v46; decide
  · rw [nullary_result] <;> rfl

/-- Operation 67 writes main_v47 from main_v46, main_cst_12: the stages still to be read keep their values and main_v47 gets its own. -/
theorem step67 (x0 x1 : (⟨S64x524288x1, .f32⟩ : BufTy).Contents (Elt F)) (P : Valuation τ sig (Elt F) → Prop)
    (rest : List (HloOp τ sig (Elt F))) (V : Valuation τ sig (Elt F))
    (h_main_arg0 : V (Proc.devRef .tc main_arg0) = x0)
    (h_main_arg1 : V (Proc.devRef .tc main_arg1) = x1)
    (h_main_v45 : V (Proc.devRef .tc main_v45) = ReadP.val_main_v45 (F := F) x1)
    (h_main_v46 : V (Proc.devRef .tc main_v46) = ReadP.val_main_v46 (F := F) x0 x1)
    (h_main_cst_12 : V (Proc.devRef .tc main_cst_12) = ReadP.val_main_cst_12 (F := F))
    (hP : ∀ V' : Valuation τ sig (Elt F), V' (Proc.devRef .tc main_arg0) = x0 →
      V' (Proc.devRef .tc main_arg1) = x1 →
      V' (Proc.devRef .tc main_v45) = ReadP.val_main_v45 (F := F) x1 →
      V' (Proc.devRef .tc main_v47) = ReadP.val_main_v47 (F := F) x0 x1 → P (after rest V')) :
    P (after (op67 (F := F) :: rest) V) := by
  rw [after_cons]
  refine hP _ ?_ ?_ ?_ ?_
  · rw [binary_result_ne]; exact h_main_arg0; decide
  · rw [binary_result_ne]; exact h_main_arg1; decide
  · rw [binary_result_ne]; exact h_main_v45; decide
  · rw [binary_result, h_main_v46, h_main_cst_12] <;> rfl

/-- Operation 68 writes main_cst_13: the stages still to be read keep their values and main_cst_13 gets its own. -/
theorem step68 (x0 x1 : (⟨S64x524288x1, .f32⟩ : BufTy).Contents (Elt F)) (P : Valuation τ sig (Elt F) → Prop)
    (rest : List (HloOp τ sig (Elt F))) (V : Valuation τ sig (Elt F))
    (h_main_arg0 : V (Proc.devRef .tc main_arg0) = x0)
    (h_main_arg1 : V (Proc.devRef .tc main_arg1) = x1)
    (h_main_v45 : V (Proc.devRef .tc main_v45) = ReadP.val_main_v45 (F := F) x1)
    (h_main_v47 : V (Proc.devRef .tc main_v47) = ReadP.val_main_v47 (F := F) x0 x1)
    (hP : ∀ V' : Valuation τ sig (Elt F), V' (Proc.devRef .tc main_arg0) = x0 →
      V' (Proc.devRef .tc main_arg1) = x1 →
      V' (Proc.devRef .tc main_v45) = ReadP.val_main_v45 (F := F) x1 →
      V' (Proc.devRef .tc main_v47) = ReadP.val_main_v47 (F := F) x0 x1 →
      V' (Proc.devRef .tc main_cst_13) = ReadP.val_main_cst_13 (F := F) → P (after rest V')) :
    P (after (op68 (F := F) :: rest) V) := by
  rw [after_cons]
  refine hP _ ?_ ?_ ?_ ?_ ?_
  · rw [nullary_result_ne]; exact h_main_arg0; decide
  · rw [nullary_result_ne]; exact h_main_arg1; decide
  · rw [nullary_result_ne]; exact h_main_v45; decide
  · rw [nullary_result_ne]; exact h_main_v47; decide
  · rw [nullary_result] <;> rfl

/-- Operation 69 writes main_v48 from main_v45, main_cst_13: the stages still to be read keep their values and main_v48 gets its own. -/
theorem step69 (x0 x1 : (⟨S64x524288x1, .f32⟩ : BufTy).Contents (Elt F)) (P : Valuation τ sig (Elt F) → Prop)
    (rest : List (HloOp τ sig (Elt F))) (V : Valuation τ sig (Elt F))
    (h_main_arg0 : V (Proc.devRef .tc main_arg0) = x0)
    (h_main_arg1 : V (Proc.devRef .tc main_arg1) = x1)
    (h_main_v45 : V (Proc.devRef .tc main_v45) = ReadP.val_main_v45 (F := F) x1)
    (h_main_v47 : V (Proc.devRef .tc main_v47) = ReadP.val_main_v47 (F := F) x0 x1)
    (h_main_cst_13 : V (Proc.devRef .tc main_cst_13) = ReadP.val_main_cst_13 (F := F))
    (hP : ∀ V' : Valuation τ sig (Elt F), V' (Proc.devRef .tc main_arg0) = x0 →
      V' (Proc.devRef .tc main_arg1) = x1 →
      V' (Proc.devRef .tc main_v47) = ReadP.val_main_v47 (F := F) x0 x1 →
      V' (Proc.devRef .tc main_v48) = ReadP.val_main_v48 (F := F) x1 → P (after rest V')) :
    P (after (op69 (F := F) :: rest) V) := by
  rw [after_cons]
  refine hP _ ?_ ?_ ?_ ?_
  · rw [binary_result_ne]; exact h_main_arg0; decide
  · rw [binary_result_ne]; exact h_main_arg1; decide
  · rw [binary_result_ne]; exact h_main_v47; decide
  · rw [binary_result, h_main_v45, h_main_cst_13] <;> rfl

/-- Operation 70 writes main_v49 from main_v47, main_v48: the stages still to be read keep their values and main_v49 gets its own. -/
theorem step70 (x0 x1 : (⟨S64x524288x1, .f32⟩ : BufTy).Contents (Elt F)) (P : Valuation τ sig (Elt F) → Prop)
    (rest : List (HloOp τ sig (Elt F))) (V : Valuation τ sig (Elt F))
    (h_main_arg0 : V (Proc.devRef .tc main_arg0) = x0)
    (h_main_arg1 : V (Proc.devRef .tc main_arg1) = x1)
    (h_main_v47 : V (Proc.devRef .tc main_v47) = ReadP.val_main_v47 (F := F) x0 x1)
    (h_main_v48 : V (Proc.devRef .tc main_v48) = ReadP.val_main_v48 (F := F) x1)
    (hP : ∀ V' : Valuation τ sig (Elt F), V' (Proc.devRef .tc main_arg0) = x0 →
      V' (Proc.devRef .tc main_arg1) = x1 →
      V' (Proc.devRef .tc main_v49) = ReadP.val_main_v49 (F := F) x0 x1 → P (after rest V')) :
    P (after (op70 (F := F) :: rest) V) := by
  rw [after_cons]
  refine hP _ ?_ ?_ ?_
  · rw [binary_result_ne]; exact h_main_arg0; decide
  · rw [binary_result_ne]; exact h_main_arg1; decide
  · rw [binary_result, h_main_v47, h_main_v48] <;> rfl

/-- Operation 71 writes main_v50 from main_v49: the stages still to be read keep their values and main_v50 gets its own. -/
theorem step71 (x0 x1 : (⟨S64x524288x1, .f32⟩ : BufTy).Contents (Elt F)) (P : Valuation τ sig (Elt F) → Prop)
    (rest : List (HloOp τ sig (Elt F))) (V : Valuation τ sig (Elt F))
    (h_main_arg0 : V (Proc.devRef .tc main_arg0) = x0)
    (h_main_arg1 : V (Proc.devRef .tc main_arg1) = x1)
    (h_main_v49 : V (Proc.devRef .tc main_v49) = ReadP.val_main_v49 (F := F) x0 x1)
    (hP : ∀ V' : Valuation τ sig (Elt F), V' (Proc.devRef .tc main_arg0) = x0 →
      V' (Proc.devRef .tc main_arg1) = x1 →
      V' (Proc.devRef .tc main_v50) = ReadP.val_main_v50 (F := F) x0 x1 → P (after rest V')) :
    P (after (op71 (F := F) :: rest) V) := by
  rw [after_cons]
  refine hP _ ?_ ?_ ?_
  · rw [unary_result_ne]; exact h_main_arg0; decide
  · rw [unary_result_ne]; exact h_main_arg1; decide
  · rw [unary_result, h_main_v49] <;> rfl

/-! ## The chain -/

/-- What the walk ends with: the result at its stage, the two arguments as they were. -/
def Post (x0 x1 : (⟨S64x524288x1, .f32⟩ : BufTy).Contents (Elt F)) (W : Valuation τ sig (Elt F)) : Prop :=
  W (Proc.devRef .tc main_v50) = ReadP.val_main_v50 (F := F) x0 x1 ∧ W (Proc.devRef .tc main_arg0) = x0 ∧ W (Proc.devRef .tc main_arg1) = x1

set_option maxRecDepth 16384 in
/-- From any valuation, after the 72 operations the result reference holds the last stage of the valuation's two
    arguments, and the arguments are unchanged. -/
theorem after_ops (x0 x1 : (⟨S64x524288x1, .f32⟩ : BufTy).Contents (Elt F)) (V : Valuation τ sig (Elt F))
    (h_main_arg0 : V (Proc.devRef .tc main_arg0) = x0) (h_main_arg1 : V (Proc.devRef .tc main_arg1) = x1) :
    Post x0 x1 (after (ops (F := F)) V) :=
  step0 x0 x1 (Post x0 x1) _ V h_main_arg0 h_main_arg1 fun V h_main_arg0 h_main_arg1 h_main_v0 =>
  step1 x0 x1 (Post x0 x1) _ V h_main_arg0 h_main_arg1 h_main_v0 fun V h_main_arg0 h_main_arg1 h_main_v0 h_main_cst =>
  step2 x0 x1 (Post x0 x1) _ V h_main_arg0 h_main_arg1 h_main_v0 h_main_cst fun V h_main_arg0 h_main_arg1 h_main_v0 h_main_v1 =>
  step3 x0 x1 (Post x0 x1) _ V h_main_arg0 h_main_arg1 h_main_v0 h_main_v1 fun V h_main_arg0 h_main_arg1 h_main_v2 =>
  step4 x0 x1 (Post x0 x1) _ V h_main_arg0 h_main_arg1 h_main_v2 fun V h_main_arg0 h_main_arg1 h_main_v2 h_main_v3 =>
  step5 x0 x1 (Post x0 x1) _ V h_main_arg0 h_main_arg1 h_main_v2 h_main_v3 fun V h_main_arg0 h_main_arg1 h_main_v2 h_main_v4 =>
  step6 x0 x1 (Post x0 x1) _ V h_main_arg0 h_main_arg1 h_main_v2 h_main_v4 fun V h_main_arg0 h_main_arg1 h_main_v4 h_main_v5 =>
  step7 x0 x1 (Post x0 x1) _ V h_main_arg0 h_main_arg1 h_main_v4 h_main_v5 fun V h_main_arg0 h_main_arg1 h_main_v4 h_main_v6 =>
  step8 x0 x1 (Post x0 x1) _ V h_main_arg0 h_main_arg1 h_main_v4 h_main_v6 fun V h_main_arg0 h_main_arg1 h_main_v4 h_main_v7 =>
  step9 x0 x1 (Post x0 x1) _ V h_main_arg0 h_main_arg1 h_main_v4 h_main_v7 fun V h_main_arg0 h_main_arg1 h_main_v4 h_main_v7 h_main_c =>
  step10 x0 x1 (Post x0 x1) _ V h_main_arg0 h_main_arg1 h_main_v4 h_main_v7 h_main_c fun V h_main_arg0 h_main_arg1 h_main_v4 h_main_v7 h_main_c h_main_c_0 =>
  step11 x0 x1 (Post x0 x1) _ V h_main_arg0 h_main_arg1 h_main_v4 h_main_v7 h_main_c h_main_c_0 fun V h_main_arg0 h_main_arg1 h_main_v4 h_main_v7 h_main_c_0 h_main_call0_v0 =>
  step12 x0 x1 (Post x0 x1) _ V h_main_arg0 h_main_arg1 h_main_v4 h_main_v7 h_main_c_0 h_main_call0_v0 fun V h_main_arg0 h_main_arg1 h_main_v4 h_main_v7 h_main_c_0 h_main_call0_v1 =>
  step13 x0 x1 (Post x0 x1) _ V h_main_arg0 h_main_arg1 h_main_v4 h_main_v7 h_main_c_0 h_main_call0_v1 fun V h_main_arg0 h_main_arg1 h_main_v4 h_main_c_0 h_main_call0_v2 =>
  step14 x0 x1 (Post x0 x1) _ V h_main_arg0 h_main_arg1 h_main_v4 h_main_c_0 h_main_call0_v2 fun V h_main_arg0 h_main_arg1 h_main_v4 h_main_call0_v2 h_main_call0_v3 =>
  step15 x0 x1 (Post x0 x1) _ V h_main_arg0 h_main_arg1 h_main_v4 h_main_call0_v2 h_main_call0_v3 fun V h_main_arg0 h_main_arg1 h_main_v4 h_main_call0_v2 h_main_call0_v4 =>
  step16 x0 x1 (Post x0 x1) _ V h_main_arg0 h_main_arg1 h_main_v4 h_main_call0_v2 h_main_call0_v4 fun V h_main_arg0 h_main_arg1 h_main_v4 h_main_v8 =>
  step17 x0 x1 (Post x0 x1) _ V h_main_arg0 h_main_arg1 h_main_v4 h_main_v8 fun V h_main_arg0 h_main_arg1 h_main_v4 h_main_v8 h_main_v9 =>
  step18 x0 x1 (Post x0 x1) _ V h_main_arg0 h_main_arg1 h_main_v4 h_main_v8 h_main_v9 fun V h_main_arg0 h_main_arg1 h_main_v4 h_main_v8 h_main_v10 =>
  step19 x0 x1 (Post x0 x1) _ V h_main_arg0 h_main_arg1 h_main_v4 h_main_v8 h_main_v10 fun V h_main_arg0 h_main_arg1 h_main_v4 h_main_v8 h_main_v10 h_main_cst_1 =>
  step20 x0 x1 (Post x0 x1) _ V h_main_arg0 h_main_arg1 h_main_v4 h_main_v8 h_main_v10 h_main_cst_1 fun V h_main_arg0 h_main_arg1 h_main_v4 h_main_v8 h_main_v10 h_main_v11 =>
  step21 x0 x1 (Post x0 x1) _ V h_main_arg0 h_main_arg1 h_main_v4 h_main_v8 h_main_v10 h_main_v11 fun V h_main_arg0 h_main_arg1 h_main_v4 h_main_v8 h_main_v10 h_main_v11 h_main_c_2 =>
  step22 x0 x1 (Post x0 x1) _ V h_main_arg0 h_main_arg1 h_main_v4 h_main_v8 h_main_v10 h_main_v11 h_main_c_2 fun V h_main_arg0 h_main_arg1 h_main_v4 h_main_v8 h_main_v10 h_main_v11 h_main_v12 =>
  step23 x0 x1 (Post x0 x1) _ V h_main_arg0 h_main_arg1 h_main_v4 h_main_v8 h_main_v10 h_main_v11 h_main_v12 fun V h_main_arg0 h_main_arg1 h_main_v4 h_main_v8 h_main_v10 h_main_v11 h_main_v13 =>
  step24 x0 x1 (Post x0 x1) _ V h_main_arg0 h_main_arg1 h_main_v4 h_main_v8 h_main_v10 h_main_v11 h_main_v13 fun V h_main_arg0 h_main_arg1 h_main_v4 h_main_v8 h_main_v10 h_main_v11 h_main_v13 h_main_c_3 =>
  step25 x0 x1 (Post x0 x1) _ V h_main_arg0 h_main_arg1 h_main_v4 h_main_v8 h_main_v10 h_main_v11 h_main_v13 h_main_c_3 fun V h_main_arg0 h_main_arg1 h_main_v4 h_main_v8 h_main_v10 h_main_v11 h_main_v13 h_main_v14 =>
  step26 x0 x1 (Post x0 x1) _ V h_main_arg0 h_main_arg1 h_main_v4 h_main_v8 h_main_v10 h_main_v11 h_main_v13 h_main_v14 fun V h_main_arg0 h_main_arg1 h_main_v4 h_main_v8 h_main_v10 h_main_v11 h_main_v13 h_main_v15 =>
  step27 x0 x1 (Post x0 x1) _ V h_main_arg0 h_main_arg1 h_main_v4 h_main_v8 h_main_v10 h_main_v11 h_main_v13 h_main_v15 fun V h_main_arg0 h_main_arg1 h_main_v4 h_main_v8 h_main_v10 h_main_v11 h_main_v16 =>
  step28 x0 x1 (Post x0 x1) _ V h_main_arg0 h_main_arg1 h_main_v4 h_main_v8 h_main_v10 h_main_v11 h_main_v16 fun V h_main_arg0 h_main_arg1 h_main_v4 h_main_v8 h_main_v10 h_main_v11 h_main_v16 h_main_c_4 =>
  step29 x0 x1 (Post x0 x1) _ V h_main_arg0 h_main_arg1 h_main_v4 h_main_v8 h_main_v10 h_main_v11 h_main_v16 h_main_c_4 fun V h_main_arg0 h_main_arg1 h_main_v4 h_main_v8 h_main_v10 h_main_v11 h_main_v16 h_main_v17 =>
  step30 x0 x1 (Post x0 x1) _ V h_main_arg0 h_main_arg1 h_main_v4 h_main_v8 h_main_v10 h_main_v11 h_main_v16 h_main_v17 fun V h_main_arg0 h_main_arg1 h_main_v4 h_main_v8 h_main_v10 h_main_v11 h_main_v16 h_main_v18 =>
  step31 x0 x1 (Post x0 x1) _ V h_main_arg0 h_main_arg1 h_main_v4 h_main_v8 h_main_v10 h_main_v11 h_main_v16 h_main_v18 fun V h_main_arg0 h_main_arg1 h_main_v4 h_main_v8 h_main_v10 h_main_v11 h_main_v16 h_main_v18 h_main_c_5 =>
  step32 x0 x1 (Post x0 x1) _ V h_main_arg0 h_main_arg1 h_main_v4 h_main_v8 h_main_v10 h_main_v11 h_main_v16 h_main_v18 h_main_c_5 fun V h_main_arg0 h_main_arg1 h_main_v4 h_main_v8 h_main_v10 h_main_v11 h_main_v16 h_main_v18 h_main_v19 =>
  step33 x0 x1 (Post x0 x1) _ V h_main_arg0 h_main_arg1 h_main_v4 h_main_v8 h_main_v10 h_main_v11 h_main_v16 h_main_v18 h_main_v19 fun V h_main_arg0 h_main_arg1 h_main_v4 h_main_v8 h_main_v10 h_main_v11 h_main_v16 h_main_v18 h_main_v20 =>
  step34 x0 x1 (Post x0 x1) _ V h_main_arg0 h_main_arg1 h_main_v4 h_main_v8 h_main_v10 h_main_v11 h_main_v16 h_main_v18 h_main_v20 fun V h_main_arg0 h_main_arg1 h_main_v4 h_main_v8 h_main_v10 h_main_v11 h_main_v16 h_main_v21 =>
  step35 x0 x1 (Post x0 x1) _ V h_main_arg0 h_main_arg1 h_main_v4 h_main_v8 h_main_v10 h_main_v11 h_main_v16 h_main_v21 fun V h_main_arg0 h_main_arg1 h_main_v4 h_main_v8 h_main_v10 h_main_v11 h_main_v21 h_main_v22 =>
  step36 x0 x1 (Post x0 x1) _ V h_main_arg0 h_main_arg1 h_main_v4 h_main_v8 h_main_v10 h_main_v11 h_main_v21 h_main_v22 fun V h_main_arg0 h_main_arg1 h_main_v4 h_main_v8 h_main_v10 h_main_v11 h_main_v21 h_main_v23 =>
  step37 x0 x1 (Post x0 x1) _ V h_main_arg0 h_main_arg1 h_main_v4 h_main_v8 h_main_v10 h_main_v11 h_main_v21 h_main_v23 fun V h_main_arg0 h_main_arg1 h_main_v4 h_main_v8 h_main_v10 h_main_v11 h_main_v23 h_main_v24 =>
  step38 x0 x1 (Post x0 x1) _ V h_main_arg0 h_main_arg1 h_main_v4 h_main_v8 h_main_v10 h_main_v11 h_main_v23 h_main_v24 fun V h_main_arg0 h_main_arg1 h_main_v4 h_main_v8 h_main_v10 h_main_v11 h_main_v25 =>
  step39 x0 x1 (Post x0 x1) _ V h_main_arg0 h_main_arg1 h_main_v4 h_main_v8 h_main_v10 h_main_v11 h_main_v25 fun V h_main_arg0 h_main_arg1 h_main_v4 h_main_v8 h_main_v10 h_main_v11 h_main_v25 h_main_cst_6 =>
  step40 x0 x1 (Post x0 x1) _ V h_main_arg0 h_main_arg1 h_main_v4 h_main_v8 h_main_v10 h_main_v11 h_main_v25 h_main_cst_6 fun V h_main_arg0 h_main_arg1 h_main_v4 h_main_v8 h_main_v10 h_main_v11 h_main_v25 h_main_v26 =>
  step41 x0 x1 (Post x0 x1) _ V h_main_arg0 h_main_arg1 h_main_v4 h_main_v8 h_main_v10 h_main_v11 h_main_v25 h_main_v26 fun V h_main_arg0 h_main_arg1 h_main_v4 h_main_v8 h_main_v10 h_main_v27 =>
  step42 x0 x1 (Post x0 x1) _ V h_main_arg0 h_main_arg1 h_main_v4 h_main_v8 h_main_v10 h_main_v27 fun V h_main_arg0 h_main_arg1 h_main_v4 h_main_v8 h_main_v10 h_main_v27 h_main_cst_7 =>
  step43 x0 x1 (Post x0 x1) _ V h_main_arg0 h_main_arg1 h_main_v4 h_main_v8 h_main_v10 h_main_v27 h_main_cst_7 fun V h_main_arg0 h_main_arg1 h_main_v4 h_main_v8 h_main_v10 h_main_v27 h_main_v28 =>
  step44 x0 x1 (Post x0 x1) _ V h_main_arg0 h_main_arg1 h_main_v4 h_main_v8 h_main_v10 h_main_v27 h_main_v28 fun V h_main_arg0 h_main_arg1 h_main_v4 h_main_v8 h_main_v10 h_main_v29 =>
  step45 x0 x1 (Post x0 x1) _ V h_main_arg0 h_main_arg1 h_main_v4 h_main_v8 h_main_v10 h_main_v29 fun V h_main_arg0 h_main_arg1 h_main_v4 h_main_v8 h_main_v10 h_main_v29 h_main_c_8 =>
  step46 x0 x1 (Post x0 x1) _ V h_main_arg0 h_main_arg1 h_main_v4 h_main_v8 h_main_v10 h_main_v29 h_main_c_8 fun V h_main_arg0 h_main_arg1 h_main_v4 h_main_v8 h_main_v10 h_main_v29 h_main_v30 =>
  step47 x0 x1 (Post x0 x1) _ V h_main_arg0 h_main_arg1 h_main_v4 h_main_v8 h_main_v10 h_main_v29 h_main_v30 fun V h_main_arg0 h_main_arg1 h_main_v4 h_main_v8 h_main_v10 h_main_v29 h_main_v31 =>
  step48 x0 x1 (Post x0 x1) _ V h_main_arg0 h_main_arg1 h_main_v4 h_main_v8 h_main_v10 h_main_v29 h_main_v31 fun V h_main_arg0 h_main_arg1 h_main_v4 h_main_v8 h_main_v10 h_main_v29 h_main_v31 h_main_c_9 =>
  step49 x0 x1 (Post x0 x1) _ V h_main_arg0 h_main_arg1 h_main_v4 h_main_v8 h_main_v10 h_main_v29 h_main_v31 h_main_c_9 fun V h_main_arg0 h_main_arg1 h_main_v4 h_main_v8 h_main_v10 h_main_v29 h_main_v31 h_main_v32 =>
  step50 x0 x1 (Post x0 x1) _ V h_main_arg0 h_main_arg1 h_main_v4 h_main_v8 h_main_v10 h_main_v29 h_main_v31 h_main_v32 fun V h_main_arg0 h_main_arg1 h_main_v4 h_main_v8 h_main_v10 h_main_v29 h_main_v31 h_main_v33 =>
  step51 x0 x1 (Post x0 x1) _ V h_main_arg0 h_main_arg1 h_main_v4 h_main_v8 h_main_v10 h_main_v29 h_main_v31 h_main_v33 fun V h_main_arg0 h_main_arg1 h_main_v4 h_main_v8 h_main_v29 h_main_v34 =>
  step52 x0 x1 (Post x0 x1) _ V h_main_arg0 h_main_arg1 h_main_v4 h_main_v8 h_main_v29 h_main_v34 fun V h_main_arg0 h_main_arg1 h_main_v4 h_main_v8 h_main_v29 h_main_v34 h_main_c_10 =>
  step53 x0 x1 (Post x0 x1) _ V h_main_arg0 h_main_arg1 h_main_v4 h_main_v8 h_main_v29 h_main_v34 h_main_c_10 fun V h_main_arg0 h_main_arg1 h_main_v4 h_main_v8 h_main_v29 h_main_v34 h_main_v35 =>
  step54 x0 x1 (Post x0 x1) _ V h_main_arg0 h_main_arg1 h_main_v4 h_main_v8 h_main_v29 h_main_v34 h_main_v35 fun V h_main_arg0 h_main_arg1 h_main_v4 h_main_v8 h_main_v29 h_main_v34 h_main_v36 =>
  step55 x0 x1 (Post x0 x1) _ V h_main_arg0 h_main_arg1 h_main_v4 h_main_v8 h_main_v29 h_main_v34 h_main_v36 fun V h_main_arg0 h_main_arg1 h_main_v4 h_main_v8 h_main_v29 h_main_v34 h_main_v36 h_main_c_11 =>
  step56 x0 x1 (Post x0 x1) _ V h_main_arg0 h_main_arg1 h_main_v4 h_main_v8 h_main_v29 h_main_v34 h_main_v36 h_main_c_11 fun V h_main_arg0 h_main_arg1 h_main_v4 h_main_v8 h_main_v29 h_main_v34 h_main_v36 h_main_v37 =>
  step57 x0 x1 (Post x0 x1) _ V h_main_arg0 h_main_arg1 h_main_v4 h_main_v8 h_main_v29 h_main_v34 h_main_v36 h_main_v37 fun V h_main_arg0 h_main_arg1 h_main_v4 h_main_v8 h_main_v29 h_main_v34 h_main_v36 h_main_v38 =>
  step58 x0 x1 (Post x0 x1) _ V h_main_arg0 h_main_arg1 h_main_v4 h_main_v8 h_main_v29 h_main_v34 h_main_v36 h_main_v38 fun V h_main_arg0 h_main_arg1 h_main_v4 h_main_v29 h_main_v34 h_main_v39 =>
  step59 x0 x1 (Post x0 x1) _ V h_main_arg0 h_main_arg1 h_main_v4 h_main_v29 h_main_v34 h_main_v39 fun V h_main_arg0 h_main_arg1 h_main_v4 h_main_v29 h_main_v39 h_main_v40 =>
  step60 x0 x1 (Post x0 x1) _ V h_main_arg0 h_main_arg1 h_main_v4 h_main_v29 h_main_v39 h_main_v40 fun V h_main_arg0 h_main_arg1 h_main_v4 h_main_v29 h_main_v39 h_main_v41 =>
  step61 x0 x1 (Post x0 x1) _ V h_main_arg0 h_main_arg1 h_main_v4 h_main_v29 h_main_v39 h_main_v41 fun V h_main_arg0 h_main_arg1 h_main_v4 h_main_v29 h_main_v41 h_main_v42 =>
  step62 x0 x1 (Post x0 x1) _ V h_main_arg0 h_main_arg1 h_main_v4 h_main_v29 h_main_v41 h_main_v42 fun V h_main_arg0 h_main_arg1 h_main_v4 h_main_v29 h_main_v43 =>
  step63 x0 x1 (Post x0 x1) _ V h_main_arg0 h_main_arg1 h_main_v4 h_main_v29 h_main_v43 fun V h_main_arg0 h_main_arg1 h_main_v4 h_main_v44 =>
  step64 x0 x1 (Post x0 x1) _ V h_main_arg0 h_main_arg1 h_main_v4 h_main_v44 fun V h_main_arg0 h_main_arg1 h_main_v4 h_main_v45 =>
  step65 x0 x1 (Post x0 x1) _ V h_main_arg0 h_main_arg1 h_main_v4 h_main_v45 fun V h_main_arg0 h_main_arg1 h_main_v45 h_main_v46 =>
  step66 x0 x1 (Post x0 x1) _ V h_main_arg0 h_main_arg1 h_main_v45 h_main_v46 fun V h_main_arg0 h_main_arg1 h_main_v45 h_main_v46 h_main_cst_12 =>
  step67 x0 x1 (Post x0 x1) _ V h_main_arg0 h_main_arg1 h_main_v45 h_main_v46 h_main_cst_12 fun V h_main_arg0 h_main_arg1 h_main_v45 h_main_v47 =>
  step68 x0 x1 (Post x0 x1) _ V h_main_arg0 h_main_arg1 h_main_v45 h_main_v47 fun V h_main_arg0 h_main_arg1 h_main_v45 h_main_v47 h_main_cst_13 =>
  step69 x0 x1 (Post x0 x1) _ V h_main_arg0 h_main_arg1 h_main_v45 h_main_v47 h_main_cst_13 fun V h_main_arg0 h_main_arg1 h_main_v47 h_main_v48 =>
  step70 x0 x1 (Post x0 x1) _ V h_main_arg0 h_main_arg1 h_main_v47 h_main_v48 fun V h_main_arg0 h_main_arg1 h_main_v49 =>
  step71 x0 x1 (Post x0 x1) _ V h_main_arg0 h_main_arg1 h_main_v49 fun V h_main_arg0 h_main_arg1 h_main_v50 =>
  ⟨h_main_v50, h_main_arg0, h_main_arg1⟩

end Cert.ReferenceIdeal.FastRun

end
-- ==== Proof.RefRunFast.lean ====
/-
  The reference program's run, read back with every intermediate result shared.

  @main is a straight line of 72 host operations on the TensorCore.  Every weakly fair execution of it terminates with
  each buffer at the fold of the operations' results over the launch contents.  Walking that fold once from the front
  (after_ops: after k operations each reference still to be read holds its stage, a function of the two arguments) gives
  the result buffer as the last stage, val_main_v50, of the two argument buffers' launch contents, and the two argument
  buffers unchanged: no operation writes them.
-/
import proofs.«148309_j60421599920187_2_alg».proof.Proof.RefRunSteps

noncomputable section

namespace Cert.ReferenceIdeal.FastRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- @main is the straight line of its operations. -/
theorem main_eq (c : Dev nD) : main (F := F) c = seq ops := rfl
/-- The signature scopes no buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide
set_option maxRecDepth 8192 in
/-- Every operation touches TensorCore buffers only. -/
theorem ops_sub : (ops : List (HloOp τ sig (Elt F))).Forall fun op => op.bufs ⊆ tcRefs τ sig :=
  ⟨unary_bufs_sub .., nullary_bufs_sub .., unary_bufs_sub .., binary_bufs_sub .., binary_bufs_sub .., binary_bufs_sub .., reshape_bufs_sub .., unary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., nullary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub .., unary_bufs_sub .., binary_bufs_sub .., nullary_bufs_sub .., binary_bufs_sub .., nullary_bufs_sub .., binary_bufs_sub .., binary_bufs_sub .., unary_bufs_sub ..⟩

/-- On every device, for any float values, from any memory with zero counters: every weakly fair execution of @main
    terminates with the result buffer at the last stage of the two arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v50)
          = ReadP.val_main_v50 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      have H := after_ops (F := F) (m ((c.tc : Thread nD τ).loc main_arg0)) (m ((c.tc : Thread nD τ).loc main_arg1))
        (launchContents m c) rfl rfl
      ⟨(h c main_v50).trans H.1, (h c main_arg0).trans H.2.1, (h c main_arg1).trans H.2.2⟩)
    (run_seq scopedRefs_eq scopedSems_eq defs main (fun _ => ops) main_eq (fun _ => ops_sub) m ρ)

end Cert.ReferenceIdeal.FastRun

end
-- ==== Proof.KBody.lean ====
/-
  The histogram kernel's body on any staging memrefs, at any float instance.

  A grid point is (row tile, column tile).  At the first column tile of a row tile the body zeroes both
  accumulator blocks (counts, loss sums) before it adds this tile's partial sums; at every later column tile it adds to
  what the point before left there.  The two cases are run separately: each leaves the two input blocks as they were
  and the two accumulator blocks at a list of stored pieces, found by running the body.
-/
import proofs.«148309_j60421599920187_2_alg».proof.Proof.Gen.Kernel.Frame
import proofs.«148309_j60421599920187_2_alg».proof.Proof.Gen.Kernel.Skeleton
import proofs.«148309_j60421599920187_2_alg».proof.Proof.Gen.Kernel.Loops
import proofs.«148309_j60421599920187_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hist

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "This is the first column tile": the body's one branch condition, from the grid coordinates. -/
abbrev firstCol (i : grid0.Coords) : Prop :=
  (Scalar.cmpi .ne (Scalar.extui (Scalar.cmpi .eq (BitVec.ofNat 32 (i 1).val) 0#32)) 0#32) = 1#1

/-- Point t = 64 * (row tile) + (column tile): the condition holds exactly where t is a multiple of 64. -/
theorem firstCol_iff : ∀ t : Fin cfg0.N, firstCol (grid0.coords t) ↔ t.val % 64 = 0 :=
  (by decide +kernel : ∀ t : Fin grid0.N, firstCol (grid0.coords t) ↔ t.val % 64 = 0)

/-- One staging buffer of each accumulator window, through which its contents are stated. -/
abbrev VO2 : View sig .tc .vmem S32x128 .f32 := (Memref.whole cc0_stg2_0 : Memref sig .tc .vmem S32x128 .f32).view
abbrev VO3 : View sig .tc .vmem S32x128 .f32 := (Memref.whole cc0_stg3_0 : Memref sig .tc .vmem S32x128 .f32).view

/-- Each window's current staging memref at point t, as the pipeline passes it to the body. -/
abbrev ms0 (t : Fin cfg0.N) : Memref sig .tc .vmem S32x8192 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S32x8192 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S32x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S32x128 .f32 := win0_3.stage (cfg0.slots t 3)
abbrev hs3 (t : Fin cfg0.N) : (ms3 t).IsWhole := hstage0_3 ((cfg0.slots t 3).cast nbuf0_3)

set_option maxHeartbeats 4000000 in
/-- THE FIRST COLUMN TILE.  The input blocks at x0, x1, the accumulator blocks at anything: the body runs, leaves the
    inputs as they were and each accumulator block at the pieces it stored (the zero fill, then the zero fill plus
    this tile's partial sums). -/
noncomputable def bodyFirst (c : Dev nD) (i : grid0.Coords) (arg2 : Memref sig .tc .vmem S32x8192 .f32) (harg2 : arg2.IsWhole)
    (arg3 : Memref sig .tc .vmem S32x8192 .f32) (harg3 : arg3.IsWhole) (arg4 : Memref sig .tc .vmem S32x128 .f32) (harg4 : arg4.IsWhole)
    (arg5 : Memref sig .tc .vmem S32x128 .f32) (harg5 : arg5.IsWhole) (hc : firstCol i)
    (x0 : Vec F S32x8192 .f32) (x1 : Vec F S32x8192 .f32) :
    { L : List (View.Piece (Elt F) S32x128 .f32) × List (View.Piece (Elt F) S32x128 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2)) -∗ K ⟨⟩))
          ⊢ wp frame (wpE (defs₀ (F := F)) Variants.none c none) E (cc0__fused_kernel i arg2 harg2 arg3 harg3 arg4 harg4 arg5 harg5) K } := by
  refine ⟨(?_, ?_), fun E K => ?run⟩
  case run =>
    simp only [cc0__fused_kernel_eq_skeleton]; unfold cc0__fused_kernel_skel
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

set_option maxHeartbeats 4000000 in
/-- A LATER COLUMN TILE.  The input blocks at x0, x1, the accumulator blocks at what the point before left (a2, a3):
    the body runs, leaves the inputs as they were and each accumulator block at the one piece it stored (the old
    contents plus this tile's partial sums). -/
noncomputable def bodyLater (c : Dev nD) (i : grid0.Coords) (arg2 : Memref sig .tc .vmem S32x8192 .f32) (harg2 : arg2.IsWhole)
    (arg3 : Memref sig .tc .vmem S32x8192 .f32) (harg3 : arg3.IsWhole) (arg4 : Memref sig .tc .vmem S32x128 .f32) (harg4 : arg4.IsWhole)
    (arg5 : Memref sig .tc .vmem S32x128 .f32) (harg5 : arg5.IsWhole) (hc : ¬firstCol i)
    (x0 : Vec F S32x8192 .f32) (x1 : Vec F S32x8192 .f32) (a2 : Vec F S32x128 .f32) (a3 : Vec F S32x128 .f32) :
    { L : List (View.Piece (Elt F) S32x128 .f32) × List (View.Piece (Elt F) S32x128 .f32) //
      ∀ (E : Set ℕ) (K : PUnit → sProp 𝕄),
        iprop(owns (c : Thread nD τ) arg2 fullShare x0 ∗ owns (c : Thread nD τ) arg3 fullShare x1
            ∗ owns (c : Thread nD τ) arg4 fullShare a2 ∗ owns (c : Thread nD τ) arg5 fullShare a3
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2)) -∗ K ⟨⟩))
          ⊢ wp frame (wpE (defs₀ (F := F)) Variants.none c none) E (cc0__fused_kernel i arg2 harg2 arg3 harg3 arg4 harg4 arg5 harg5) K } := by
  refine ⟨(?_, ?_), fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1
    obtain rfl := harg4.eq_unread hf2; obtain rfl := harg5.eq_unread hf3
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.Kernel.Hist

end
-- ==== Proof.KFrame.lean ====
/-
  The histogram kernel's frame: what the two accumulator blocks hold after every grid point, the pipeline's proof
  data over it, the body obligation, the run of the whole program and the frame claim.

  Point t = 64 * (row tile) + (column tile).  After a first column tile the accumulator blocks hold what that case's
  stores leave (zero plus the tile's partial sums); after a later one, the same stores over what the point before
  left.  The blocks are written back to their arrays after the last column tile of each row tile only, so between
  two points of one row tile the staging buffer still holds what the body left.
-/
import proofs.«148309_j60421599920187_2_alg».proof.Proof.KBody

set_option maxRecDepth 16384

noncomputable section

namespace Cert.Kernel.Hist

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The stored pieces cover each accumulator block -/

theorem coverFirst2 (c : Dev nD) (i : grid0.Coords) (arg2 : Memref sig .tc .vmem S32x8192 .f32) (harg2 : arg2.IsWhole) (arg3 : Memref sig .tc .vmem S32x8192 .f32) (harg3 : arg3.IsWhole) (arg4 : Memref sig .tc .vmem S32x128 .f32) (harg4 : arg4.IsWhole) (arg5 : Memref sig .tc .vmem S32x128 .f32) (harg5 : arg5.IsWhole) (hc : firstCol i) (x0 x1 : Vec F S32x8192 .f32) (y : S32x128.Idx) :
    ∃ pc ∈ (bodyFirst c i arg2 harg2 arg3 harg3 arg4 harg4 arg5 harg5 hc x0 x1).1.1, y ∈ pc.1.set :=
  View.cover_of_tiledL (bodyFirst c i arg2 harg2 arg3 harg3 arg4 harg4 arg5 harg5 hc x0 x1).1.1 S32x128.size (by sl_kernel_rfl) y
theorem coverFirst3 (c : Dev nD) (i : grid0.Coords) (arg2 : Memref sig .tc .vmem S32x8192 .f32) (harg2 : arg2.IsWhole) (arg3 : Memref sig .tc .vmem S32x8192 .f32) (harg3 : arg3.IsWhole) (arg4 : Memref sig .tc .vmem S32x128 .f32) (harg4 : arg4.IsWhole) (arg5 : Memref sig .tc .vmem S32x128 .f32) (harg5 : arg5.IsWhole) (hc : firstCol i) (x0 x1 : Vec F S32x8192 .f32) (y : S32x128.Idx) :
    ∃ pc ∈ (bodyFirst c i arg2 harg2 arg3 harg3 arg4 harg4 arg5 harg5 hc x0 x1).1.2, y ∈ pc.1.set :=
  View.cover_of_tiledL (bodyFirst c i arg2 harg2 arg3 harg3 arg4 harg4 arg5 harg5 hc x0 x1).1.2 S32x128.size (by sl_kernel_rfl) y
theorem coverLater2 (c : Dev nD) (i : grid0.Coords) (arg2 : Memref sig .tc .vmem S32x8192 .f32) (harg2 : arg2.IsWhole) (arg3 : Memref sig .tc .vmem S32x8192 .f32) (harg3 : arg3.IsWhole) (arg4 : Memref sig .tc .vmem S32x128 .f32) (harg4 : arg4.IsWhole) (arg5 : Memref sig .tc .vmem S32x128 .f32) (harg5 : arg5.IsWhole) (hc : ¬firstCol i) (x0 x1 : Vec F S32x8192 .f32) (a2 a3 : Vec F S32x128 .f32) (y : S32x128.Idx) :
    ∃ pc ∈ (bodyLater c i arg2 harg2 arg3 harg3 arg4 harg4 arg5 harg5 hc x0 x1 a2 a3).1.1, y ∈ pc.1.set :=
  View.cover_of_tiledL (bodyLater c i arg2 harg2 arg3 harg3 arg4 harg4 arg5 harg5 hc x0 x1 a2 a3).1.1 S32x128.size (by sl_kernel_rfl) y
theorem coverLater3 (c : Dev nD) (i : grid0.Coords) (arg2 : Memref sig .tc .vmem S32x8192 .f32) (harg2 : arg2.IsWhole) (arg3 : Memref sig .tc .vmem S32x8192 .f32) (harg3 : arg3.IsWhole) (arg4 : Memref sig .tc .vmem S32x128 .f32) (harg4 : arg4.IsWhole) (arg5 : Memref sig .tc .vmem S32x128 .f32) (harg5 : arg5.IsWhole) (hc : ¬firstCol i) (x0 x1 : Vec F S32x8192 .f32) (a2 a3 : Vec F S32x128 .f32) (y : S32x128.Idx) :
    ∃ pc ∈ (bodyLater c i arg2 harg2 arg3 harg3 arg4 harg4 arg5 harg5 hc x0 x1 a2 a3).1.2, y ∈ pc.1.set :=
  View.cover_of_tiledL (bodyLater c i arg2 harg2 arg3 harg3 arg4 harg4 arg5 harg5 hc x0 x1 a2 a3).1.2 S32x128.size (by sl_kernel_rfl) y

/-- What the first-column-tile case leaves in the two accumulator blocks: its pieces read back. -/
def leftFirst (c : Dev nD) (i : grid0.Coords) (arg2 : Memref sig .tc .vmem S32x8192 .f32) (harg2 : arg2.IsWhole) (arg3 : Memref sig .tc .vmem S32x8192 .f32) (harg3 : arg3.IsWhole) (arg4 : Memref sig .tc .vmem S32x128 .f32) (harg4 : arg4.IsWhole) (arg5 : Memref sig .tc .vmem S32x128 .f32) (harg5 : arg5.IsWhole) (hc : firstCol i) (x0 x1 : Vec F S32x8192 .f32) : Vec F S32x128 .f32 × Vec F S32x128 .f32 :=
  (VO2.read (Elt F) (VO2.writes (Elt F) VO2.junk (bodyFirst c i arg2 harg2 arg3 harg3 arg4 harg4 arg5 harg5 hc x0 x1).1.1),
   VO3.read (Elt F) (VO3.writes (Elt F) VO3.junk (bodyFirst c i arg2 harg2 arg3 harg3 arg4 harg4 arg5 harg5 hc x0 x1).1.2))

/-- What a later-column-tile case leaves there, over what the point before left (a2, a3). -/
def leftLater (c : Dev nD) (i : grid0.Coords) (arg2 : Memref sig .tc .vmem S32x8192 .f32) (harg2 : arg2.IsWhole) (arg3 : Memref sig .tc .vmem S32x8192 .f32) (harg3 : arg3.IsWhole) (arg4 : Memref sig .tc .vmem S32x128 .f32) (harg4 : arg4.IsWhole) (arg5 : Memref sig .tc .vmem S32x128 .f32) (harg5 : arg5.IsWhole) (hc : ¬firstCol i) (x0 x1 : Vec F S32x8192 .f32) (a2 a3 : Vec F S32x128 .f32) : Vec F S32x128 .f32 × Vec F S32x128 .f32 :=
  (VO2.read (Elt F) (VO2.writes (Elt F) VO2.junk (bodyLater c i arg2 harg2 arg3 harg3 arg4 harg4 arg5 harg5 hc x0 x1 a2 a3).1.1),
   VO3.read (Elt F) (VO3.writes (Elt F) VO3.junk (bodyLater c i arg2 harg2 arg3 harg3 arg4 harg4 arg5 harg5 hc x0 x1 a2 a3).1.2))

/-! ## The accumulation, point by point -/

/-- What the accumulator blocks' staging buffers hold after the body at position n. -/
def accAt (c : Dev nD) : (n : ℕ) → n < cfg0.N → Vec F S32x128 .f32 × Vec F S32x128 .f32
  | 0, hn => leftFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) ((firstCol_iff ⟨0, hn⟩).mpr (Nat.zero_mod _)) (iblk m c 0 ⟨0, hn⟩) (iblk m c 1 ⟨0, hn⟩)
  | n + 1, hn =>
    if h0 : (n + 1) % 64 = 0 then
      leftFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) ((firstCol_iff ⟨n + 1, hn⟩).mpr h0) (iblk m c 0 ⟨n + 1, hn⟩) (iblk m c 1 ⟨n + 1, hn⟩)
    else
      leftLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (fun h => h0 ((firstCol_iff ⟨n + 1, hn⟩).mp h)) (iblk m c 0 ⟨n + 1, hn⟩) (iblk m c 1 ⟨n + 1, hn⟩)
        (accAt c n (Nat.lt_of_succ_lt hn)).1 (accAt c n (Nat.lt_of_succ_lt hn)).2

theorem accAt_first (c : Dev nD) (t : Fin cfg0.N) (h0 : t.val % 64 = 0) :
    accAt m c t.val t.isLt = leftFirst c (grid0.coords t) (ms0 t) (hs0 t) (ms1 t) (hs1 t) (ms2 t) (hs2 t) (ms3 t) (hs3 t) ((firstCol_iff t).mpr h0) (iblk m c 0 t) (iblk m c 1 t) := by
  obtain ⟨n, hn⟩ := t
  cases n with
  | zero => exact rfl
  | succ n => exact (dif_pos h0).trans rfl

theorem accAt_later (c : Dev nD) (t : Fin cfg0.N) (h0 : ¬t.val % 64 = 0) :
    accAt m c t.val t.isLt = leftLater c (grid0.coords t) (ms0 t) (hs0 t) (ms1 t) (hs1 t) (ms2 t) (hs2 t) (ms3 t) (hs3 t) (fun h => h0 ((firstCol_iff t).mp h)) (iblk m c 0 t) (iblk m c 1 t)
      (accAt m c (t.val - 1) (Nat.lt_of_le_of_lt (Nat.sub_le _ _) t.isLt)).1 (accAt m c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point t each input's buffer at its block and the
    accumulator blocks at `accAt`; the invariant the scoped rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (accAt m c t.val t.isLt).1
    | ⟨3, _⟩ => (accAt m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = (accAt m c t.val t.isLt).1 := by dsimp only [dats]
theorem after_3 (c : Dev nD) (t : Fin cfg0.N) : (dats m 0 c).after 3 t = (accAt m c t.val t.isLt).2 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-- At a later column tile the counts block's staging buffer holds what the body left at the point before: the
    point is not the first and the block was not written back between. -/
theorem before_2_later (c : Dev nD) (t : Fin cfg0.N) (h0 : ¬t.val % 64 = 0) (d) :
    (dats m 0 c).before 2 t d = (accAt m c (t.val - 1) (Nat.lt_of_le_of_lt (Nat.sub_le _ _) t.isLt)).1 := by
  have hN : t.val < 128 := lt_of_lt_of_eq t.isLt (show cfg0.N = 128 from N_0)
  rw [Dat.before_out_kept _ 2 rfl t (by omega) (Bool.eq_false_iff.mpr fun h => by have := (flush0_2 _).mp h; dsimp only at this; omega)
    (fun _ => rfl) (fun _ _ => rfl)]
  dsimp only [dats]
theorem before_3_later (c : Dev nD) (t : Fin cfg0.N) (h0 : ¬t.val % 64 = 0) (d) :
    (dats m 0 c).before 3 t d = (accAt m c (t.val - 1) (Nat.lt_of_le_of_lt (Nat.sub_le _ _) t.isLt)).2 := by
  have hN : t.val < 128 := lt_of_lt_of_eq t.isLt (show cfg0.N = 128 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 1600000 in
/-- The body at any point: the inputs' staging buffers hold their blocks; the point is a first or a later column
    tile; at a later one the accumulator blocks hold what the point before left; so the case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, after_2, after_3]
  have hN : t.val < 128 := lt_of_lt_of_eq t.isLt (show cfg0.N = 128 from N_0)
  by_cases h0 : t.val % 64 = 0
  · rw [accAt_first m c t h0]
    unfold leftFirst
    dsimp only
    iintro ⟨HΦ, Ho, ⟨%d0, H0⟩, ⟨%d1, H1⟩, ⟨%d2, H2⟩, ⟨%d3, H3⟩⟩
    iapply ((bodyFirst c (grid0.coords t) _ _ _ _ _ _ _ _ ((firstCol_iff t).mpr h0) (iblk m c 0 t) (iblk m c 1 t)).2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverFirst2 c _ _ _ _ _ _ _ _ _ _ _ _)
    unfold owns; iexists _; isplitr
    swap; · iexact H3
    ipureintro; exact View.read_writes_of_cover _ _ _ _ _ (coverFirst3 c _ _ _ _ _ _ _ _ _ _ _ _)
  · rw [accAt_later m c t h0]
    simp only [before_2_later m c t h0, before_3_later m c t h0]
    unfold leftLater
    dsimp only
    iintro ⟨HΦ, Ho, ⟨%d0, H0⟩, ⟨%d1, H1⟩, ⟨%d2, H2⟩, ⟨%d3, H3⟩⟩
    iapply ((bodyLater c (grid0.coords t) _ _ _ _ _ _ _ _ (fun h => h0 ((firstCol_iff t).mp h)) (iblk m c 0 t) (iblk m c 1 t) _ _).2 Set.univ _)
    isplitl [H0]; · iexact H0
    isplitl [H1]; · iexact H1
    isplitl [H2]; · iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverLater2 c _ _ _ _ _ _ _ _ _ _ _ _ _ _)
    unfold owns; iexists _; isplitr
    swap; · iexact H3
    ipureintro; exact View.read_writes_of_cover _ _ _ _ _ (coverLater3 c _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates; every array of the pipeline ends at what the proof data
    computes, every other unscoped buffer at what the host lines after the region leave there. -/
theorem run_main : θ_run defs (onTc (τ := τ) (main (F := F))) (s₀ m ρ)
    (Pipeline.FramePost cfgs (dats m) 0 (Pipeline.afterTail₀ cfgs (dats m) 0 (V0 m) [hostOps1, hostOps1_1, hostOps1_2, hostOps1_3, hostOps1_4])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4])
    (hsub := sfx_sub) (hfresh := sfx_fresh) (hkeep := sfx_keeps)
    (hmain := hmain m Variants.none) (hA := A_eq m) (hΦ := fun _ _ => rfl)

/-- The frame claim at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hist

end
-- ==== Proof.KIBody.lean ====
/-
  The histogram kernel's body on any staging memrefs, at any float instance.

  A grid point is (row tile, column tile).  At the first column tile of a row tile the body zeroes both
  accumulator blocks (counts, loss sums) before it adds this tile's partial sums; at every later column tile it adds to
  what the point before left there.  The two cases are run separately: each leaves the two input blocks as they were
  and the two accumulator blocks at a list of stored pieces, found by running the body.
-/
import proofs.«148309_j60421599920187_2_alg».proof.Proof.Gen.KernelIdeal.Frame
import proofs.«148309_j60421599920187_2_alg».proof.Proof.Gen.KernelIdeal.Skeleton
import proofs.«148309_j60421599920187_2_alg».proof.Proof.Gen.KernelIdeal.Loops
import proofs.«148309_j60421599920187_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hist

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "This is the first column tile": the body's one branch condition, from the grid coordinates. -/
abbrev firstCol (i : grid0.Coords) : Prop :=
  (Scalar.cmpi .ne (Scalar.extui (Scalar.cmpi .eq (BitVec.ofNat 32 (i 1).val) 0#32)) 0#32) = 1#1

/-- Point t = 64 * (row tile) + (column tile): the condition holds exactly where t is a multiple of 64. -/
theorem firstCol_iff : ∀ t : Fin cfg0.N, firstCol (grid0.coords t) ↔ t.val % 64 = 0 :=
  (by decide +kernel : ∀ t : Fin grid0.N, firstCol (grid0.coords t) ↔ t.val % 64 = 0)

/-- One staging buffer of each accumulator window, through which its contents are stated. -/
abbrev VO2 : View sig .tc .vmem S32x128 .f32 := (Memref.whole cc0_stg2_0 : Memref sig .tc .vmem S32x128 .f32).view
abbrev VO3 : View sig .tc .vmem S32x128 .f32 := (Memref.whole cc0_stg3_0 : Memref sig .tc .vmem S32x128 .f32).view

/-- Each window's current staging memref at point t, as the pipeline passes it to the body. -/
abbrev ms0 (t : Fin cfg0.N) : Memref sig .tc .vmem S32x8192 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S32x8192 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S32x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S32x128 .f32 := win0_3.stage (cfg0.slots t 3)
abbrev hs3 (t : Fin cfg0.N) : (ms3 t).IsWhole := hstage0_3 ((cfg0.slots t 3).cast nbuf0_3)

set_option maxHeartbeats 4000000 in
/-- THE FIRST COLUMN TILE.  The input blocks at x0, x1, the accumulator blocks at anything: the body runs, leaves the
    inputs as they were and each accumulator block at the pieces it stored (the zero fill, then the zero fill plus
    this tile's partial sums). -/
noncomputable def bodyFirst (c : Dev nD) (i : grid0.Coords) (arg2 : Memref sig .tc .vmem S32x8192 .f32) (harg2 : arg2.IsWhole)
    (arg3 : Memref sig .tc .vmem S32x8192 .f32) (harg3 : arg3.IsWhole) (arg4 : Memref sig .tc .vmem S32x128 .f32) (harg4 : arg4.IsWhole)
    (arg5 : Memref sig .tc .vmem S32x128 .f32) (harg5 : arg5.IsWhole) (hc : firstCol i)
    (x0 : Vec F S32x8192 .f32) (x1 : Vec F S32x8192 .f32) :
    { L : List (View.Piece (Elt F) S32x128 .f32) × List (View.Piece (Elt F) S32x128 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2)) -∗ K ⟨⟩))
          ⊢ wp frame (wpE (defs₀ (F := F)) Variants.none c none) E (cc0__fused_kernel i arg2 harg2 arg3 harg3 arg4 harg4 arg5 harg5) K } := by
  refine ⟨(?_, ?_), fun E K => ?run⟩
  case run =>
    simp only [cc0__fused_kernel_eq_skeleton]; unfold cc0__fused_kernel_skel
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

set_option maxHeartbeats 4000000 in
/-- A LATER COLUMN TILE.  The input blocks at x0, x1, the accumulator blocks at what the point before left (a2, a3):
    the body runs, leaves the inputs as they were and each accumulator block at the one piece it stored (the old
    contents plus this tile's partial sums). -/
noncomputable def bodyLater (c : Dev nD) (i : grid0.Coords) (arg2 : Memref sig .tc .vmem S32x8192 .f32) (harg2 : arg2.IsWhole)
    (arg3 : Memref sig .tc .vmem S32x8192 .f32) (harg3 : arg3.IsWhole) (arg4 : Memref sig .tc .vmem S32x128 .f32) (harg4 : arg4.IsWhole)
    (arg5 : Memref sig .tc .vmem S32x128 .f32) (harg5 : arg5.IsWhole) (hc : ¬firstCol i)
    (x0 : Vec F S32x8192 .f32) (x1 : Vec F S32x8192 .f32) (a2 : Vec F S32x128 .f32) (a3 : Vec F S32x128 .f32) :
    { L : List (View.Piece (Elt F) S32x128 .f32) × List (View.Piece (Elt F) S32x128 .f32) //
      ∀ (E : Set ℕ) (K : PUnit → sProp 𝕄),
        iprop(owns (c : Thread nD τ) arg2 fullShare x0 ∗ owns (c : Thread nD τ) arg3 fullShare x1
            ∗ owns (c : Thread nD τ) arg4 fullShare a2 ∗ owns (c : Thread nD τ) arg5 fullShare a3
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2)) -∗ K ⟨⟩))
          ⊢ wp frame (wpE (defs₀ (F := F)) Variants.none c none) E (cc0__fused_kernel i arg2 harg2 arg3 harg3 arg4 harg4 arg5 harg5) K } := by
  refine ⟨(?_, ?_), fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1
    obtain rfl := harg4.eq_unread hf2; obtain rfl := harg5.eq_unread hf3
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.KernelIdeal.Hist

end
-- ==== Proof.KIFrame.lean ====
/-
  The histogram kernel's frame: what the two accumulator blocks hold after every grid point, the pipeline's proof
  data over it, the body obligation, the run of the whole program and the frame claim.

  Point t = 64 * (row tile) + (column tile).  After a first column tile the accumulator blocks hold what that case's
  stores leave (zero plus the tile's partial sums); after a later one, the same stores over what the point before
  left.  The blocks are written back to their arrays after the last column tile of each row tile only, so between
  two points of one row tile the staging buffer still holds what the body left.
-/
import proofs.«148309_j60421599920187_2_alg».proof.Proof.KIBody

set_option maxRecDepth 16384

noncomputable section

namespace Cert.KernelIdeal.Hist

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The stored pieces cover each accumulator block -/

theorem coverFirst2 (c : Dev nD) (i : grid0.Coords) (arg2 : Memref sig .tc .vmem S32x8192 .f32) (harg2 : arg2.IsWhole) (arg3 : Memref sig .tc .vmem S32x8192 .f32) (harg3 : arg3.IsWhole) (arg4 : Memref sig .tc .vmem S32x128 .f32) (harg4 : arg4.IsWhole) (arg5 : Memref sig .tc .vmem S32x128 .f32) (harg5 : arg5.IsWhole) (hc : firstCol i) (x0 x1 : Vec F S32x8192 .f32) (y : S32x128.Idx) :
    ∃ pc ∈ (bodyFirst c i arg2 harg2 arg3 harg3 arg4 harg4 arg5 harg5 hc x0 x1).1.1, y ∈ pc.1.set :=
  View.cover_of_tiledL (bodyFirst c i arg2 harg2 arg3 harg3 arg4 harg4 arg5 harg5 hc x0 x1).1.1 S32x128.size (by sl_kernel_rfl) y
theorem coverFirst3 (c : Dev nD) (i : grid0.Coords) (arg2 : Memref sig .tc .vmem S32x8192 .f32) (harg2 : arg2.IsWhole) (arg3 : Memref sig .tc .vmem S32x8192 .f32) (harg3 : arg3.IsWhole) (arg4 : Memref sig .tc .vmem S32x128 .f32) (harg4 : arg4.IsWhole) (arg5 : Memref sig .tc .vmem S32x128 .f32) (harg5 : arg5.IsWhole) (hc : firstCol i) (x0 x1 : Vec F S32x8192 .f32) (y : S32x128.Idx) :
    ∃ pc ∈ (bodyFirst c i arg2 harg2 arg3 harg3 arg4 harg4 arg5 harg5 hc x0 x1).1.2, y ∈ pc.1.set :=
  View.cover_of_tiledL (bodyFirst c i arg2 harg2 arg3 harg3 arg4 harg4 arg5 harg5 hc x0 x1).1.2 S32x128.size (by sl_kernel_rfl) y
theorem coverLater2 (c : Dev nD) (i : grid0.Coords) (arg2 : Memref sig .tc .vmem S32x8192 .f32) (harg2 : arg2.IsWhole) (arg3 : Memref sig .tc .vmem S32x8192 .f32) (harg3 : arg3.IsWhole) (arg4 : Memref sig .tc .vmem S32x128 .f32) (harg4 : arg4.IsWhole) (arg5 : Memref sig .tc .vmem S32x128 .f32) (harg5 : arg5.IsWhole) (hc : ¬firstCol i) (x0 x1 : Vec F S32x8192 .f32) (a2 a3 : Vec F S32x128 .f32) (y : S32x128.Idx) :
    ∃ pc ∈ (bodyLater c i arg2 harg2 arg3 harg3 arg4 harg4 arg5 harg5 hc x0 x1 a2 a3).1.1, y ∈ pc.1.set :=
  View.cover_of_tiledL (bodyLater c i arg2 harg2 arg3 harg3 arg4 harg4 arg5 harg5 hc x0 x1 a2 a3).1.1 S32x128.size (by sl_kernel_rfl) y
theorem coverLater3 (c : Dev nD) (i : grid0.Coords) (arg2 : Memref sig .tc .vmem S32x8192 .f32) (harg2 : arg2.IsWhole) (arg3 : Memref sig .tc .vmem S32x8192 .f32) (harg3 : arg3.IsWhole) (arg4 : Memref sig .tc .vmem S32x128 .f32) (harg4 : arg4.IsWhole) (arg5 : Memref sig .tc .vmem S32x128 .f32) (harg5 : arg5.IsWhole) (hc : ¬firstCol i) (x0 x1 : Vec F S32x8192 .f32) (a2 a3 : Vec F S32x128 .f32) (y : S32x128.Idx) :
    ∃ pc ∈ (bodyLater c i arg2 harg2 arg3 harg3 arg4 harg4 arg5 harg5 hc x0 x1 a2 a3).1.2, y ∈ pc.1.set :=
  View.cover_of_tiledL (bodyLater c i arg2 harg2 arg3 harg3 arg4 harg4 arg5 harg5 hc x0 x1 a2 a3).1.2 S32x128.size (by sl_kernel_rfl) y

/-- What the first-column-tile case leaves in the two accumulator blocks: its pieces read back. -/
def leftFirst (c : Dev nD) (i : grid0.Coords) (arg2 : Memref sig .tc .vmem S32x8192 .f32) (harg2 : arg2.IsWhole) (arg3 : Memref sig .tc .vmem S32x8192 .f32) (harg3 : arg3.IsWhole) (arg4 : Memref sig .tc .vmem S32x128 .f32) (harg4 : arg4.IsWhole) (arg5 : Memref sig .tc .vmem S32x128 .f32) (harg5 : arg5.IsWhole) (hc : firstCol i) (x0 x1 : Vec F S32x8192 .f32) : Vec F S32x128 .f32 × Vec F S32x128 .f32 :=
  (VO2.read (Elt F) (VO2.writes (Elt F) VO2.junk (bodyFirst c i arg2 harg2 arg3 harg3 arg4 harg4 arg5 harg5 hc x0 x1).1.1),
   VO3.read (Elt F) (VO3.writes (Elt F) VO3.junk (bodyFirst c i arg2 harg2 arg3 harg3 arg4 harg4 arg5 harg5 hc x0 x1).1.2))

/-- What a later-column-tile case leaves there, over what the point before left (a2, a3). -/
def leftLater (c : Dev nD) (i : grid0.Coords) (arg2 : Memref sig .tc .vmem S32x8192 .f32) (harg2 : arg2.IsWhole) (arg3 : Memref sig .tc .vmem S32x8192 .f32) (harg3 : arg3.IsWhole) (arg4 : Memref sig .tc .vmem S32x128 .f32) (harg4 : arg4.IsWhole) (arg5 : Memref sig .tc .vmem S32x128 .f32) (harg5 : arg5.IsWhole) (hc : ¬firstCol i) (x0 x1 : Vec F S32x8192 .f32) (a2 a3 : Vec F S32x128 .f32) : Vec F S32x128 .f32 × Vec F S32x128 .f32 :=
  (VO2.read (Elt F) (VO2.writes (Elt F) VO2.junk (bodyLater c i arg2 harg2 arg3 harg3 arg4 harg4 arg5 harg5 hc x0 x1 a2 a3).1.1),
   VO3.read (Elt F) (VO3.writes (Elt F) VO3.junk (bodyLater c i arg2 harg2 arg3 harg3 arg4 harg4 arg5 harg5 hc x0 x1 a2 a3).1.2))

/-! ## The accumulation, point by point -/

/-- What the accumulator blocks' staging buffers hold after the body at position n. -/
def accAt (c : Dev nD) : (n : ℕ) → n < cfg0.N → Vec F S32x128 .f32 × Vec F S32x128 .f32
  | 0, hn => leftFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) ((firstCol_iff ⟨0, hn⟩).mpr (Nat.zero_mod _)) (iblk m c 0 ⟨0, hn⟩) (iblk m c 1 ⟨0, hn⟩)
  | n + 1, hn =>
    if h0 : (n + 1) % 64 = 0 then
      leftFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) ((firstCol_iff ⟨n + 1, hn⟩).mpr h0) (iblk m c 0 ⟨n + 1, hn⟩) (iblk m c 1 ⟨n + 1, hn⟩)
    else
      leftLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (fun h => h0 ((firstCol_iff ⟨n + 1, hn⟩).mp h)) (iblk m c 0 ⟨n + 1, hn⟩) (iblk m c 1 ⟨n + 1, hn⟩)
        (accAt c n (Nat.lt_of_succ_lt hn)).1 (accAt c n (Nat.lt_of_succ_lt hn)).2

theorem accAt_first (c : Dev nD) (t : Fin cfg0.N) (h0 : t.val % 64 = 0) :
    accAt m c t.val t.isLt = leftFirst c (grid0.coords t) (ms0 t) (hs0 t) (ms1 t) (hs1 t) (ms2 t) (hs2 t) (ms3 t) (hs3 t) ((firstCol_iff t).mpr h0) (iblk m c 0 t) (iblk m c 1 t) := by
  obtain ⟨n, hn⟩ := t
  cases n with
  | zero => exact rfl
  | succ n => exact (dif_pos h0).trans rfl

theorem accAt_later (c : Dev nD) (t : Fin cfg0.N) (h0 : ¬t.val % 64 = 0) :
    accAt m c t.val t.isLt = leftLater c (grid0.coords t) (ms0 t) (hs0 t) (ms1 t) (hs1 t) (ms2 t) (hs2 t) (ms3 t) (hs3 t) (fun h => h0 ((firstCol_iff t).mp h)) (iblk m c 0 t) (iblk m c 1 t)
      (accAt m c (t.val - 1) (Nat.lt_of_le_of_lt (Nat.sub_le _ _) t.isLt)).1 (accAt m c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point t each input's buffer at its block and the
    accumulator blocks at `accAt`; the invariant the scoped rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (accAt m c t.val t.isLt).1
    | ⟨3, _⟩ => (accAt m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = (accAt m c t.val t.isLt).1 := by dsimp only [dats]
theorem after_3 (c : Dev nD) (t : Fin cfg0.N) : (dats m 0 c).after 3 t = (accAt m c t.val t.isLt).2 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-- At a later column tile the counts block's staging buffer holds what the body left at the point before: the
    point is not the first and the block was not written back between. -/
theorem before_2_later (c : Dev nD) (t : Fin cfg0.N) (h0 : ¬t.val % 64 = 0) (d) :
    (dats m 0 c).before 2 t d = (accAt m c (t.val - 1) (Nat.lt_of_le_of_lt (Nat.sub_le _ _) t.isLt)).1 := by
  have hN : t.val < 128 := lt_of_lt_of_eq t.isLt (show cfg0.N = 128 from N_0)
  rw [Dat.before_out_kept _ 2 rfl t (by omega) (Bool.eq_false_iff.mpr fun h => by have := (flush0_2 _).mp h; dsimp only at this; omega)
    (fun _ => rfl) (fun _ _ => rfl)]
  dsimp only [dats]
theorem before_3_later (c : Dev nD) (t : Fin cfg0.N) (h0 : ¬t.val % 64 = 0) (d) :
    (dats m 0 c).before 3 t d = (accAt m c (t.val - 1) (Nat.lt_of_le_of_lt (Nat.sub_le _ _) t.isLt)).2 := by
  have hN : t.val < 128 := lt_of_lt_of_eq t.isLt (show cfg0.N = 128 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 1600000 in
/-- The body at any point: the inputs' staging buffers hold their blocks; the point is a first or a later column
    tile; at a later one the accumulator blocks hold what the point before left; so the case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, after_2, after_3]
  have hN : t.val < 128 := lt_of_lt_of_eq t.isLt (show cfg0.N = 128 from N_0)
  by_cases h0 : t.val % 64 = 0
  · rw [accAt_first m c t h0]
    unfold leftFirst
    dsimp only
    iintro ⟨HΦ, Ho, ⟨%d0, H0⟩, ⟨%d1, H1⟩, ⟨%d2, H2⟩, ⟨%d3, H3⟩⟩
    iapply ((bodyFirst c (grid0.coords t) _ _ _ _ _ _ _ _ ((firstCol_iff t).mpr h0) (iblk m c 0 t) (iblk m c 1 t)).2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverFirst2 c _ _ _ _ _ _ _ _ _ _ _ _)
    unfold owns; iexists _; isplitr
    swap; · iexact H3
    ipureintro; exact View.read_writes_of_cover _ _ _ _ _ (coverFirst3 c _ _ _ _ _ _ _ _ _ _ _ _)
  · rw [accAt_later m c t h0]
    simp only [before_2_later m c t h0, before_3_later m c t h0]
    unfold leftLater
    dsimp only
    iintro ⟨HΦ, Ho, ⟨%d0, H0⟩, ⟨%d1, H1⟩, ⟨%d2, H2⟩, ⟨%d3, H3⟩⟩
    iapply ((bodyLater c (grid0.coords t) _ _ _ _ _ _ _ _ (fun h => h0 ((firstCol_iff t).mp h)) (iblk m c 0 t) (iblk m c 1 t) _ _).2 Set.univ _)
    isplitl [H0]; · iexact H0
    isplitl [H1]; · iexact H1
    isplitl [H2]; · iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverLater2 c _ _ _ _ _ _ _ _ _ _ _ _ _ _)
    unfold owns; iexists _; isplitr
    swap; · iexact H3
    ipureintro; exact View.read_writes_of_cover _ _ _ _ _ (coverLater3 c _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates; every array of the pipeline ends at what the proof data
    computes, every other unscoped buffer at what the host lines after the region leave there. -/
theorem run_main : θ_run defs (onTc (τ := τ) (main (F := F))) (s₀ m ρ)
    (Pipeline.FramePost cfgs (dats m) 0 (Pipeline.afterTail₀ cfgs (dats m) 0 (V0 m) [hostOps1, hostOps1_1, hostOps1_2, hostOps1_3, hostOps1_4])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4])
    (hsub := sfx_sub) (hfresh := sfx_fresh) (hkeep := sfx_keeps)
    (hmain := hmain m Variants.none) (hA := A_eq m) (hΦ := fun _ _ => rfl)

/-- The frame claim at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hist

end
-- ==== Proof.KIValueA.lean ====
/-
  What the histogram kernel's body leaves in its two accumulator blocks, as values, at any float instance.

  The body's 64-trip loop walks the [32, 8192] input blocks in [32, 128] chunks and carries two [32, 128]
  accumulators from zero; after it the body adds the carried pair to the accumulator blocks — to zero at a first
  column tile, to what the point before left at a later one.
-/
import proofs.«148309_j60421599920187_2_alg».proof.Proof.KIFrame
import Idealize.ShloMosaic.Lib.Pipeline.Value

set_option maxRecDepth 16384

noncomputable section

namespace Cert.KernelIdeal.Hist

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- Chunk k of a [32, 8192] block: columns 128 k … 128 k + 127, as the loop's loads read it. -/
def chunk (arg : Memref sig .tc .vmem S32x8192 .f32) (harg : arg.IsWhole) (x : Vec F S32x8192 .f32) (k : Fin k0_t1_loop.trips) : Vec F S32x128 .f32 :=
  View.readAt (Elt F) arg.view (Rect.unit (s := S32x8192) (k0_off1 k) S32x128.size (k0_off1_inb k)).toLoadRect (harg.unread x)

/-- The pair the loop carries after all its trips, from the zero pair. -/
def loopOut (c : Dev nD) (i : grid0.Coords) (arg2 : Memref sig .tc .vmem S32x8192 .f32) (harg2 : arg2.IsWhole) (arg3 : Memref sig .tc .vmem S32x8192 .f32) (harg3 : arg3.IsWhole) (arg4 : Memref sig .tc .vmem S32x128 .f32) (harg4 : arg4.IsWhole) (arg5 : Memref sig .tc .vmem S32x128 .f32) (harg5 : arg5.IsWhole) (x0 x1 : Vec F S32x8192 .f32) : FVec F S32x128 .f32 × FVec F S32x128 .f32 :=
  st_k0_t1 (F := F) Variants.none c none i arg2 harg2 arg3 harg3 arg4 harg4 arg5 harg5 (harg2.unread x0) (harg3.unread x1) (k0_pay3, k0_pay4) (Scf.trips (0#32) (Scalar.addi 0#32 64#32) 1#32)

/-- A later column tile leaves the old contents plus the loop's pair. -/
theorem leftLater_eq (c : Dev nD) (i : grid0.Coords) (arg2 : Memref sig .tc .vmem S32x8192 .f32) (harg2 : arg2.IsWhole) (arg3 : Memref sig .tc .vmem S32x8192 .f32) (harg3 : arg3.IsWhole) (arg4 : Memref sig .tc .vmem S32x128 .f32) (harg4 : arg4.IsWhole) (arg5 : Memref sig .tc .vmem S32x128 .f32) (harg5 : arg5.IsWhole) (hc : ¬firstCol i) (x0 x1 : Vec F S32x8192 .f32) (a2 a3 : Vec F S32x128 .f32) :
    leftLater c i arg2 harg2 arg3 harg3 arg4 harg4 arg5 harg5 hc x0 x1 a2 a3
      = (k0_pay9 (loopOut c i arg2 harg2 arg3 harg3 arg4 harg4 arg5 harg5 x0 x1).1 a2, k0_pay10 (loopOut c i arg2 harg2 arg3 harg3 arg4 harg4 arg5 harg5 x0 x1).2 a3) := by
  unfold leftLater
  dsimp only
  rw [View.read_writes_eq_canon _ _ _ (coverLater2 c i arg2 harg2 arg3 harg3 arg4 harg4 arg5 harg5 hc x0 x1 a2 a3),
    View.read_writes_eq_canon _ _ _ (coverLater3 c i arg2 harg2 arg3 harg3 arg4 harg4 arg5 harg5 hc x0 x1 a2 a3)]
  unfold bodyLater
  dsimp only
  rw [View.canon_unit_zero hz, View.canon_unit_zero hz]
  simp only [View.readAt_eq_ld, harg4.read_unread, harg5.read_unread, View.ld_unit_zero (S := S32x128) hz]
  rfl

/-- A first column tile leaves zero plus the loop's pair. -/
theorem leftFirst_eq (c : Dev nD) (i : grid0.Coords) (arg2 : Memref sig .tc .vmem S32x8192 .f32) (harg2 : arg2.IsWhole) (arg3 : Memref sig .tc .vmem S32x8192 .f32) (harg3 : arg3.IsWhole) (arg4 : Memref sig .tc .vmem S32x128 .f32) (harg4 : arg4.IsWhole) (arg5 : Memref sig .tc .vmem S32x128 .f32) (harg5 : arg5.IsWhole) (hc : firstCol i) (x0 x1 : Vec F S32x8192 .f32) :
    leftFirst c i arg2 harg2 arg3 harg3 arg4 harg4 arg5 harg5 hc x0 x1
      = (k0_pay9 (loopOut c i arg2 harg2 arg3 harg3 arg4 harg4 arg5 harg5 x0 x1).1 (k0_pay1 (F := F)), k0_pay10 (loopOut c i arg2 harg2 arg3 harg3 arg4 harg4 arg5 harg5 x0 x1).2 (k0_pay2 (F := F))) := by
  unfold leftFirst
  dsimp only
  rw [View.read_writes_eq_canon _ _ _ (coverFirst2 c i arg2 harg2 arg3 harg3 arg4 harg4 arg5 harg5 hc x0 x1),
    View.read_writes_eq_canon _ _ _ (coverFirst3 c i arg2 harg2 arg3 harg3 arg4 harg4 arg5 harg5 hc x0 x1)]
  unfold bodyFirst
  dsimp only
  sl_unfold_words
  rw [View.canon_cons_unit_zero (S := S32x128) hz, View.readCov_unit_zero (S := S32x128) _ hz,
    View.canon_cons_unit_zero (S := S32x128) hz, View.readCov_unit_zero (S := S32x128) _ hz]
  rfl

end Cert.KernelIdeal.Hist

end
-- ==== Proof.HistSpec.lean ====
/-
  The decade-weighted loss as one function of its two arrays, over the extended reals.

  A target value y falls into the bin  clip(floor(max(|y|, 2^-23)), 0, 63);  a row's samples are weighted by the
  reciprocal of their bin's occupancy in that row, and the result is  sqrt(sum(loss * weight) / sum(weight))  with
  loss = (p - y)^2.  Two arrangements of this number are stated here over abstract finite index types:
  `byBins`  — per (row, bin) the occupancy count and the sum of the losses, the loss sums weighted by the masked
  reciprocal count and the weights counted as the number of occupied (row, bin) pairs —, and  `bySamples`  — every
  sample weighted by the reciprocal of the occupancy of its own bin.  That the two agree is HistAlgebra.lean.
-/
import Idealize.ShloMosaic.PureOps.Ideal
import Idealize.ShloMosaic.Lib.ValueIdx

noncomputable section

open scoped BigOperators

namespace Cert.HistSpec

open Idealize.ShloMosaic

/-- The bin of a target value as the 32-bit word both programs compute:
    floor(max(|y|, 2^-23)) converted to a signed word, then clamped below by 0 and above by 63. -/
def binWord (y : EReal) : BitVec 32 :=
  IntOp.minsi 63#32 (IntOp.maxsi 0#32
    (Ideal.fptosi 32 (Ideal.liftRound Int.floor (max (max y (-y)) (Ideal.ofBits .f32 0x34000000#32)))))

/-- Clamping a signed word below by 0 and above by 63 leaves a word whose signed value is in [0, 63]. -/
theorem clamp_toInt (x : BitVec 32) :
    0 ≤ (IntOp.minsi 63#32 (IntOp.maxsi 0#32 x)).toInt ∧ (IntOp.minsi 63#32 (IntOp.maxsi 0#32 x)).toInt ≤ 63 := by
  unfold IntOp.minsi IntOp.maxsi
  have h63 : (63#32 : BitVec 32).toInt = 63 := by decide
  have h0 : (0#32 : BitVec 32).toInt = 0 := by decide
  by_cases hx : x.slt 0#32
  · rw [if_pos hx]
    have : ¬ (63#32 : BitVec 32).slt 0#32 = true := by decide
    rw [if_neg this, h0]; omega
  · rw [if_neg hx]
    have hx0 : 0 ≤ x.toInt := by
      rw [BitVec.slt_iff_toInt_lt, h0] at hx; omega
    by_cases h2 : (63#32 : BitVec 32).slt x
    · rw [if_pos h2, h63]; omega
    · rw [if_neg h2]
      rw [BitVec.slt_iff_toInt_lt, h63] at h2
      omega

/-- The bin of a target value, as a number below 64. -/
def bin (y : EReal) : Fin 64 :=
  ⟨(binWord y).toInt.toNat, by have := clamp_toInt (Ideal.fptosi 32 (Ideal.liftRound Int.floor (max (max y (-y)) (Ideal.ofBits .f32 0x34000000#32)))); unfold binWord; omega⟩

/-- The bin word's signed value is the bin. -/
theorem binWord_toInt (y : EReal) : (binWord y).toInt = ((bin y).val : ℤ) := by
  have := clamp_toInt (Ideal.fptosi 32 (Ideal.liftRound Int.floor (max (max y (-y)) (Ideal.ofBits .f32 0x34000000#32))))
  unfold bin binWord
  simp only
  omega

/-- The squared error of one sample. -/
def sqErr (p y : EReal) : EReal := (p - y) * (p - y)

section Arrangements

variable {B T : Type} [Fintype B] [Fintype T]

/-- How many samples of row `b` fall into bin `n`. -/
def cnt (d : B → T → Fin 64) (b : B) (n : Fin 64) : EReal := ∑ t, if d b t = n then (1 : EReal) else 0

/-- The sum of the losses of row `b`'s samples that fall into bin `n`. -/
def lsum (d : B → T → Fin 64) (ℓ : B → T → EReal) (b : B) (n : Fin 64) : EReal :=
  ∑ t, ℓ b t * (if d b t = n then (1 : EReal) else 0)

/-- The reciprocal of an occupancy count, zero for an empty bin. -/
def invCnt (c : EReal) : EReal := if 0 < c then Ideal.div 1 c else 0

/-- One for an occupied bin, zero for an empty one. -/
def occ (c : EReal) : EReal := if 0 < c then 1 else 0

/-- The loss arranged by bins. -/
def byBins (d : B → T → Fin 64) (ℓ : B → T → EReal) : EReal :=
  Ideal.sqrt (Ideal.div (∑ b, ∑ n, lsum d ℓ b n * invCnt (cnt d b n)) (∑ b, ∑ n, occ (cnt d b n)))

/-- The loss arranged by samples. -/
def bySamples (d : B → T → Fin 64) (ℓ : B → T → EReal) : EReal :=
  Ideal.sqrt (Ideal.div (∑ b, ∑ t, ℓ b t * Ideal.div 1 (cnt d b (d b t))) (∑ b, ∑ t, Ideal.div 1 (cnt d b (d b t))))

end Arrangements

end Cert.HistSpec

end
-- ==== Proof.KIPayload.lean ====
/-
  The histogram kernel's arithmetic, entry by entry, over the extended reals.

  One chunk is a [32, 128] slab of targets y and predictions p (32 rows, 128 lanes).  The body compares each target's
  bin with every bin number n < 128 (a one-hot vector over n) and sums over the lanes: the count of the row's lanes
  whose bin is n, and the sum of their squared errors.  Each is added to a running [32, 128] accumulator.
-/
import proofs.«148309_j60421599920187_2_alg».proof.Proof.Gen.KernelIdeal.Skeleton
import proofs.«148309_j60421599920187_2_alg».proof.Proof.HistSpec
import Idealize.ShloMosaic.Lib.Pipeline.Value
import Idealize.ShloMosaic.Lib.ValueIdx
import Idealize.ShloMosaic.PureOps.Ideal.Laws

noncomputable section

open scoped BigOperators

namespace Cert.KernelIdeal.Hist

open Cert.KernelIdeal Cert.KernelIdeal.Gen Idealize.ShloMosaic Idealize.ShloMosaic.ValueIdx

/-- 1 if the value's bin is n, else 0: one entry of the one-hot vector. -/
def hot (y : EReal) (n : Fin 128) : EReal := if (Cert.HistSpec.bin y).val = n.val then 1 else 0

/-- A [32,128] slab viewed [32,128,1] and broadcast along a new last axis: entry (r, l, n) is entry (r, l). -/
theorem colBcast {α : Type} (x : S32x128.Idx → α) (h1 : S32x128.ShapeCasts S32x128x1) (h2 : S32x128x1.Broadcasts S32x128x128)
    (r : Fin 32) (l n : Fin 128) :
    broadcastTo S32x128x128 (shapeCast S32x128x1 x h1) h2 (ix3 r l n) = x (ix2 r l) := by
  refine (broadcastTo_apply _ h2 (ix3 r l n) (ix3 r l (0 : Fin 1)) ?_).trans ?_
  · intro a
    match a with
    | ⟨0, _⟩ => show r.val = if (32 : ℕ) = 1 then 0 else r.val; rw [if_neg (by decide)]
    | ⟨1, _⟩ => show l.val = if (128 : ℕ) = 1 then 0 else l.val; rw [if_neg (by decide)]
    | ⟨2, _⟩ => show (0 : ℕ) = if (1 : ℕ) = 1 then 0 else n.val; rw [if_pos rfl]
  · exact shapeCast_apply x h1 (ix3 r l (0 : Fin 1)) (ix2 r l) (by
      rw [Shape.rowMajor_val_two, Shape.rowMajor_val_three]
      show r.val * 128 + l.val = (r.val * 128 + l.val) * 1 + 0
      omega)

/-- A sum over the lane axis of a [32, 128, 128] grid, read at (r, n): the sum over the lanes l of entry (r, l, n). -/
theorem laneSum (src : FVec Ideal S32x128x128 .f32) (h : S32x128x128.Reduces [1] S32x128) (hφ : FKind.Formats .f32)
    (hacc : (0x00000000#32 : BitVec 32) = 0x00000000#32) (r : Fin 32) (n : Fin 128) :
    multiReduction (F := Ideal) .add [1] S32x128 src 0x00000000#32 h hφ hacc (ix2 r n) = ∑ l : Fin 128, src (ix3 r l n) := by
  refine (Ideal.multiReduction_add_single src 0x00000000#32 h hφ hacc (ix2 r n)).trans ?_
  refine Finset.sum_congr rfl fun l _ => congrArg src ?_
  funext a
  apply Fin.ext
  match a with
  | ⟨0, _⟩ => rfl
  | ⟨1, _⟩ => rfl
  | ⟨2, _⟩ => rfl

/-- The signed value of a small natural number's 32-bit word is the number. -/
theorem toInt_ofNat_small (n : ℕ) (hn : n < 128) : (BitVec.ofNat 32 n).toInt = (n : ℤ) := by
  rw [BitVec.toInt_eq_toNat_cond, BitVec.toNat_ofNat, Nat.mod_eq_of_lt (by omega)]
  rw [if_pos (by omega)]

/-- Comparing the bin words (as reals) with the bin numbers 0 … 127 and widening the bit: the one-hot entry. -/
theorem hotEntry (W : IVec S32x128 32) (h1 : S32x128.ShapeCasts S32x128x1) (h2 : S32x128x1.Broadcasts S32x128x128)
    (h3 : S32x128x128.Iotas .tc 32 [2]) (hlt : 1 < 32) (r : Fin 32) (l n : Fin 128) :
    (sitofp (F := Ideal) .f32 (extui 32 (cmpf .oeq (broadcastTo S32x128x128 (shapeCast S32x128x1 (sitofp (F := Ideal) .bf16 W) h1) h2)
        (sitofp (F := Ideal) .bf16 (iota .tc S32x128x128 32 [2] h3))) hlt)) (ix3 r l n)
      = if (W (ix2 r l)).toInt = (n.val : ℤ) then (1 : EReal) else 0 := by
  show ((((Ideal.cmp .oeq (broadcastTo S32x128x128 (shapeCast S32x128x1 (sitofp (F := Ideal) .bf16 W) h1) h2 (ix3 r l n))
      (((iota .tc S32x128x128 32 [2] h3 (ix3 r l n)).toInt : ℝ) : EReal)).setWidth 32).toInt : ℝ) : EReal) = _
  rw [colBcast, iota_single_apply]
  show ((((Ideal.cmp .oeq ((((W (ix2 r l)).toInt : ℝ) : EReal)) (((BitVec.ofNat 32 n.val).toInt : ℝ) : EReal)).setWidth 32).toInt : ℝ) : EReal) = _
  rw [toInt_ofNat_small n.val n.isLt]
  have hcmp : ∀ x y : EReal, Ideal.cmp .oeq x y = BitVec.ofBool (decide (x = y)) := fun _ _ => rfl
  rw [hcmp]
  by_cases hc : (W (ix2 r l)).toInt = (n.val : ℤ)
  · rw [if_pos hc, hc, decide_eq_true rfl]
    simp
  · rw [if_neg hc]
    have hne : ¬ ((((W (ix2 r l)).toInt : ℝ) : EReal) = (((n.val : ℤ) : ℝ) : EReal)) := fun h => hc (by exact_mod_cast h)
    rw [decide_eq_false hne]
    simp

/-- The bin words of a slab, entry by entry. -/
theorem binWords_apply (v21 : Vec Ideal S32x128 .f32) (j : S32x128.Idx) :
    (minsi (broadcast S32x128 63#32) (maxsi (broadcast S32x128 0#32)
      (fptosi 32 (floor (maximumf (absf (k0_pay5 (F := Ideal) v21)) (broadcast S32x128 (Scalar.ofBits (F := Ideal) .f32 0x34000000#32))))))) j
      = Cert.HistSpec.binWord (v21 j) := by
  unfold k0_pay5
  rw [shapeCast_self]
  rfl

/-- The one-hot grid of a slab of targets: entry (r, l, n) is 1 if the bin of target (r, l) is n, else 0. -/
theorem pay6_apply (v21 : Vec Ideal S32x128 .f32) (r : Fin 32) (l n : Fin 128) :
    k0_pay6 (F := Ideal) v21 (ix3 r l n) = hot (v21 (ix2 r l)) n := by
  unfold k0_pay6
  refine (hotEntry _ _ _ _ _ r l n).trans ?_
  rw [binWords_apply, Cert.HistSpec.binWord_toInt]
  unfold hot
  simp only [Nat.cast_inj]

/-- One chunk's contribution to the counts: the accumulator plus, per bin n, the number of the row's lanes in bin n. -/
theorem pay7_apply (acc : FVec Ideal S32x128 .f32) (v21 : Vec Ideal S32x128 .f32) (r : Fin 32) (n : Fin 128) :
    k0_pay7 (F := Ideal) acc v21 (ix2 r n) = acc (ix2 r n) + ∑ l : Fin 128, hot (v21 (ix2 r l)) n := by
  unfold k0_pay7
  show acc (ix2 r n) + multiReduction (F := Ideal) .add [1] S32x128 (k0_pay6 (F := Ideal) v21) 0x00000000#32 _ _ _ (ix2 r n) = _
  rw [laneSum]
  simp only [pay6_apply]

/-- One chunk's contribution to the loss sums: the accumulator plus, per bin n, the squared errors of the row's lanes
    in bin n. -/
theorem pay8_apply (acc : FVec Ideal S32x128 .f32) (v18 v21 : Vec Ideal S32x128 .f32) (r : Fin 32) (n : Fin 128) :
    k0_pay8 (F := Ideal) acc v18 v21 (ix2 r n)
      = acc (ix2 r n) + ∑ l : Fin 128, Cert.HistSpec.sqErr (v18 (ix2 r l)) (v21 (ix2 r l)) * hot (v21 (ix2 r l)) n := by
  unfold k0_pay8
  show acc (ix2 r n) + multiReduction (F := Ideal) .add [1] S32x128 _ 0x00000000#32 _ _ _ (ix2 r n) = _
  rw [laneSum]
  refine congrArg _ (Finset.sum_congr rfl fun l _ => ?_)
  show broadcastTo S32x128x128 (shapeCast S32x128x1 _ _) _ (ix3 r l n) * k0_pay6 (F := Ideal) v21 (ix3 r l n) = _
  rw [colBcast, pay6_apply]
  unfold k0_pay5
  rw [shapeCast_self, shapeCast_self]
  rfl

end Cert.KernelIdeal.Hist

end
-- ==== Proof.KIValueB.lean ====
/-
  The histogram kernel's accumulator blocks, entry by entry, over the extended reals.

  For one grid point with input blocks x0 (predictions) and x1 (targets), [32, 8192] each: chunk k's contribution
  to entry (r, n) of the counts is the number of lanes l < 128 with bin(x1 (r, 128 k + l)) = n, and to the loss sums
  the squared errors of those lanes; the loop's 64 trips add these up from zero, and the body adds the total to the
  accumulator block.  Over the column tiles 0 … j of a row tile the accumulator block therefore holds the sum of the
  tiles' totals.
-/
import proofs.«148309_j60421599920187_2_alg».proof.Proof.KIValueA
import proofs.«148309_j60421599920187_2_alg».proof.Proof.KIPayload

set_option maxRecDepth 16384

noncomputable section

open scoped BigOperators

namespace Cert.KernelIdeal.Hist

open Cert.KernelIdeal Cert.KernelIdeal.Gen Idealize.ShloMosaic Idealize.ShloMosaic.TcCoe Idealize.ShloMosaic.ValueIdx
open Idealize.SL.Sem
open Cert.HistSpec (sqErr)

/-- The loop makes 64 trips. -/
theorem trips_eq : k0_t1_loop.trips = 64 := by decide

/-- Entry (r, l) of chunk k is entry (r, 128 k + l) of the block. -/
theorem chunk_apply (arg : Memref sig .tc .vmem S32x8192 .f32) (harg : arg.IsWhole) (x : Vec Ideal S32x8192 .f32)
    (k : Fin k0_t1_loop.trips) (r : Fin 32) (l : Fin 128) (hk : 128 * k.val + l.val < 8192) :
    chunk arg harg x k (ix2 r l) = x (ix2 r ⟨128 * k.val + l.val, hk⟩) := by
  unfold chunk
  rw [View.readAt_eq_ld, harg.read_unread]
  show x ((Rect.unit (s := S32x8192) (k0_off1 k) S32x128.size (k0_off1_inb k)).idx (ix2 r l)) = _
  refine congrArg x (funext fun a => Fin.ext ?_)
  match a with
  | ⟨0, _⟩ =>
    show (k0_off1 k) 0 + 1 * r.val = r.val
    rw [k0_off1_eq]; show 0 + 1 * r.val = r.val; omega
  | ⟨1, _⟩ =>
    show (k0_off1 k) 1 + 1 * l.val = 128 * k.val + l.val
    rw [k0_off1_eq]; show 128 * k.val + 1 * l.val = 128 * k.val + l.val; omega

/-- Chunk k's contribution to the counts at (r, n); zero past the last chunk. -/
def chunkC (x1 : Vec Ideal S32x8192 .f32) (r : Fin 32) (n : Fin 128) (k : ℕ) : EReal :=
  if h : k < 64 then ∑ l : Fin 128, hot (x1 (ix2 r ⟨128 * k + l.val, by have := l.isLt; omega⟩)) n else 0

/-- Chunk k's contribution to the loss sums at (r, n). -/
def chunkL (x0 x1 : Vec Ideal S32x8192 .f32) (r : Fin 32) (n : Fin 128) (k : ℕ) : EReal :=
  if h : k < 64 then ∑ l : Fin 128, sqErr (x0 (ix2 r ⟨128 * k + l.val, by have := l.isLt; omega⟩)) (x1 (ix2 r ⟨128 * k + l.val, by have := l.isLt; omega⟩))
      * hot (x1 (ix2 r ⟨128 * k + l.val, by have := l.isLt; omega⟩)) n else 0

theorem pay3_apply (j : S32x128.Idx) : k0_pay3 (F := Ideal) j = 0 := by
  unfold k0_pay3; exact Ideal.ofBits_zero_f32
theorem pay4_apply (j : S32x128.Idx) : k0_pay4 (F := Ideal) j = 0 := by
  unfold k0_pay4; exact Ideal.ofBits_zero_f32
theorem pay1_apply (j : S32x128.Idx) : k0_pay1 (F := Ideal) j = 0 := by
  unfold k0_pay1; exact Ideal.ofBits_zero_f32
theorem pay2_apply (j : S32x128.Idx) : k0_pay2 (F := Ideal) j = 0 := by
  unfold k0_pay2; exact Ideal.ofBits_zero_f32
theorem pay9_apply (v6 : FVec Ideal S32x128 .f32) (v7 : Vec Ideal S32x128 .f32) (j : S32x128.Idx) :
    k0_pay9 (F := Ideal) v6 v7 j = v7 j + v6 j := by
  unfold k0_pay9; rw [shapeCast_self]; rfl
theorem pay10_apply (v6 : FVec Ideal S32x128 .f32) (v11 : Vec Ideal S32x128 .f32) (j : S32x128.Idx) :
    k0_pay10 (F := Ideal) v6 v11 j = v11 j + v6 j := by
  unfold k0_pay10; rw [shapeCast_self]; rfl

/-- One trip: the carried pair plus chunk k's two contributions. -/
theorem trip_apply (c : Dev nD) (i : grid0.Coords) (arg2 : Memref sig .tc .vmem S32x8192 .f32) (harg2 : arg2.IsWhole) (arg3 : Memref sig .tc .vmem S32x8192 .f32) (harg3 : arg3.IsWhole) (arg4 : Memref sig .tc .vmem S32x128 .f32) (harg4 : arg4.IsWhole) (arg5 : Memref sig .tc .vmem S32x128 .f32) (harg5 : arg5.IsWhole) (x0 x1 : Vec Ideal S32x8192 .f32) (k : ℕ) (hk : k < 64)
    (acc : FVec Ideal S32x128 .f32 × FVec Ideal S32x128 .f32) (r : Fin 32) (n : Fin 128) :
    (tripR_k0_t1 (F := Ideal) Variants.none c none i arg2 harg2 arg3 harg3 arg4 harg4 arg5 harg5 (harg2.unread x0) (harg3.unread x1) ⟨k, by rw [trips_eq]; exact hk⟩ acc).1 (ix2 r n) = acc.1 (ix2 r n) + chunkC x1 r n k
    ∧ (tripR_k0_t1 (F := Ideal) Variants.none c none i arg2 harg2 arg3 harg3 arg4 harg4 arg5 harg5 (harg2.unread x0) (harg3.unread x1) ⟨k, by rw [trips_eq]; exact hk⟩ acc).2 (ix2 r n) = acc.2 (ix2 r n) + chunkL x0 x1 r n k := by
  have e : tripR_k0_t1 (F := Ideal) Variants.none c none i arg2 harg2 arg3 harg3 arg4 harg4 arg5 harg5 (harg2.unread x0) (harg3.unread x1) ⟨k, by rw [trips_eq]; exact hk⟩ acc
      = (k0_pay7 acc.1 (chunk arg3 harg3 x1 ⟨k, by rw [trips_eq]; exact hk⟩),
         k0_pay8 acc.2 (chunk arg2 harg2 x0 ⟨k, by rw [trips_eq]; exact hk⟩) (chunk arg3 harg3 x1 ⟨k, by rw [trips_eq]; exact hk⟩)) := by
    unfold tripR_k0_t1 trip_k0_t1; rfl
  rw [e]
  constructor
  · show k0_pay7 (F := Ideal) acc.1 _ (ix2 r n) = _
    rw [pay7_apply]
    unfold chunkC; rw [dif_pos hk]
    refine congrArg _ (Finset.sum_congr rfl fun l _ => ?_)
    rw [chunk_apply arg3 harg3 x1 ⟨k, by rw [trips_eq]; exact hk⟩ r l (by have := l.isLt; show 128 * k + l.val < 8192; omega)]
  · show k0_pay8 (F := Ideal) acc.2 _ _ (ix2 r n) = _
    rw [pay8_apply]
    unfold chunkL; rw [dif_pos hk]
    refine congrArg _ (Finset.sum_congr rfl fun l _ => ?_)
    rw [chunk_apply arg3 harg3 x1 ⟨k, by rw [trips_eq]; exact hk⟩ r l (by have := l.isLt; show 128 * k + l.val < 8192; omega),
      chunk_apply arg2 harg2 x0 ⟨k, by rw [trips_eq]; exact hk⟩ r l (by have := l.isLt; show 128 * k + l.val < 8192; omega)]

/-- After k trips the carried pair is the sum of the first k chunks' contributions. -/
theorem st_apply (c : Dev nD) (i : grid0.Coords) (arg2 : Memref sig .tc .vmem S32x8192 .f32) (harg2 : arg2.IsWhole) (arg3 : Memref sig .tc .vmem S32x8192 .f32) (harg3 : arg3.IsWhole) (arg4 : Memref sig .tc .vmem S32x128 .f32) (harg4 : arg4.IsWhole) (arg5 : Memref sig .tc .vmem S32x128 .f32) (harg5 : arg5.IsWhole) (x0 x1 : Vec Ideal S32x8192 .f32) (r : Fin 32) (n : Fin 128) :
    ∀ k : ℕ, k ≤ 64 →
      (st_k0_t1 (F := Ideal) Variants.none c none i arg2 harg2 arg3 harg3 arg4 harg4 arg5 harg5 (harg2.unread x0) (harg3.unread x1) (k0_pay3, k0_pay4) k).1 (ix2 r n) = ∑ j ∈ Finset.range k, chunkC x1 r n j
      ∧ (st_k0_t1 (F := Ideal) Variants.none c none i arg2 harg2 arg3 harg3 arg4 harg4 arg5 harg5 (harg2.unread x0) (harg3.unread x1) (k0_pay3, k0_pay4) k).2 (ix2 r n) = ∑ j ∈ Finset.range k, chunkL x0 x1 r n j
  | 0, _ => by
    rw [Finset.sum_range_zero, Finset.sum_range_zero]
    exact ⟨pay3_apply (ix2 r n), pay4_apply (ix2 r n)⟩
  | k + 1, hk => by
    have hk' : k < 64 := by omega
    have ih := st_apply c i arg2 harg2 arg3 harg3 arg4 harg4 arg5 harg5 x0 x1 r n k (by omega)
    have hs := st_k0_t1_succ (F := Ideal) Variants.none c none i arg2 harg2 arg3 harg3 arg4 harg4 arg5 harg5 (harg2.unread x0) (harg3.unread x1) (k0_pay3, k0_pay4) ⟨k, by rw [trips_eq]; exact hk'⟩
    have ht := trip_apply c i arg2 harg2 arg3 harg3 arg4 harg4 arg5 harg5 x0 x1 k hk' (st_k0_t1 (F := Ideal) Variants.none c none i arg2 harg2 arg3 harg3 arg4 harg4 arg5 harg5 (harg2.unread x0) (harg3.unread x1) (k0_pay3, k0_pay4) k) r n
    rw [Finset.sum_range_succ, Finset.sum_range_succ, ← ih.1, ← ih.2]
    exact ⟨(congrArg (fun p => p.1 (ix2 r n)) hs).trans ht.1, (congrArg (fun p => p.2 (ix2 r n)) hs).trans ht.2⟩

/-- The whole tile's contribution to the counts at (r, n). -/
def tileC (x1 : Vec Ideal S32x8192 .f32) (r : Fin 32) (n : Fin 128) : EReal := ∑ k ∈ Finset.range 64, chunkC x1 r n k
/-- The whole tile's contribution to the loss sums at (r, n). -/
def tileL (x0 x1 : Vec Ideal S32x8192 .f32) (r : Fin 32) (n : Fin 128) : EReal := ∑ k ∈ Finset.range 64, chunkL x0 x1 r n k

theorem loopOut_apply (c : Dev nD) (i : grid0.Coords) (arg2 : Memref sig .tc .vmem S32x8192 .f32) (harg2 : arg2.IsWhole) (arg3 : Memref sig .tc .vmem S32x8192 .f32) (harg3 : arg3.IsWhole) (arg4 : Memref sig .tc .vmem S32x128 .f32) (harg4 : arg4.IsWhole) (arg5 : Memref sig .tc .vmem S32x128 .f32) (harg5 : arg5.IsWhole) (x0 x1 : Vec Ideal S32x8192 .f32) (r : Fin 32) (n : Fin 128) :
    (loopOut c i arg2 harg2 arg3 harg3 arg4 harg4 arg5 harg5 x0 x1).1 (ix2 r n) = tileC x1 r n ∧ (loopOut c i arg2 harg2 arg3 harg3 arg4 harg4 arg5 harg5 x0 x1).2 (ix2 r n) = tileL x0 x1 r n := by
  have h64 : Scf.trips (0#32) (Scalar.addi 0#32 64#32) 1#32 = 64 := trips_eq
  unfold loopOut tileC tileL
  rw [h64]
  exact st_apply c i arg2 harg2 arg3 harg3 arg4 harg4 arg5 harg5 x0 x1 r n 64 (le_refl _)

/-- A first column tile leaves the tile's totals. -/
theorem leftFirst_apply (c : Dev nD) (i : grid0.Coords) (arg2 : Memref sig .tc .vmem S32x8192 .f32) (harg2 : arg2.IsWhole) (arg3 : Memref sig .tc .vmem S32x8192 .f32) (harg3 : arg3.IsWhole) (arg4 : Memref sig .tc .vmem S32x128 .f32) (harg4 : arg4.IsWhole) (arg5 : Memref sig .tc .vmem S32x128 .f32) (harg5 : arg5.IsWhole) (hc : firstCol i) (x0 x1 : Vec Ideal S32x8192 .f32) (r : Fin 32) (n : Fin 128) :
    (leftFirst c i arg2 harg2 arg3 harg3 arg4 harg4 arg5 harg5 hc x0 x1).1 (ix2 r n) = tileC x1 r n ∧ (leftFirst c i arg2 harg2 arg3 harg3 arg4 harg4 arg5 harg5 hc x0 x1).2 (ix2 r n) = tileL x0 x1 r n := by
  rw [leftFirst_eq]
  have h := loopOut_apply c i arg2 harg2 arg3 harg3 arg4 harg4 arg5 harg5 x0 x1 r n
  constructor
  · show k0_pay9 (F := Ideal) _ _ (ix2 r n) = _
    rw [pay9_apply, pay1_apply, zero_add]; exact h.1
  · show k0_pay10 (F := Ideal) _ _ (ix2 r n) = _
    rw [pay10_apply, pay2_apply, zero_add]; exact h.2

/-- A later column tile adds the tile's totals to what was there. -/
theorem leftLater_apply (c : Dev nD) (i : grid0.Coords) (arg2 : Memref sig .tc .vmem S32x8192 .f32) (harg2 : arg2.IsWhole) (arg3 : Memref sig .tc .vmem S32x8192 .f32) (harg3 : arg3.IsWhole) (arg4 : Memref sig .tc .vmem S32x128 .f32) (harg4 : arg4.IsWhole) (arg5 : Memref sig .tc .vmem S32x128 .f32) (harg5 : arg5.IsWhole) (hc : ¬firstCol i) (x0 x1 : Vec Ideal S32x8192 .f32) (a2 a3 : Vec Ideal S32x128 .f32) (r : Fin 32) (n : Fin 128) :
    (leftLater c i arg2 harg2 arg3 harg3 arg4 harg4 arg5 harg5 hc x0 x1 a2 a3).1 (ix2 r n) = a2 (ix2 r n) + tileC x1 r n
    ∧ (leftLater c i arg2 harg2 arg3 harg3 arg4 harg4 arg5 harg5 hc x0 x1 a2 a3).2 (ix2 r n) = a3 (ix2 r n) + tileL x0 x1 r n := by
  rw [leftLater_eq]
  have h := loopOut_apply c i arg2 harg2 arg3 harg3 arg4 harg4 arg5 harg5 x0 x1 r n
  constructor
  · show k0_pay9 (F := Ideal) _ _ (ix2 r n) = _
    rw [pay9_apply, h.1]
  · show k0_pay10 (F := Ideal) _ _ (ix2 r n) = _
    rw [pay10_apply, h.2]

/-! ## Over the column tiles of a row tile -/

variable (m : (ℓ : Loc nD τ sig) → Buf (Elt Ideal) ℓ)

/-- Point u's contribution to the counts at (r, n); zero past the grid. -/
def pointC (c : Dev nD) (r : Fin 32) (n : Fin 128) (u : ℕ) : EReal :=
  if h : u < cfg0.N then tileC (iblk m c 1 ⟨u, h⟩) r n else 0
/-- Point u's contribution to the loss sums at (r, n). -/
def pointL (c : Dev nD) (r : Fin 32) (n : Fin 128) (u : ℕ) : EReal :=
  if h : u < cfg0.N then tileL (iblk m c 0 ⟨u, h⟩) (iblk m c 1 ⟨u, h⟩) r n else 0

/-- After point u = 64 q + j the accumulator blocks hold the sum of the contributions of points 64 q … 64 q + j. -/
theorem accAt_apply (c : Dev nD) (r : Fin 32) (n : Fin 128) : ∀ (u : ℕ) (hu : u < cfg0.N),
    (accAt m c u hu).1 (ix2 r n) = ∑ s ∈ Finset.range (u % 64 + 1), pointC m c r n (u - u % 64 + s)
    ∧ (accAt m c u hu).2 (ix2 r n) = ∑ s ∈ Finset.range (u % 64 + 1), pointL m c r n (u - u % 64 + s)
  | 0, hu => by
    rw [accAt_first m c ⟨0, hu⟩ rfl]
    have h := leftFirst_apply c (grid0.coords ⟨0, hu⟩) (ms0 ⟨0, hu⟩) (hs0 ⟨0, hu⟩) (ms1 ⟨0, hu⟩) (hs1 ⟨0, hu⟩) (ms2 ⟨0, hu⟩) (hs2 ⟨0, hu⟩) (ms3 ⟨0, hu⟩) (hs3 ⟨0, hu⟩) ((firstCol_iff ⟨0, hu⟩).mpr (Nat.zero_mod _)) (iblk m c 0 ⟨0, hu⟩) (iblk m c 1 ⟨0, hu⟩) r n
    simp only [Nat.zero_mod, Nat.sub_self, Nat.zero_add, Finset.sum_range_one]
    unfold pointC pointL
    rw [dif_pos hu, dif_pos hu]
    exact h
  | u + 1, hu => by
    by_cases h0 : (u + 1) % 64 = 0
    · have hR : ∀ f : ℕ → EReal, ∑ s ∈ Finset.range ((u + 1) % 64 + 1), f (u + 1 - (u + 1) % 64 + s) = f (u + 1) := by
        intro f; rw [h0, Nat.sub_zero, Nat.zero_add, Finset.sum_range_one, Nat.add_zero]
      rw [accAt_first m c ⟨u + 1, hu⟩ h0, hR (pointC m c r n), hR (pointL m c r n)]
      have h := leftFirst_apply c (grid0.coords ⟨u + 1, hu⟩) (ms0 ⟨u + 1, hu⟩) (hs0 ⟨u + 1, hu⟩) (ms1 ⟨u + 1, hu⟩) (hs1 ⟨u + 1, hu⟩) (ms2 ⟨u + 1, hu⟩) (hs2 ⟨u + 1, hu⟩) (ms3 ⟨u + 1, hu⟩) (hs3 ⟨u + 1, hu⟩) ((firstCol_iff ⟨u + 1, hu⟩).mpr h0) (iblk m c 0 ⟨u + 1, hu⟩) (iblk m c 1 ⟨u + 1, hu⟩) r n
      unfold pointC pointL
      rw [dif_pos hu, dif_pos hu]
      exact h
    · have e1 : (u + 1) % 64 = u % 64 + 1 := by omega
      have e2 : u + 1 - (u + 1) % 64 = u - u % 64 := by omega
      have e3 : u - u % 64 + (u % 64 + 1) = u + 1 := by omega
      have hR : ∀ f : ℕ → EReal, ∑ s ∈ Finset.range ((u + 1) % 64 + 1), f (u + 1 - (u + 1) % 64 + s)
          = (∑ s ∈ Finset.range (u % 64 + 1), f (u - u % 64 + s)) + f (u + 1) := by
        intro f; rw [e2, e1, Finset.sum_range_succ _ (u % 64 + 1), e3]
      have ih := accAt_apply c r n u (Nat.lt_of_succ_lt hu)
      have h := leftLater_apply c (grid0.coords ⟨u + 1, hu⟩) (ms0 ⟨u + 1, hu⟩) (hs0 ⟨u + 1, hu⟩) (ms1 ⟨u + 1, hu⟩) (hs1 ⟨u + 1, hu⟩) (ms2 ⟨u + 1, hu⟩) (hs2 ⟨u + 1, hu⟩) (ms3 ⟨u + 1, hu⟩) (hs3 ⟨u + 1, hu⟩) (fun h => h0 ((firstCol_iff ⟨u + 1, hu⟩).mp h)) (iblk m c 0 ⟨u + 1, hu⟩) (iblk m c 1 ⟨u + 1, hu⟩)
        (accAt m c u (Nat.lt_of_succ_lt hu)).1 (accAt m c u (Nat.lt_of_succ_lt hu)).2 r n
      have hp : pointC m c r n (u + 1) = tileC (iblk m c 1 ⟨u + 1, hu⟩) r n := by unfold pointC; rw [dif_pos hu]
      have hq : pointL m c r n (u + 1) = tileL (iblk m c 0 ⟨u + 1, hu⟩) (iblk m c 1 ⟨u + 1, hu⟩) r n := by unfold pointL; rw [dif_pos hu]
      rw [accAt_later m c ⟨u + 1, hu⟩ h0, hR (pointC m c r n), hR (pointL m c r n), ← ih.1, ← ih.2, hp, hq]
      exact h

end Cert.KernelIdeal.Hist

end
-- ==== Proof.KIArrays.lean ====
/-
  From the accumulator blocks to the two result arrays of the histogram kernel, over the extended reals.

  Row tile q's accumulator blocks are written back once, after its last column tile (point 64 q + 63), to rows
  32 q … 32 q + 31 of the [64, 128] arrays.  Entry (b, n) of the counts array is therefore the number of the 524288
  samples of row b whose bin is n, walked as 64 column tiles of 64 chunks of 128 lanes; the loss-sum array likewise.
-/
import proofs.«148309_j60421599920187_2_alg».proof.Proof.KIValueB
import Idealize.ShloMosaic.Lib.StableHlo.Run

set_option maxRecDepth 16384

noncomputable section

open scoped BigOperators

namespace Cert.KernelIdeal.Hist

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat)
open Cert.HistSpec (sqErr)

variable (m : (ℓ : Loc nD τ sig) → Buf (Elt Ideal) ℓ)

/-- Point t = 64 q + j: the input windows are at block (q, j), the accumulator windows at block (q, 0). -/
theorem idx_facts : ∀ t : Fin cfg0.N,
    win0_0.index t (0 : Fin 2) = t.val / 64 ∧ win0_0.index t (1 : Fin 2) = t.val % 64
    ∧ win0_1.index t (0 : Fin 2) = t.val / 64 ∧ win0_1.index t (1 : Fin 2) = t.val % 64
    ∧ win0_2.index t (0 : Fin 2) = t.val / 64 ∧ win0_2.index t (1 : Fin 2) = 0
    ∧ win0_3.index t (0 : Fin 2) = t.val / 64 ∧ win0_3.index t (1 : Fin 2) = 0 :=
  (by decide +kernel : ∀ t : Fin grid0.N, _)

/-- The kernel's two operands are the arguments with the unit axis dropped. -/
theorem V_v0 (c : Dev nD) : (V m c main_v0 : S64x524288.Idx → EReal)
    = shapeCast S64x524288 (m ((c : Thread nD τ).loc main_arg0)) shapeCasts_S64x524288x1_S64x524288 := by
  show StableHlo.after hostOps0 (fun b => m (c, b)) (Proc.devRef .tc main_v0) = _
  after_results
  rfl
theorem V_v1 (c : Dev nD) : (V m c main_v1 : S64x524288.Idx → EReal)
    = shapeCast S64x524288 (m ((c : Thread nD τ).loc main_arg1)) shapeCasts_S64x524288x1_S64x524288 := by
  show StableHlo.after hostOps0 (fun b => m (c, b)) (Proc.devRef .tc main_v1) = _
  after_results
  rfl

theorem V_v0_apply (c : Dev nD) (b : Fin 64) (q : Fin 524288) :
    V m c main_v0 (ix2 b q) = m ((c : Thread nD τ).loc main_arg0) (ix3 b q (0 : Fin 1)) := by
  rw [V_v0]
  exact shapeCast_apply _ _ (ix2 b q) (ix3 b q (0 : Fin 1)) (by
    rw [Shape.rowMajor_val_two, Shape.rowMajor_val_three]
    show (b.val * 524288 + q.val) * 1 + 0 = b.val * 524288 + q.val
    omega)
theorem V_v1_apply (c : Dev nD) (b : Fin 64) (q : Fin 524288) :
    V m c main_v1 (ix2 b q) = m ((c : Thread nD τ).loc main_arg1) (ix3 b q (0 : Fin 1)) := by
  rw [V_v1]
  exact shapeCast_apply _ _ (ix2 b q) (ix3 b q (0 : Fin 1)) (by
    rw [Shape.rowMajor_val_two, Shape.rowMajor_val_three]
    show (b.val * 524288 + q.val) * 1 + 0 = b.val * 524288 + q.val
    omega)

/-- Entry (r, q) of an input block at point t is entry (32 (t / 64) + r, 8192 (t % 64) + q) of its array. -/
theorem iblk0_apply (c : Dev nD) (t : Fin cfg0.N) (r : Fin 32) (q : Fin 8192)
    (hb : 32 * (t.val / 64) + r.val < 64) (hq : 8192 * (t.val % 64) + q.val < 524288) :
    iblk m c 0 t (ix2 r q) = V m c main_v0 (ix2 ⟨32 * (t.val / 64) + r.val, hb⟩ ⟨8192 * (t.val % 64) + q.val, hq⟩) := by
  unfold iblk
  show V m c main_v0 (((cfg0.win 0).blk t).view.emb (ix2 r q)) = _
  refine congrArg (V m c main_v0) (funext fun a => Fin.ext ?_)
  obtain ⟨e0, e1, -⟩ := idx_facts t
  match a with
  | ⟨0, _⟩ => show win0_0.index t (0 : Fin 2) * 32 + 1 * r.val = 32 * (t.val / 64) + r.val; omega
  | ⟨1, _⟩ => show win0_0.index t (1 : Fin 2) * 8192 + 1 * q.val = 8192 * (t.val % 64) + q.val; omega
theorem iblk1_apply (c : Dev nD) (t : Fin cfg0.N) (r : Fin 32) (q : Fin 8192)
    (hb : 32 * (t.val / 64) + r.val < 64) (hq : 8192 * (t.val % 64) + q.val < 524288) :
    iblk m c 1 t (ix2 r q) = V m c main_v1 (ix2 ⟨32 * (t.val / 64) + r.val, hb⟩ ⟨8192 * (t.val % 64) + q.val, hq⟩) := by
  unfold iblk
  show V m c main_v1 (((cfg0.win 1).blk t).view.emb (ix2 r q)) = _
  refine congrArg (V m c main_v1) (funext fun a => Fin.ext ?_)
  obtain ⟨-, -, e0, e1, -⟩ := idx_facts t
  match a with
  | ⟨0, _⟩ => show win0_1.index t (0 : Fin 2) * 32 + 1 * r.val = 32 * (t.val / 64) + r.val; omega
  | ⟨1, _⟩ => show win0_1.index t (1 : Fin 2) * 8192 + 1 * q.val = 8192 * (t.val % 64) + q.val; omega

/-! ## The two result arrays -/

/-- The counts array: entry (b, n) sums the contributions of the 64 points of row b's row tile. -/
def arrC (c : Dev nD) : S64x128.Idx → EReal := fun i =>
  ∑ s ∈ Finset.range 64, pointC m c ⟨(i 0).val % 32, Nat.mod_lt _ (by decide)⟩ (i 1) (64 * ((i 0).val / 32) + s)
/-- The loss-sum array. -/
def arrL (c : Dev nD) : S64x128.Idx → EReal := fun i =>
  ∑ s ∈ Finset.range 64, pointL m c ⟨(i 0).val % 32, Nat.mod_lt _ (by decide)⟩ (i 1) (64 * ((i 0).val / 32) + s)

/-- What a row tile's last point writes back is that row tile's block of the array. -/
theorem flushedC_eq (c : Dev nD) (t : Fin cfg0.N) (hf : (cfg0.win 2).flush t = true) :
    (dats m 0 c).flushed 2 t = ((cfg0.win 2).blk t).view.read (Elt Ideal) (arrC m c) := by
  have hN : t.val < 128 := lt_of_lt_of_eq t.isLt (show cfg0.N = 128 from N_0)
  have h63 : t.val % 64 = 63 := (flush0_2 t).mp hf
  show (cfg0.win 2).cut (grid0.coords t) ((dats m 0 c).after 2 t) = _
  rw [after_2]
  funext y
  obtain ⟨r, n, rfl⟩ : ∃ (r : Fin 32) (n : Fin 128), y = ix2 r n := ⟨y 0, y 1, eq_ix2 y⟩
  show (accAt m c t.val t.isLt).1 (ix2 r n) = arrC m c (((cfg0.win 2).blk t).view.emb (ix2 r n))
  rw [(accAt_apply m c r n t.val t.isLt).1, h63]
  obtain ⟨-, -, -, -, e0, e1, -⟩ := idx_facts t
  have hy0 : ((((cfg0.win 2).blk t).view.emb (ix2 r n)) 0).val = 32 * (t.val / 64) + r.val := by
    show win0_2.index t (0 : Fin 2) * 32 + 1 * r.val = _; omega
  have hy1 : (((cfg0.win 2).blk t).view.emb (ix2 r n)) 1 = n := by
    apply Fin.ext; show win0_2.index t (1 : Fin 2) * 128 + 1 * n.val = n.val; omega
  unfold arrC
  have hr : (⟨((((cfg0.win 2).blk t).view.emb (ix2 r n)) 0).val % 32, Nat.mod_lt _ (by decide)⟩ : Fin 32) = r := by
    apply Fin.ext; show ((((cfg0.win 2).blk t).view.emb (ix2 r n)) 0).val % 32 = r.val; rw [hy0]; have := r.isLt; omega
  rw [hr, hy1, hy0]
  refine Finset.sum_congr rfl fun s _ => ?_
  have := r.isLt
  congr 1
  omega
theorem flushedL_eq (c : Dev nD) (t : Fin cfg0.N) (hf : (cfg0.win 3).flush t = true) :
    (dats m 0 c).flushed 3 t = ((cfg0.win 3).blk t).view.read (Elt Ideal) (arrL m c) := by
  have hN : t.val < 128 := lt_of_lt_of_eq t.isLt (show cfg0.N = 128 from N_0)
  have h63 : t.val % 64 = 63 := (flush0_3 t).mp hf
  show (cfg0.win 3).cut (grid0.coords t) ((dats m 0 c).after 3 t) = _
  rw [after_3]
  funext y
  obtain ⟨r, n, rfl⟩ : ∃ (r : Fin 32) (n : Fin 128), y = ix2 r n := ⟨y 0, y 1, eq_ix2 y⟩
  show (accAt m c t.val t.isLt).2 (ix2 r n) = arrL m c (((cfg0.win 3).blk t).view.emb (ix2 r n))
  rw [(accAt_apply m c r n t.val t.isLt).2, h63]
  obtain ⟨-, -, -, -, -, -, e0, e1⟩ := idx_facts t
  have hy0 : ((((cfg0.win 3).blk t).view.emb (ix2 r n)) 0).val = 32 * (t.val / 64) + r.val := by
    show win0_3.index t (0 : Fin 2) * 32 + 1 * r.val = _; omega
  have hy1 : (((cfg0.win 3).blk t).view.emb (ix2 r n)) 1 = n := by
    apply Fin.ext; show win0_3.index t (1 : Fin 2) * 128 + 1 * n.val = n.val; omega
  unfold arrL
  have hr : (⟨((((cfg0.win 3).blk t).view.emb (ix2 r n)) 0).val % 32, Nat.mod_lt _ (by decide)⟩ : Fin 32) = r := by
    apply Fin.ext; show ((((cfg0.win 3).blk t).view.emb (ix2 r n)) 0).val % 32 = r.val; rw [hy0]; have := r.isLt; omega
  rw [hr, hy1, hy0]
  refine Finset.sum_congr rfl fun s _ => ?_
  have := r.isLt
  congr 1
  omega

/-- Every entry of the [64, 128] arrays is in the block some row tile's last point writes back. -/
theorem coverC (i : S64x128.Idx) : ∃ t : Fin cfg0.N, (cfg0.win 2).flush t = true ∧ i ∈ ((cfg0.win 2).blk t).view.set := by
  have hi0 : (i 0).val < 64 := (i 0).isLt
  have hi1 : (i 1).val < 128 := (i 1).isLt
  have ht : 64 * ((i 0).val / 32) + 63 < cfg0.N := by rw [show cfg0.N = 128 from N_0]; omega
  refine ⟨⟨64 * ((i 0).val / 32) + 63, ht⟩, (flush0_2 _).mpr (by show (64 * ((i 0).val / 32) + 63) % 64 = 63; omega), ?_⟩
  show i ∈ ((View.whole main_v2_0).slice (win0_2.rect ⟨64 * ((i 0).val / 32) + 63, ht⟩)).set
  rw [View.set_slice_whole, Rect.mem_set_unit]
  obtain ⟨-, -, -, -, e0, e1, -⟩ := idx_facts ⟨64 * ((i 0).val / 32) + 63, ht⟩
  intro a
  match a with
  | ⟨0, _⟩ =>
    show win0_2.index _ (0 : Fin 2) * 32 ≤ (i 0).val ∧ (i 0).val < win0_2.index _ (0 : Fin 2) * 32 + 32
    rw [e0]; show (64 * ((i 0).val / 32) + 63) / 64 * 32 ≤ (i 0).val ∧ (i 0).val < (64 * ((i 0).val / 32) + 63) / 64 * 32 + 32; omega
  | ⟨1, _⟩ =>
    show win0_2.index _ (1 : Fin 2) * 128 ≤ (i 1).val ∧ (i 1).val < win0_2.index _ (1 : Fin 2) * 128 + 128
    rw [e1]; omega
theorem coverL (i : S64x128.Idx) : ∃ t : Fin cfg0.N, (cfg0.win 3).flush t = true ∧ i ∈ ((cfg0.win 3).blk t).view.set := by
  have hi0 : (i 0).val < 64 := (i 0).isLt
  have hi1 : (i 1).val < 128 := (i 1).isLt
  have ht : 64 * ((i 0).val / 32) + 63 < cfg0.N := by rw [show cfg0.N = 128 from N_0]; omega
  refine ⟨⟨64 * ((i 0).val / 32) + 63, ht⟩, (flush0_3 _).mpr (by show (64 * ((i 0).val / 32) + 63) % 64 = 63; omega), ?_⟩
  show i ∈ ((View.whole main_v2_1).slice (win0_3.rect ⟨64 * ((i 0).val / 32) + 63, ht⟩)).set
  rw [View.set_slice_whole, Rect.mem_set_unit]
  obtain ⟨-, -, -, -, -, -, e0, e1⟩ := idx_facts ⟨64 * ((i 0).val / 32) + 63, ht⟩
  intro a
  match a with
  | ⟨0, _⟩ =>
    show win0_3.index _ (0 : Fin 2) * 32 ≤ (i 0).val ∧ (i 0).val < win0_3.index _ (0 : Fin 2) * 32 + 32
    rw [e0]; show (64 * ((i 0).val / 32) + 63) / 64 * 32 ≤ (i 0).val ∧ (i 0).val < (64 * ((i 0).val / 32) + 63) / 64 * 32 + 32; omega
  | ⟨1, _⟩ =>
    show win0_3.index _ (1 : Fin 2) * 128 ≤ (i 1).val ∧ (i 1).val < win0_3.index _ (1 : Fin 2) * 128 + 128
    rw [e1]; omega

/-- The two arrays after the run. -/
theorem finalC (c : Dev nD) : (dats m 0 c).arrAt 2 cfg0.N = arrC m c :=
  (dats m 0 c).arrAt_eq_of_cover 2 (arrC m c) (flushedC_eq m c) (coverC)
theorem finalL (c : Dev nD) : (dats m 0 c).arrAt 3 cfg0.N = arrL m c :=
  (dats m 0 c).arrAt_eq_of_cover 3 (arrL m c) (flushedL_eq m c) (coverL)

end Cert.KernelIdeal.Hist

end
-- ==== Proof.HistReindex.lean ====
/-
  The loss arranged by bins does not depend on how a row's samples are numbered: along a bijection of the sample index
  type every count and every loss sum is the same sum re-indexed.  The kernel walks a row's 524288 samples as
  64 column tiles of 64 chunks of 128 lanes; `tileEquiv` is that numbering.
-/
import proofs.«148309_j60421599920187_2_alg».proof.Proof.HistSpec

noncomputable section

open scoped BigOperators

namespace Cert.HistSpec

variable {B T T' : Type} [Fintype B] [Fintype T] [Fintype T']

theorem cnt_comp_equiv (e : T' ≃ T) (d : B → T → Fin 64) (b : B) (n : Fin 64) :
    cnt (fun b t' => d b (e t')) b n = cnt d b n := by
  unfold cnt
  exact Equiv.sum_comp e (fun t => if d b t = n then (1 : EReal) else 0)

theorem lsum_comp_equiv (e : T' ≃ T) (d : B → T → Fin 64) (ℓ : B → T → EReal) (b : B) (n : Fin 64) :
    lsum (fun b t' => d b (e t')) (fun b t' => ℓ b (e t')) b n = lsum d ℓ b n := by
  unfold lsum
  exact Equiv.sum_comp e (fun t => ℓ b t * (if d b t = n then (1 : EReal) else 0))

/-- Re-numbering the samples leaves the loss arranged by bins unchanged. -/
theorem byBins_comp_equiv (e : T' ≃ T) (d : B → T → Fin 64) (ℓ : B → T → EReal) :
    byBins (fun b t' => d b (e t')) (fun b t' => ℓ b (e t')) = byBins d ℓ := by
  unfold byBins
  simp only [cnt_comp_equiv, lsum_comp_equiv]

/-- Sample (a, k, l) — column tile a, chunk k, lane l — is sample 8192 a + 128 k + l of the row. -/
def tileEquiv : Fin 64 × Fin 64 × Fin 128 ≃ Fin 524288 where
  toFun p := ⟨8192 * p.1.val + 128 * p.2.1.val + p.2.2.val, by
    have h1 := p.1.isLt; have h2 := p.2.1.isLt; have h3 := p.2.2.isLt; omega⟩
  invFun t := (⟨t.val / 8192, by have := t.isLt; omega⟩, ⟨t.val % 8192 / 128, by have := t.isLt; omega⟩, ⟨t.val % 128, by omega⟩)
  left_inv p := by
    obtain ⟨a, k, l⟩ := p
    have h1 := a.isLt; have h2 := k.isLt; have h3 := l.isLt
    refine Prod.ext (Fin.ext ?_) (Prod.ext (Fin.ext ?_) (Fin.ext ?_)) <;> simp only <;> omega
  right_inv t := by
    apply Fin.ext
    simp only
    have := t.isLt
    omega

theorem tileEquiv_val (a k : Fin 64) (l : Fin 128) : (tileEquiv (a, k, l)).val = 8192 * a.val + 128 * k.val + l.val := rfl

end Cert.HistSpec

end
-- ==== Proof.KICount.lean ====
/-
  The histogram kernel's two result arrays are the per-(row, bin) occupancy counts and loss sums of the specification,
  with a row's samples numbered (column tile, chunk, lane).
-/
import proofs.«148309_j60421599920187_2_alg».proof.Proof.KIArrays
import proofs.«148309_j60421599920187_2_alg».proof.Proof.HistReindex

set_option maxRecDepth 16384

noncomputable section

open scoped BigOperators

namespace Cert.KernelIdeal.Hist

open Cert.KernelIdeal Cert.KernelIdeal.Gen Idealize.ShloMosaic Idealize.ShloMosaic.TcCoe Idealize.ShloMosaic.ValueIdx
open Idealize.SL.Sem
open Cert.HistSpec (sqErr bin cnt lsum tileEquiv)

variable (m : (ℓ : Loc nD τ sig) → Buf (Elt Ideal) ℓ)

theorem ix2_congr {n0 n1 : ℕ} {a a' : Fin n0} {b b' : Fin n1} (h1 : a.val = a'.val) (h2 : b.val = b'.val) :
    (ix2 a b : (⟨2, ![n0, n1]⟩ : Shape).Idx) = ix2 a' b' := by
  obtain rfl := Fin.ext h1; obtain rfl := Fin.ext h2; rfl

/-- The bins and losses of the samples, from the two argument arrays (x0 predictions, x1 targets). -/
def binsOf (x1 : S64x524288x1.Idx → EReal) : Fin 64 → Fin 524288 → Fin 64 := fun b t => bin (x1 (ix3 b t (0 : Fin 1)))
def lossOf (x0 x1 : S64x524288x1.Idx → EReal) : Fin 64 → Fin 524288 → EReal :=
  fun b t => sqErr (x0 (ix3 b t (0 : Fin 1))) (x1 (ix3 b t (0 : Fin 1)))

/-- Lane l of chunk k of row b % 32 of the target block at point 64 (b / 32) + a is target (b, 8192 a + 128 k + l). -/
theorem target_entry (c : Dev nD) (b a k : Fin 64) (l : Fin 128) (hu : 64 * (b.val / 32) + a.val < cfg0.N)
    (hr : b.val % 32 < 32) (hq : 128 * k.val + l.val < 8192) :
    iblk m c 1 ⟨64 * (b.val / 32) + a.val, hu⟩ (ix2 ⟨b.val % 32, hr⟩ ⟨128 * k.val + l.val, hq⟩)
      = m ((c : Thread nD τ).loc main_arg1) (ix3 b (tileEquiv (a, k, l)) (0 : Fin 1)) := by
  have hb := b.isLt; have ha := a.isLt; have hk := k.isLt; have hl := l.isLt
  refine (iblk1_apply m c ⟨64 * (b.val / 32) + a.val, hu⟩ ⟨b.val % 32, hr⟩ ⟨128 * k.val + l.val, hq⟩
    (by show 32 * ((64 * (b.val / 32) + a.val) / 64) + b.val % 32 < 64; omega)
    (by show 8192 * ((64 * (b.val / 32) + a.val) % 64) + (128 * k.val + l.val) < 524288; omega)).trans
    ((congrArg _ (ix2_congr ?_ ?_)).trans (V_v1_apply m c b (tileEquiv (a, k, l))))
  · show 32 * ((64 * (b.val / 32) + a.val) / 64) + b.val % 32 = b.val; omega
  · show 8192 * ((64 * (b.val / 32) + a.val) % 64) + (128 * k.val + l.val) = 8192 * a.val + 128 * k.val + l.val; omega
theorem pred_entry (c : Dev nD) (b a k : Fin 64) (l : Fin 128) (hu : 64 * (b.val / 32) + a.val < cfg0.N)
    (hr : b.val % 32 < 32) (hq : 128 * k.val + l.val < 8192) :
    iblk m c 0 ⟨64 * (b.val / 32) + a.val, hu⟩ (ix2 ⟨b.val % 32, hr⟩ ⟨128 * k.val + l.val, hq⟩)
      = m ((c : Thread nD τ).loc main_arg0) (ix3 b (tileEquiv (a, k, l)) (0 : Fin 1)) := by
  have hb := b.isLt; have ha := a.isLt; have hk := k.isLt; have hl := l.isLt
  refine (iblk0_apply m c ⟨64 * (b.val / 32) + a.val, hu⟩ ⟨b.val % 32, hr⟩ ⟨128 * k.val + l.val, hq⟩
    (by show 32 * ((64 * (b.val / 32) + a.val) / 64) + b.val % 32 < 64; omega)
    (by show 8192 * ((64 * (b.val / 32) + a.val) % 64) + (128 * k.val + l.val) < 524288; omega)).trans
    ((congrArg _ (ix2_congr ?_ ?_)).trans (V_v0_apply m c b (tileEquiv (a, k, l))))
  · show 32 * ((64 * (b.val / 32) + a.val) / 64) + b.val % 32 = b.val; omega
  · show 8192 * ((64 * (b.val / 32) + a.val) % 64) + (128 * k.val + l.val) = 8192 * a.val + 128 * k.val + l.val; omega

/-- The one-hot entry at a bin number below 64 is the indicator that the value's bin is that bin. -/
theorem hot_castLE (y : EReal) (n : Fin 64) (h : 64 ≤ 128) : hot y (Fin.castLE h n) = if bin y = n then (1 : EReal) else 0 := by
  unfold hot
  by_cases e : bin y = n
  · rw [if_pos e, if_pos (show (bin y).val = (Fin.castLE h n).val from by rw [e]; rfl)]
  · rw [if_neg e, if_neg (fun (h' : (bin y).val = (Fin.castLE h n).val) => e (Fin.ext h'))]

/-- Entry (b, n) of the counts array, n < 64, is the number of row b's samples in bin n. -/
theorem arrC_eq_cnt (c : Dev nD) (b n : Fin 64) (h : 64 ≤ 128) :
    arrC m c (ix2 b (Fin.castLE h n))
      = cnt (fun b p => binsOf (m ((c : Thread nD τ).loc main_arg1)) b (tileEquiv p)) b n := by
  have hb := b.isLt
  unfold cnt
  rw [Fintype.sum_prod_type]
  unfold arrC
  rw [Finset.sum_range]
  refine Finset.sum_congr rfl fun a _ => ?_
  have ha := a.isLt
  have hu : 64 * (b.val / 32) + a.val < cfg0.N := by rw [show cfg0.N = 128 from N_0]; omega
  rw [Fintype.sum_prod_type]
  show pointC m c ⟨b.val % 32, _⟩ (Fin.castLE h n) (64 * (b.val / 32) + a.val) = _
  unfold pointC
  rw [dif_pos hu]
  unfold tileC
  rw [Finset.sum_range]
  refine Finset.sum_congr rfl fun k _ => ?_
  unfold chunkC
  rw [dif_pos k.isLt]
  refine Finset.sum_congr rfl fun l _ => ?_
  rw [target_entry m c b a k l hu, hot_castLE]
  rfl

/-- Entry (b, n) of the loss-sum array, n < 64, is the sum of the losses of row b's samples in bin n. -/
theorem arrL_eq_lsum (c : Dev nD) (b n : Fin 64) (h : 64 ≤ 128) :
    arrL m c (ix2 b (Fin.castLE h n))
      = lsum (fun b p => binsOf (m ((c : Thread nD τ).loc main_arg1)) b (tileEquiv p))
          (fun b p => lossOf (m ((c : Thread nD τ).loc main_arg0)) (m ((c : Thread nD τ).loc main_arg1)) b (tileEquiv p)) b n := by
  have hb := b.isLt
  unfold lsum
  rw [Fintype.sum_prod_type]
  unfold arrL
  rw [Finset.sum_range]
  refine Finset.sum_congr rfl fun a _ => ?_
  have ha := a.isLt
  have hu : 64 * (b.val / 32) + a.val < cfg0.N := by rw [show cfg0.N = 128 from N_0]; omega
  rw [Fintype.sum_prod_type]
  show pointL m c ⟨b.val % 32, _⟩ (Fin.castLE h n) (64 * (b.val / 32) + a.val) = _
  unfold pointL
  rw [dif_pos hu]
  unfold tileL
  rw [Finset.sum_range]
  refine Finset.sum_congr rfl fun k _ => ?_
  unfold chunkL
  rw [dif_pos k.isLt]
  refine Finset.sum_congr rfl fun l _ => ?_
  rw [target_entry m c b a k l hu, pred_entry m c b a k l hu, hot_castLE]
  rfl

end Cert.KernelIdeal.Hist

end
-- ==== Proof.KITail.lean ====
/-
  The host lines after the kernel, read at the extended reals.

  The kernel leaves two [64, 128] arrays: C, the occupancy counts per (row, bin), and L, the sums of the losses per
  (row, bin); only the columns 0..63 carry bins.  The lines after it take the [0:64, 0:64] corner of both, form the mask
  C > 0, the masked reciprocal  where(C > 0, 1 / C, 0)  and the indicator  where(C > 0, 1, 0),  sum  L * masked reciprocal
  and the indicator over both axes starting from zero, divide the first sum by the second and take the square root.
  Entry by entry the masked reciprocal is HistSpec's invCnt and the indicator is its occ (the words 0x00000000 and
  0x3F800000 are the numbers 0 and 1, the comparison is the order's, a sum started from 0 is the sum), the corner at
  (b, n) is the array at (b, n), and a sum over the index set of a [64, 64] array is the double sum over its two
  coordinates.  So the program's result is  sqrt (sum_b sum_n L(b, n) * invCnt (C(b, n)) / sum_b sum_n occ (C(b, n))):
  tailFn_eq for the function of the two arrays, tail_value for the program's result buffer after the region, whose
  two arrays are output windows 2 and 3 after the last grid point.  No finiteness is needed.
-/
import proofs.«148309_j60421599920187_2_alg».proof.Proof.Gen.KernelIdeal.Frame
import proofs.«148309_j60421599920187_2_alg».proof.Proof.HistSpec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hist

open Cert.KernelIdeal Cert.KernelIdeal.Gen
open Idealize.ShloMosaic Idealize.ShloMosaic.TcCoe Idealize.SL.Sem Idealize.ShloMosaic.StableHlo
open Idealize.ShloMosaic.Pipeline (Dat)
open Idealize.ShloMosaic.ValueIdx
open scoped BigOperators

section Fn

variable {F : FTy → Type} [FloatOps F]

/-- The mask of the occupied bins: the counts' [0:64, 0:64] corner compared with zero. -/
def maskArr (C : (⟨S64x128, .f32⟩ : BufTy).Contents (Elt F)) : (⟨S64x64, .i1⟩ : BufTy).Contents (Elt F) :=
  cmpf CmpFPredicate.ogt (extractStridedSlice S64x64 ![0, 0] C slices_S64x128_S64x64_0_0)
    (broadcastInDim S64x64 ![] bcast_S_S64x64 (constant S_ FTy.f32 0x00000000#32))

/-- The numerator's summands: loss sum times masked reciprocal count. -/
def numArr (C L : (⟨S64x128, .f32⟩ : BufTy).Contents (Elt F)) : (⟨S64x64, .f32⟩ : BufTy).Contents (Elt F) :=
  mulf (extractStridedSlice S64x64 ![0, 0] L slices_S64x128_S64x64_0_0)
    (select (maskArr C)
      (Host.divf (broadcastInDim S64x64 ![] bcast_S_S64x64 (constant S_ FTy.f32 0x3F800000#32))
        (extractStridedSlice S64x64 ![0, 0] C slices_S64x128_S64x64_0_0))
      (broadcastInDim S64x64 ![] bcast_S_S64x64 (id (constant S_ FTy.f32 0x00000000#32))))

/-- The denominator's summands: one for an occupied bin, zero for an empty one. -/
def denArr (C : (⟨S64x128, .f32⟩ : BufTy).Contents (Elt F)) : (⟨S64x64, .f32⟩ : BufTy).Contents (Elt F) :=
  id (select (maskArr C)
    (broadcastInDim S64x64 ![] bcast_S_S64x64 (constant S_ FTy.f32 0x3F800000#32))
    (broadcastInDim S64x64 ![] bcast_S_S64x64 (constant S_ FTy.f32 0x00000000#32)))

/-- The host lines after the kernel, as a function of the kernel's two result arrays
    (C the counts, L the loss sums): sqrt (sum (L * masked 1/C) / sum (mask)). -/
def tailFn (C L : (⟨S64x128, .f32⟩ : BufTy).Contents (Elt F)) : (⟨S_, .f32⟩ : BufTy).Contents (Elt F) :=
  Host.sqrt (Host.divf
    (Host.reduceAdd (numArr C L) (constant S_ FTy.f32 0x00000000#32) reducesTo_S64x64_S_d0_1 h_S_)
    (Host.reduceAdd (denArr C) (constant S_ FTy.f32 0x00000000#32) reducesTo_S64x64_S_d0_1 h_S_))

end Fn

/-- The f32 word 0x3F800000 is the number one. -/
theorem ofBits_one_f32 : Ideal.ofBits .f32 0x3F800000#32 = 1 := by
  simp [Ideal.ofBits, Ideal.ieee]
  rw [← EReal.coe_mul, ← EReal.coe_one, EReal.coe_eq_coe_iff]
  norm_num

/-- The [0:64, 0:64] corner of a [64, 128] array at (b, n) is the array at (b, n). -/
theorem slice_apply {α : Type} (X : S64x128.Idx → α) (b n : Fin 64) :
    extractStridedSlice S64x64 ![0, 0] X slices_S64x128_S64x64_0_0 (ix2 b n)
      = X (ix2 b (Fin.castLE (by decide) n)) :=
  slice2_axis1_apply 0 X slices_S64x128_S64x64_0_0 b n (Fin.castLE (by decide) n) (by simp)

/-- A scalar broadcast over [64, 64] is the scalar at every index. -/
theorem bcast_apply {α : Type} (y : S_.Idx → α) (j : S64x64.Idx) :
    broadcastInDim S64x64 ![] bcast_S_S64x64 y j = y (fun a => a.elim0) :=
  broadcastInDim_apply _ bcast_S_S64x64 y j (fun a => a.elim0) (fun a => a.elim0)

/-- The mask at (b, n): whether the count there is positive. -/
theorem maskArr_apply (C : (⟨S64x128, .f32⟩ : BufTy).Contents (Elt Ideal)) (b n : Fin 64) :
    maskArr (F := Ideal) C (ix2 b n) = BitVec.ofBool (decide ((0 : EReal) < C (ix2 b (Fin.castLE (by decide) n)))) := by
  unfold maskArr cmpf
  rw [slice_apply, bcast_apply]
  simp only [constant, Ideal.ofBits_def, Ideal.ofBits_zero_f32]
  rfl

/-- A select on a decided proposition is the conditional on it. -/
theorem select_ofBool {α : Type} (p : Prop) [Decidable p] (a b : α) :
    Scalar.select (BitVec.ofBool (decide p)) a b = if p then a else b := by
  unfold Scalar.select
  by_cases h : p <;> simp [h]

/-- The numerator's summand at (b, n): the loss sum there times the masked reciprocal of the count there. -/
theorem numArr_apply (C L : (⟨S64x128, .f32⟩ : BufTy).Contents (Elt Ideal)) (b n : Fin 64) :
    numArr (F := Ideal) C L (ix2 b n)
      = L (ix2 b (Fin.castLE (by decide) n)) * Cert.HistSpec.invCnt (C (ix2 b (Fin.castLE (by decide) n))) := by
  unfold numArr mulf select Host.divf
  rw [maskArr_apply, slice_apply, slice_apply, bcast_apply, bcast_apply, select_ofBool]
  simp only [constant, id, Ideal.ofBits_def, Ideal.ofBits_zero_f32, ofBits_one_f32, Ideal.mulf_def, Ideal.hostDivf_def]
  rfl

/-- The denominator's summand at (b, n): the occupancy indicator of the count there. -/
theorem denArr_apply (C : (⟨S64x128, .f32⟩ : BufTy).Contents (Elt Ideal)) (b n : Fin 64) :
    denArr (F := Ideal) C (ix2 b n) = Cert.HistSpec.occ (C (ix2 b (Fin.castLE (by decide) n))) := by
  unfold denArr select
  simp only [id]
  rw [maskArr_apply, bcast_apply, bcast_apply, select_ofBool]
  simp only [constant, Ideal.ofBits_def, Ideal.ofBits_zero_f32, ofBits_one_f32]
  rfl

/-- The host's sum of a [64, 64] array over both axes from zero is the double sum of its entries. -/
theorem reduce_total (X : FVec Ideal S64x64 .f32) (i : S_.Idx) :
    Host.reduceAdd (F := Ideal) X (constant S_ FTy.f32 0x00000000#32) reducesTo_S64x64_S_d0_1 h_S_ i
      = ∑ b : Fin 64, ∑ n : Fin 64, X (ix2 b n) := by
  simp only [Host.reduceAdd, Ideal.hostReduceAdd_def]
  rw [Ideal.hostReduceAdd_total reducesTo_S64x64_S_d0_1 (fun b => b.elim0) X _ i, sum_idx2]
  simp only [constant, Ideal.ofBits_def, Ideal.ofBits_zero_f32, zero_add]

/-- The host lines after the kernel compute the loss arranged by bins from the kernel's two arrays. -/
theorem tailFn_eq (C L : (⟨S64x128, .f32⟩ : BufTy).Contents (Elt Ideal)) :
    tailFn (F := Ideal) C L = fun _ => Ideal.sqrt (Ideal.div
      (∑ b : Fin 64, ∑ n : Fin 64, L (ix2 b (Fin.castLE (by decide) n))
        * Cert.HistSpec.invCnt (C (ix2 b (Fin.castLE (by decide) n))))
      (∑ b : Fin 64, ∑ n : Fin 64, Cert.HistSpec.occ (C (ix2 b (Fin.castLE (by decide) n))))) := by
  funext i
  unfold tailFn Host.sqrt Host.divf
  rw [reduce_total, reduce_total]
  simp only [numArr_apply, denArr_apply, Ideal.hostUnary_sqrt_def, Ideal.hostDivf_def]

section Term

variable {F : FTy → Type} [FloatOps F]

set_option maxHeartbeats 4000000 in
/-- Whatever the region leaves in the arrays, the program's result is the tail function of the two output arrays. -/
theorem tail_term (m : (ℓ : Loc nD τ sig) → Buf (Elt F) ℓ)
    (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4] c main_v16
      = tailFn (F := F)
          (Pipeline.withArrays (cfgs 0).spec c (V0 m c) (fun w => (dats 0 c).arrAt w (cfgs 0).N) (Proc.devRef .tc main_v2_0))
          (Pipeline.withArrays (cfgs 0).spec c (V0 m c) (fun w => (dats 0 c).arrAt w (cfgs 0).N) (Proc.devRef .tc main_v2_1)) := by
  unfold Pipeline.afterTail₀
  generalize Pipeline.withArrays (cfgs 0).spec c (V0 m c) (fun w => (dats 0 c).arrAt w (cfgs 0).N) = W
  simp only [hostOps1, hostOps1_1, hostOps1_2, hostOps1_3, hostOps1_4, List.flatten_cons, List.flatten_nil, List.append_nil, List.cons_append, List.nil_append]
  after_results
  rfl

end Term

section Value

variable {F : FTy → Type} [FloatOps F]

/-- The counts the region leaves on core c: output window 2's array after the last grid point. -/
def outC (dats : (p : Fin 1) → (c : Dev nD) → Dat τ (Elt F) Unit ℕ (UR sig nD τ) ℕ (cfgs p) c) (c : Dev nD) :
    (⟨S64x128, .f32⟩ : BufTy).Contents (Elt F) := (dats 0 c).arrAt 2 cfg0.N

/-- The loss sums the region leaves on core c: output window 3's array after the last grid point. -/
def outL (dats : (p : Fin 1) → (c : Dev nD) → Dat τ (Elt F) Unit ℕ (UR sig nD τ) ℕ (cfgs p) c) (c : Dev nD) :
    (⟨S64x128, .f32⟩ : BufTy).Contents (Elt F) := (dats 0 c).arrAt 3 cfg0.N

theorem outC_def (dats : (p : Fin 1) → (c : Dev nD) → Dat τ (Elt F) Unit ℕ (UR sig nD τ) ℕ (cfgs p) c) (c : Dev nD) :
    outC dats c = (dats 0 c).arrAt 2 cfg0.N := rfl

theorem outL_def (dats : (p : Fin 1) → (c : Dev nD) → Dat τ (Elt F) Unit ℕ (UR sig nD τ) ℕ (cfgs p) c) (c : Dev nD) :
    outL dats c = (dats 0 c).arrAt 3 cfg0.N := rfl

/-- After the region the counts' buffer holds output window 2's array as the last grid point leaves it. -/
theorem W_counts (m : (ℓ : Loc nD τ sig) → Buf (Elt F) ℓ)
    (dats : (p : Fin 1) → (c : Dev nD) → Dat τ (Elt F) Unit ℕ (UR sig nD τ) ℕ (cfgs p) c) (c : Dev nD) :
    Pipeline.withArrays (cfgs 0).spec c (V0 m c) (fun w => (dats 0 c).arrAt w (cfgs 0).N) (Proc.devRef .tc main_v2_0)
      = outC dats c :=
  Pipeline.withArrays_arr spec0 launch0.win.arr_inj c _ _ 2

/-- After the region the loss sums' buffer holds output window 3's array as the last grid point leaves it. -/
theorem W_losses (m : (ℓ : Loc nD τ sig) → Buf (Elt F) ℓ)
    (dats : (p : Fin 1) → (c : Dev nD) → Dat τ (Elt F) Unit ℕ (UR sig nD τ) ℕ (cfgs p) c) (c : Dev nD) :
    Pipeline.withArrays (cfgs 0).spec c (V0 m c) (fun w => (dats 0 c).arrAt w (cfgs 0).N) (Proc.devRef .tc main_v2_1)
      = outL dats c :=
  Pipeline.withArrays_arr spec0 launch0.win.arr_inj c _ _ 3

end Value

/-- The program's result on core c, for any proof data of the region: the loss arranged by bins, read off the
    two output windows' arrays after the last grid point (window 2 the counts, window 3 the loss sums). -/
theorem tail_value (m : (ℓ : Loc nD τ sig) → Buf (Elt Ideal) ℓ)
    (dats : (p : Fin 1) → (c : Dev nD) → Dat τ (Elt Ideal) Unit ℕ (UR sig nD τ) ℕ (cfgs p) c) (c : Dev nD) :
    Pipeline.afterTail₀ cfgs dats 0 (V0 m) [hostOps1, hostOps1_1, hostOps1_2, hostOps1_3, hostOps1_4] c main_v16
      = fun _ => Ideal.sqrt (Ideal.div
          (∑ b : Fin 64, ∑ n : Fin 64, outL dats c (ix2 b (Fin.castLE (by decide) n))
            * Cert.HistSpec.invCnt (outC dats c (ix2 b (Fin.castLE (by decide) n))))
          (∑ b : Fin 64, ∑ n : Fin 64, Cert.HistSpec.occ (outC dats c (ix2 b (Fin.castLE (by decide) n))))) := by
  rw [tail_term, W_counts, W_losses]
  exact tailFn_eq _ _

end Cert.KernelIdeal.Hist
end
-- ==== Proof.KIFinal.lean ====
/-
  The histogram kernel's result: the decade-weighted loss arranged by bins, with the samples numbered as the reference
  numbers them.
-/
import proofs.«148309_j60421599920187_2_alg».proof.Proof.KICount
import proofs.«148309_j60421599920187_2_alg».proof.Proof.KITail

set_option maxRecDepth 16384

noncomputable section

open scoped BigOperators

namespace Cert.KernelIdeal.Hist

open Cert.KernelIdeal Cert.KernelIdeal.Gen Idealize.ShloMosaic Idealize.ShloMosaic.TcCoe Idealize.ShloMosaic.ValueIdx
open Idealize.SL.Sem
open Cert.HistSpec (byBins tileEquiv)

variable (m : (ℓ : Loc nD τ sig) → Buf (Elt Ideal) ℓ)

/-- The program's result on core c: the two arrays the kernel leaves are the specification's counts and loss sums, the
    host lines after it weight and divide them, and re-numbering the samples (column tile, chunk, lane) ↦ sample changes
    nothing. -/
theorem kernel_value (c : Dev nD) :
    Pipeline.afterTail₀ cfgs (dats m) 0 (V0 m) [hostOps1, hostOps1_1, hostOps1_2, hostOps1_3, hostOps1_4] c main_v16
      = fun _ => byBins (B := Fin 64) (T := Fin 524288) (binsOf (m ((c : Thread nD τ).loc main_arg1)))
          (lossOf (m ((c : Thread nD τ).loc main_arg0)) (m ((c : Thread nD τ).loc main_arg1))) := by
  rw [tail_value m (dats m) c]
  funext _
  rw [← Cert.HistSpec.byBins_comp_equiv tileEquiv (binsOf (m ((c : Thread nD τ).loc main_arg1)))
    (lossOf (m ((c : Thread nD τ).loc main_arg0)) (m ((c : Thread nD τ).loc main_arg1)))]
  unfold Cert.HistSpec.byBins
  rw [outC_def, outL_def, finalC, finalL]
  simp only [arrC_eq_cnt, arrL_eq_lsum]

end Cert.KernelIdeal.Hist

end
-- ==== Proof.RefValueScatter.lean ====
/-
  The two index-dependent operations of the reference, read at an index, and the small facts around them.

  The reference builds, for every sample (b, t), the index pair (row word, bin word) by joining two [64, 524288, 1]
  arrays along a new last axis, adds a one into a zeroed [64, 64] table at each pair, and later reads the table of
  reciprocals back at the same pairs.  Here, for arbitrary operands of those shapes:
  the joined array at (b, t, 0) and (b, t, 1) is the first and the second piece at (b, t, 0);
  an update (b, t) lands on the table entry (r, n) exactly when its two index words, read signed, are r and n;
  hence the accumulating scatter at (r, n) is the operand plus the sum over all (b, t) of the updates that land there;
  the gather at (b, t) reads the entry named by the two index words when these are in range;
  a sum over a [n0, n1, 1] index set is the double sum over the first two coordinates.
-/
import proofs.«148309_j60421599920187_2_alg».proof.Proof.Gen.ReferenceIdeal
import Idealize.ShloMosaic.Lib.Pipeline.Value
import Idealize.ShloMosaic.PureOps.Ideal.Laws
import Idealize.ShloMosaic.Lib.ValueIdx

noncomputable section

open scoped BigOperators

namespace Cert.ReferenceIdeal.RefValue

open Cert.ReferenceIdeal Cert.ReferenceIdeal.Gen Idealize.ShloMosaic Idealize.ShloMosaic.ValueIdx

/-! ## Sums over an index set whose last axis has one element -/

/-- An index set [n0, n1, 1] is the product of its first two coordinate ranges … -/
def idxEquiv3u {n0 n1 : Nat} : (⟨3, ![n0, n1, 1]⟩ : Shape).Idx ≃ Fin n0 × Fin n1 where
  toFun i := (i 0, i 1)
  invFun p := ix3 p.1 p.2 (0 : Fin 1)
  left_inv i := by
    funext a
    match a with
    | ⟨0, _⟩ => rfl
    | ⟨1, _⟩ => rfl
    | ⟨2, _⟩ => exact Subsingleton.elim (α := Fin 1) _ _
  right_inv _ := rfl

/-- … so a sum over it is the double sum over those coordinates. -/
theorem sum_idx3u {M : Type*} [AddCommMonoid M] {n0 n1 : Nat} (f : (⟨3, ![n0, n1, 1]⟩ : Shape).Idx → M) :
    ∑ i, f i = ∑ a : Fin n0, ∑ b : Fin n1, f (ix3 a b (0 : Fin 1)) := by
  rw [← Equiv.sum_comp (idxEquiv3u (n0 := n0) (n1 := n1)).symm f, Fintype.sum_prod_type]
  rfl

/-! ## Words -/

/-- A word whose signed value is not negative is not below zero. -/
theorem slt_zero_of_nonneg (w : BitVec 32) (h : 0 ≤ w.toInt) : IntOp.cmpi .slt w 0#32 = 0#1 := by
  have h0 : (0#32 : BitVec 32).toInt = 0 := by decide
  have hs : ¬ (w.slt 0#32 = true) := by
    rw [BitVec.slt_iff_toInt_lt, h0]; omega
  show BitVec.ofBool (w.slt 0#32) = 0#1
  rw [eq_false_of_ne_true hs]
  rfl

/-- The word of a row number below 64 has that number as its signed value. -/
theorem row_word_toInt (b : Fin 64) : (BitVec.ofNat 32 b.val).toInt = (b.val : ℤ) := by
  have hb := b.isLt
  rw [BitVec.toInt_eq_toNat_cond, BitVec.toNat_ofNat]
  have : b.val % 2 ^ 32 = b.val := Nat.mod_eq_of_lt (by omega)
  rw [this, if_pos (by omega)]

/-- The word 0x3F800000 is the real number one. -/
theorem ofBits_one_f32 : Ideal.ofBits .f32 0x3F800000#32 = 1 := by
  simp [Ideal.ofBits, Ideal.ieee]
  rw [← EReal.coe_mul, ← EReal.coe_one, EReal.coe_eq_coe_iff]
  norm_num

/-! ## The joined index array -/

section Concat
variable {α : Type}

/-- The join of two [64, 524288, 1] arrays along a last axis of two reads the first piece where the last coordinate is 0 … -/
theorem concat_at0 (h : Shape.Concatenates [S64x524288x1, S64x524288x1] S64x524288x2 2)
    (x₁ x₂ : S64x524288x1.Idx → α) (b : Fin 64) (t : Fin 524288) :
    concatenate S64x524288x2 2 [⟨S64x524288x1, x₁⟩, ⟨S64x524288x1, x₂⟩] h (ix3 b t (0 : Fin 2)) = x₁ (ix3 b t (0 : Fin 1)) :=
  concatenate_pair_apply_left (2 : Fin S64x524288x2.rank) x₁ x₂ h (ix3 b t (0 : Fin 2)) rfl (ix3 b t (0 : Fin 1))
    (fun a => by match a with | ⟨0, _⟩ => rfl | ⟨1, _⟩ => rfl | ⟨2, _⟩ => rfl)

/-- … and the second piece where it is 1. -/
theorem concat_at1 (h : Shape.Concatenates [S64x524288x1, S64x524288x1] S64x524288x2 2)
    (x₁ x₂ : S64x524288x1.Idx → α) (b : Fin 64) (t : Fin 524288) :
    concatenate S64x524288x2 2 [⟨S64x524288x1, x₁⟩, ⟨S64x524288x1, x₂⟩] h (ix3 b t (1 : Fin 2)) = x₂ (ix3 b t (0 : Fin 1)) :=
  concatenate_pair_apply_right (2 : Fin S64x524288x2.rank) x₁ x₂ h (ix3 b t (1 : Fin 2)) rfl rfl (ix3 b t (0 : Fin 1))
    (fun a ha => by
      match a, ha with
      | ⟨0, _⟩, _ => rfl
      | ⟨1, _⟩, _ => rfl
      | ⟨2, _⟩, ha => exact absurd (Fin.ext rfl) ha)
    rfl

end Concat

/-! ## Where an update lands -/

/-- An update lands on an operand element exactly when, on every axis, the start plus the window coordinate is that
    element's coordinate. -/
theorem resultIdx?_eq_some_iff {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  constructor
  · intro h
    split at h
    · next hall =>
      have hf := Option.some.inj h
      intro a
      have ha := congrArg (fun f => ((f a).val : ℤ)) hf
      have := hall a
      simp only at ha
      omega
    · cases h
  · intro h
    have hall : ∀ a, 0 ≤ d.start j idx a + (d.window j a : ℤ) ∧ d.start j idx a + (d.window j a : ℤ) < s.size a := by
      intro a; rw [h a]; exact ⟨by omega, by exact_mod_cast (i a).isLt⟩
    rw [dif_pos hall]
    refine congrArg some (funext fun a => Fin.ext ?_)
    show (d.start j idx a + ↑(d.window j a)).toNat = (i a).val
    rw [h a]; exact Int.toNat_natCast _

/-- The start of update (b, t) on the table's row axis is its first index word, read signed … -/
theorem scatter_start0 (idx : IVec S64x524288x2 32) (b : Fin 64) (t : Fin 524288) :
    scatter_S64x64_S64x524288x2_S64x524288_n_01_01_2.start (ix2 b t) idx 0 = (idx (ix3 b t (0 : Fin 2))).toInt := by
  unfold ScatterDims.start
  rw [dif_pos (by decide)]
  refine congrArg (fun i => (idx i).toInt) ?_
  funext a; refine Fin.ext ?_
  match a with
  | ⟨0, _⟩ => rfl
  | ⟨1, _⟩ => rfl
  | ⟨2, _⟩ => rfl

/-- … and on the bin axis its second. -/
theorem scatter_start1 (idx : IVec S64x524288x2 32) (b : Fin 64) (t : Fin 524288) :
    scatter_S64x64_S64x524288x2_S64x524288_n_01_01_2.start (ix2 b t) idx 1 = (idx (ix3 b t (1 : Fin 2))).toInt := by
  unfold ScatterDims.start
  rw [dif_pos (by decide)]
  refine congrArg (fun i => (idx i).toInt) ?_
  funext a; refine Fin.ext ?_
  match a with
  | ⟨0, _⟩ => rfl
  | ⟨1, _⟩ => rfl
  | ⟨2, _⟩ => rfl

/-- Both table axes are inserted, so an update has no window coordinate. -/
theorem scatter_window (j : S64x524288.Idx) (a : Fin S64x64.rank) :
    scatter_S64x64_S64x524288x2_S64x524288_n_01_01_2.window j a = 0 := by
  match a with
  | ⟨0, _⟩ => rfl
  | ⟨1, _⟩ => rfl

/-- Update (b, t) lands on table entry (r, n) exactly when its two index words, read signed, are r and n. -/
theorem scatter_hit_iff (idx : IVec S64x524288x2 32) (b : Fin 64) (t : Fin 524288) (r n : Fin 64) :
    scatter_S64x64_S64x524288x2_S64x524288_n_01_01_2.resultIdx? (ix2 b t) idx = some (ix2 r n) ↔
      (idx (ix3 b t (0 : Fin 2))).toInt = (r.val : ℤ) ∧ (idx (ix3 b t (1 : Fin 2))).toInt = (n.val : ℤ) := by
  rw [resultIdx?_eq_some_iff]
  constructor
  · intro h
    have h0 : (idx (ix3 b t (0 : Fin 2))).toInt + ((0 : ℕ) : ℤ) = (r.val : ℤ) := by
      have := h 0; rw [scatter_start0, scatter_window] at this; exact this
    have h1 : (idx (ix3 b t (1 : Fin 2))).toInt + ((0 : ℕ) : ℤ) = (n.val : ℤ) := by
      have := h 1; rw [scatter_start1, scatter_window] at this; exact this
    exact ⟨by omega, by omega⟩
  · rintro ⟨h0, h1⟩ a
    match a with
    | ⟨0, _⟩ =>
      show scatter_S64x64_S64x524288x2_S64x524288_n_01_01_2.start (ix2 b t) idx 0
        + ↑(scatter_S64x64_S64x524288x2_S64x524288_n_01_01_2.window (ix2 b t) 0) = (r.val : ℤ)
      rw [scatter_start0, scatter_window]; omega
    | ⟨1, _⟩ =>
      show scatter_S64x64_S64x524288x2_S64x524288_n_01_01_2.start (ix2 b t) idx 1
        + ↑(scatter_S64x64_S64x524288x2_S64x524288_n_01_01_2.window (ix2 b t) 1) = (n.val : ℤ)
      rw [scatter_start1, scatter_window]; omega

/-- The accumulating scatter at table entry (r, n): the operand there plus the sum, over all (b, t), of the updates
    whose index words are r and n. -/
theorem scatterAdd_at (x : S64x64.Idx → EReal) (idx : IVec S64x524288x2 32) (upd : S64x524288.Idx → EReal) (r n : Fin 64) :
    Ideal.hostScatterAdd scatter_S64x64_S64x524288x2_S64x524288_n_01_01_2 x idx upd (ix2 r n) =
      x (ix2 r n) + ∑ b : Fin 64, ∑ t : Fin 524288,
        if (idx (ix3 b t (0 : Fin 2))).toInt = (r.val : ℤ) ∧ (idx (ix3 b t (1 : Fin 2))).toInt = (n.val : ℤ)
          then upd (ix2 b t) else 0 := by
  unfold Ideal.hostScatterAdd
  rw [Finset.sum_filter, sum_idx2]
  refine congrArg _ (Finset.sum_congr rfl fun b _ => Finset.sum_congr rfl fun t _ => ?_)
  exact if_congr (scatter_hit_iff idx b t r n) rfl rfl

/-! ## What the gather reads -/

/-- The gather's start on the table's row axis for result (b, t): the first index word, read signed and clamped … -/
theorem gather_start0 (idx : IVec S64x524288x2 32) (b : Fin 64) (t : Fin 524288) :
    gather_S64x64_S64x524288x2_S64x524288_n_01_n_n_01_2_11.start (ix2 b t) idx 0
      = min (idx (ix3 b t (0 : Fin 2))).toInt.toNat 63 := by
  unfold GatherDims.start
  rw [dif_pos (by decide)]
  refine congrArg (fun i => min (idx i).toInt.toNat 63) ?_
  funext a; refine Fin.ext ?_
  match a with
  | ⟨0, _⟩ => rfl
  | ⟨1, _⟩ => rfl
  | ⟨2, _⟩ => rfl

/-- … and on the bin axis the second. -/
theorem gather_start1 (idx : IVec S64x524288x2 32) (b : Fin 64) (t : Fin 524288) :
    gather_S64x64_S64x524288x2_S64x524288_n_01_n_n_01_2_11.start (ix2 b t) idx 1
      = min (idx (ix3 b t (1 : Fin 2))).toInt.toNat 63 := by
  unfold GatherDims.start
  rw [dif_pos (by decide)]
  refine congrArg (fun i => min (idx i).toInt.toNat 63) ?_
  funext a; refine Fin.ext ?_
  match a with
  | ⟨0, _⟩ => rfl
  | ⟨1, _⟩ => rfl
  | ⟨2, _⟩ => rfl

/-- The gather at (b, t) reads the table entry its two index words name, when these are row r and bin n below 64. -/
theorem gather_at {α : Type} (x : S64x64.Idx → α) (idx : IVec S64x524288x2 32) (b : Fin 64) (t : Fin 524288) (r n : Fin 64)
    (h0 : (idx (ix3 b t (0 : Fin 2))).toInt = (r.val : ℤ)) (h1 : (idx (ix3 b t (1 : Fin 2))).toInt = (n.val : ℤ)) :
    Host.gather gather_S64x64_S64x524288x2_S64x524288_n_01_n_n_01_2_11 x idx (ix2 b t) = x (ix2 r n) := by
  have hr := r.isLt
  have hn := n.isLt
  unfold Host.gather
  refine congrArg x ?_
  funext a; refine Fin.ext ?_
  match a with
  | ⟨0, _⟩ =>
    show gather_S64x64_S64x524288x2_S64x524288_n_01_n_n_01_2_11.start (ix2 b t) idx 0
      + gather_S64x64_S64x524288x2_S64x524288_n_01_n_n_01_2_11.batchCoord (ix2 b t) 0
      + gather_S64x64_S64x524288x2_S64x524288_n_01_n_n_01_2_11.offCoord (ix2 b t) 0 = r.val
    rw [GatherDims.batchCoord_eq_zero _ _ _ List.not_mem_nil,
      GatherDims.offCoord_eq_zero _ _ _ (fun h => ((GatherDims.mem_sKept _ _).mp h).1 (by decide)),
      gather_start0, h0]
    omega
  | ⟨1, _⟩ =>
    show gather_S64x64_S64x524288x2_S64x524288_n_01_n_n_01_2_11.start (ix2 b t) idx 1
      + gather_S64x64_S64x524288x2_S64x524288_n_01_n_n_01_2_11.batchCoord (ix2 b t) 1
      + gather_S64x64_S64x524288x2_S64x524288_n_01_n_n_01_2_11.offCoord (ix2 b t) 1 = n.val
    rw [GatherDims.batchCoord_eq_zero _ _ _ List.not_mem_nil,
      GatherDims.offCoord_eq_zero _ _ _ (fun h => ((GatherDims.mem_sKept _ _).mp h).1 (by decide)),
      gather_start1, h1]
    omega

end Cert.ReferenceIdeal.RefValue

end
-- ==== Proof.RefValue.lean ====
/-
  The reference program's value as one function of its two arrays.

  Sample (b, t) of the target array falls into the bin  clip(floor(max(|y|, 2^-23)), 0, 63);  the program computes
  that bin as a 32-bit word, pairs it with the row number b, adds a one into a zeroed [64, 64] table at every such
  pair, takes reciprocals, reads them back at the same pairs as the samples' weights, and returns
  sqrt(sum(loss * weight) / sum(weight))  with  loss = (p - y)^2.

  Both words of a pair are in [0, 63] when read signed, so the "negative index" wrap the program applies to them
  changes nothing, every update lands inside the table, and the gather's clamp is the identity.  The table entry
  (b, n) is therefore the number of samples of row b in bin n, the weight of sample (b, t) the reciprocal of the
  occupancy of its own bin, and the two total sums the double sums over rows and samples: the arrangement by samples.
-/
import proofs.«148309_j60421599920187_2_alg».proof.Proof.RefStages
import proofs.«148309_j60421599920187_2_alg».proof.Proof.HistSpec
import proofs.«148309_j60421599920187_2_alg».proof.Proof.RefValueScatter

noncomputable section

open scoped BigOperators

namespace Cert.ReferenceIdeal.RefValue

open Cert.ReferenceIdeal Cert.ReferenceIdeal.Gen Cert.ReferenceIdeal.ReadP Idealize.ShloMosaic Idealize.ShloMosaic.ValueIdx
  Cert.HistSpec

variable (x0 x1 : (⟨S64x524288x1, .f32⟩ : BufTy).Contents (Elt Ideal))

/-! ## The bin word of a sample -/

/-- Dropping the last axis of extent one: element (b, t) of the [64, 524288] array is element (b, t, 0). -/
theorem reshape_idx (b : Fin 64) (t : Fin 524288) : idx_main_v5 (ix2 b t) = ix3 b t (0 : Fin 1) := by
  have hb := b.isLt
  have ht := t.isLt
  funext a; refine Fin.ext ?_
  match a with
  | ⟨0, _⟩ => show (b.val * 524288 + t.val) / 524288 = b.val; omega
  | ⟨1, _⟩ => show (b.val * 524288 + t.val) / 1 % 524288 = t.val; omega
  | ⟨2, _⟩ => rfl

/-- The clipped integer floor of sample (b, t) is the bin word of its target value. -/
theorem binWord_at (b : Fin 64) (t : Fin 524288) :
    val_main_v8 (F := Ideal) x1 (ix2 b t) = binWord (x1 (ix3 b t (0 : Fin 1))) := by
  rw [val_main_v8_apply, val_main_call0_v4_apply, val_main_call0_v3_apply, val_main_c_0_apply,
    val_main_call0_v2_apply, val_main_call0_v1_apply, val_main_call0_v0_apply, val_main_c_apply,
    val_main_v7_apply, val_main_v6_apply, val_main_v5_apply, val_main_v2_apply, val_main_v0_apply,
    val_main_v1_apply, val_main_cst_apply, reshape_idx]
  rfl

/-- The bin word is not negative … -/
theorem binWord_nonneg (y : EReal) : 0 ≤ (binWord y).toInt := by
  rw [binWord_toInt]; exact Int.natCast_nonneg _

/-- … and neither is a row's word. -/
theorem row_word_nonneg (b : Fin 64) : 0 ≤ (BitVec.ofNat 32 b.val).toInt := by
  rw [row_word_toInt]; exact Int.natCast_nonneg _

/-! ## The index pairs: the wrap of negative indices changes nothing -/

/-- The bin index the scatter uses is the bin word. -/
theorem scatBin_at (b : Fin 64) (t : Fin 524288) :
    val_main_v21 (F := Ideal) x1 (ix2 b t) = binWord (x1 (ix3 b t (0 : Fin 1))) := by
  rw [val_main_v21_apply, val_main_v18_apply, val_main_v17_apply, val_main_c_4_apply, binWord_at,
    slt_zero_of_nonneg _ (binWord_nonneg _), select_zero]

/-- The bin index the gather uses is the bin word. -/
theorem gathBin_at (b : Fin 64) (t : Fin 524288) :
    val_main_v39 (F := Ideal) x1 (ix2 b t) = binWord (x1 (ix3 b t (0 : Fin 1))) := by
  rw [val_main_v39_apply, val_main_v36_apply, val_main_v35_apply, val_main_c_10_apply, binWord_at,
    slt_zero_of_nonneg _ (binWord_nonneg _), select_zero]

/-- The row index the scatter uses is the row's word. -/
theorem scatRow_at (b : Fin 64) (t : Fin 524288) :
    val_main_v22 (F := Ideal) (ix2 b t) = BitVec.ofNat 32 b.val := by
  rw [val_main_v22_apply, val_main_v16_apply, val_main_v13_apply, val_main_v12_apply, val_main_c_2_apply,
    val_main_v10_apply, val_main_v9_apply]
  show Scalar.select (IntOp.cmpi .slt (BitVec.ofNat 32 b.val) 0#32) _ (BitVec.ofNat 32 b.val) = _
  rw [slt_zero_of_nonneg _ (row_word_nonneg b), select_zero]

/-- The row index the gather uses is the row's word. -/
theorem gathRow_at (b : Fin 64) (t : Fin 524288) :
    val_main_v40 (F := Ideal) (ix2 b t) = BitVec.ofNat 32 b.val := by
  rw [val_main_v40_apply, val_main_v34_apply, val_main_v31_apply, val_main_v30_apply, val_main_c_8_apply,
    val_main_v10_apply, val_main_v9_apply]
  show Scalar.select (IntOp.cmpi .slt (BitVec.ofNat 32 b.val) 0#32) _ (BitVec.ofNat 32 b.val) = _
  rw [slt_zero_of_nonneg _ (row_word_nonneg b), select_zero]

/-- Adding the last axis of extent one back: element (b, t, 0) reads element (b, t). -/
theorem unit_idx (b : Fin 64) (t : Fin 524288) : idx_main_v23 (ix3 b t (0 : Fin 1)) = ix2 b t := by
  funext a
  match a with
  | ⟨0, _⟩ => rfl
  | ⟨1, _⟩ => rfl

/-- The scatter's index pair of sample (b, t): first the row's word … -/
theorem scatIdx0 (b : Fin 64) (t : Fin 524288) :
    val_main_v25 (F := Ideal) x1 (ix3 b t (0 : Fin 2)) = BitVec.ofNat 32 b.val := by
  unfold val_main_v25
  refine (concat_at0 _ _ _ b t).trans ?_
  rw [val_main_v23_apply]
  exact (congrArg _ (unit_idx b t)).trans (scatRow_at b t)

/-- … then the bin word. -/
theorem scatIdx1 (b : Fin 64) (t : Fin 524288) :
    val_main_v25 (F := Ideal) x1 (ix3 b t (1 : Fin 2)) = binWord (x1 (ix3 b t (0 : Fin 1))) := by
  unfold val_main_v25
  refine (concat_at1 _ _ _ b t).trans ?_
  rw [val_main_v24_apply]
  exact (congrArg _ (unit_idx b t)).trans (scatBin_at x1 b t)

/-- The gather's index pair of sample (b, t): first the row's word … -/
theorem gathIdx0 (b : Fin 64) (t : Fin 524288) :
    val_main_v43 (F := Ideal) x1 (ix3 b t (0 : Fin 2)) = BitVec.ofNat 32 b.val := by
  unfold val_main_v43
  refine (concat_at0 _ _ _ b t).trans ?_
  rw [val_main_v41_apply]
  exact (congrArg _ (unit_idx b t)).trans (gathRow_at b t)

/-- … then the bin word. -/
theorem gathIdx1 (b : Fin 64) (t : Fin 524288) :
    val_main_v43 (F := Ideal) x1 (ix3 b t (1 : Fin 2)) = binWord (x1 (ix3 b t (0 : Fin 1))) := by
  unfold val_main_v43
  refine (concat_at1 _ _ _ b t).trans ?_
  rw [val_main_v42_apply]
  exact (congrArg _ (unit_idx b t)).trans (gathBin_at x1 b t)

/-! ## The table of counts and the weights -/

/-- Table entry (b, n) after the scatter-add of ones: how many samples of row b fall into bin n. -/
theorem counts_at (b n : Fin 64) :
    val_main_v27 (F := Ideal) x1 (ix2 b n)
      = cnt (B := Fin 64) (T := Fin 524288) (fun b t => bin (x1 (ix3 b t (0 : Fin 1)))) b n := by
  unfold val_main_v27
  refine (scatterAdd_at _ _ _ b n).trans ?_
  rw [val_main_v11_apply, val_main_cst_1_apply]
  simp only [scatIdx0, scatIdx1, row_word_toInt, binWord_toInt, val_main_v26_apply, val_main_cst_6_apply,
    Ideal.ofBits_def, Ideal.ofBits_zero_f32, ofBits_one_f32, zero_add]
  unfold cnt
  rw [Finset.sum_eq_single b]
  · refine Finset.sum_congr rfl fun t _ => if_congr ?_ rfl rfl
    constructor
    · intro h; exact Fin.ext (by exact_mod_cast h.2)
    · intro h
      have h' : bin (x1 (ix3 b t (0 : Fin 1))) = n := h
      exact ⟨rfl, by rw [h']⟩
  · intro b' _ hb'
    exact Finset.sum_eq_zero fun t _ => if_neg fun h => hb' (Fin.ext (by exact_mod_cast h.1))
  · intro h; exact absurd (Finset.mem_univ b) h

/-- The weight of sample (b, t): the reciprocal of the occupancy of its own bin in its row. -/
theorem weight_at (b : Fin 64) (t : Fin 524288) :
    val_main_v44 (F := Ideal) x1 (ix2 b t)
      = Ideal.div 1 (cnt (B := Fin 64) (T := Fin 524288) (fun b t => bin (x1 (ix3 b t (0 : Fin 1)))) b
          (bin (x1 (ix3 b t (0 : Fin 1))))) := by
  unfold val_main_v44
  refine (gather_at _ _ b t b (bin (x1 (ix3 b t (0 : Fin 1)))) ?_ ?_).trans ?_
  · rw [gathIdx0, row_word_toInt]
  · rw [gathIdx1, binWord_toInt]
  · rw [val_main_v29_apply, val_main_v28_apply, val_main_cst_7_apply, counts_at]
    simp only [Ideal.hostDivf_def, Ideal.ofBits_def, ofBits_one_f32]

/-! ## The two sums and the result -/

/-- The weights as a [64, 524288, 1] array: element (b, t, 0) reads element (b, t). -/
theorem unit_idx45 (b : Fin 64) (t : Fin 524288) : idx_main_v45 (ix3 b t (0 : Fin 1)) = ix2 b t := by
  funext a
  match a with
  | ⟨0, _⟩ => rfl
  | ⟨1, _⟩ => rfl

/-- THE REFERENCE'S VALUE: the loss arranged by samples, over the bins of the target values and the squared errors. -/
theorem ref_value : ReadP.val_main_v50 (F := Ideal) x0 x1 = fun _ =>
    Cert.HistSpec.bySamples (B := Fin 64) (T := Fin 524288) (fun b t => Cert.HistSpec.bin (x1 (ValueIdx.ix3 b t 0)))
      (fun b t => Cert.HistSpec.sqErr (x0 (ValueIdx.ix3 b t 0)) (x1 (ValueIdx.ix3 b t 0))) := by
  funext i
  rw [val_main_v50_apply, val_main_v49_apply, val_main_v47_apply, val_main_v48_apply, val_main_cst_12_apply,
    val_main_cst_13_apply, sum_idx3u, sum_idx3u]
  simp only [val_main_v46_apply, val_main_v45_apply, val_main_v4_apply, val_main_v3_apply, unit_idx45, weight_at,
    Ideal.hostUnary_sqrt_def, Ideal.hostDivf_def, Ideal.mulf_def, Ideal.subf_def, Ideal.ofBits_def,
    Ideal.ofBits_zero_f32, zero_add]
  rfl

end Cert.ReferenceIdeal.RefValue

end
-- ==== Proof.HistAlgebra.lean ====
/-
  The two arrangements of the decade-weighted loss agree when every loss is a real number.

  Fix a row b and write c(n) for the number of its samples in bin n.  For any real weights w on the bins,
      sum_n (sum_t r(t) * [d(t) = n]) * w(n)  =  sum_t r(t) * w(d(t)),
  because for each sample t exactly one bin, its own, has a non-zero indicator.  With w(n) = 1 / c(n) (read as 0 for an
  empty bin, whose loss sum is an empty sum anyway) this is the equality of the two numerators, and with r = 1 it is the
  equality of the two denominators: sum_t 1 / c(d(t)) = sum_n c(n) * (1 / c(n)) = the number of occupied bins.
  The extended reals do not distribute at the infinities, so the losses are assumed real: every quantity is then the
  coercion of a real number, the coercions are pushed outwards, and the rearrangement is done in the reals.
-/
import proofs.«148309_j60421599920187_2_alg».proof.Proof.HistSpec
import Mathlib.Algebra.BigOperators.Ring.Finset
import Mathlib.Algebra.BigOperators.Group.Finset.Piecewise

noncomputable section

open scoped BigOperators

namespace Cert.HistSpec

open Idealize.ShloMosaic

/-- The coercion of the reals into the extended reals commutes with finite sums. -/
theorem coe_finset_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Summing over the bins a bin's indicator-weighted sum times the bin's weight is summing over the samples,
    each with the weight of its own bin: for a given sample only its own bin has a non-zero indicator. -/
theorem sum_bins_eq_sum_samples {T : Type} [Fintype T] (δ : T → Fin 64) (r : T → ℝ) (w : Fin 64 → ℝ) :
    ∑ n, (∑ t, r t * (if δ t = n then 1 else 0)) * w n = ∑ t, r t * w (δ t) := by
  simp only [Finset.sum_mul]
  rw [Finset.sum_comm]
  refine Finset.sum_congr rfl fun t _ => ?_
  simp only [mul_ite, mul_one, mul_zero, ite_mul, zero_mul, Finset.sum_ite_eq, Finset.mem_univ, if_true]

section Arrangements

variable {B T : Type} [Fintype B] [Fintype T]

/-- The number of samples of row b that fall into bin n, as a natural number. -/
def binCard (d : B → T → Fin 64) (b : B) (n : Fin 64) : ℕ := (Finset.univ.filter (fun t => d b t = n)).card

/-- The occupancy count is the coercion of a real number: the cardinality of the bin's fibre. -/
theorem cnt_eq_card (d : B → T → Fin 64) (b : B) (n : Fin 64) :
    cnt d b n = (((Finset.univ.filter (fun t => d b t = n)).card : ℝ) : EReal) := by
  unfold cnt
  rw [← Finset.sum_boole, coe_finset_sum]
  refine Finset.sum_congr rfl fun t _ => ?_
  by_cases h : d b t = n <;> simp [h]

/-- The occupancy count is the coercion of the natural number binCard. -/
theorem cnt_eq_binCard (d : B → T → Fin 64) (b : B) (n : Fin 64) :
    cnt d b n = ((binCard d b n : ℝ) : EReal) := cnt_eq_card d b n

/-- The occupancy count as a natural number cast directly into the extended reals. -/
theorem cnt_eq_natCast (d : B → T → Fin 64) (b : B) (n : Fin 64) :
    cnt d b n = ((binCard d b n : ℕ) : EReal) := by
  rw [cnt_eq_binCard]; rfl

/-- An occupancy count is not negative. -/
theorem cnt_nonneg (d : B → T → Fin 64) (b : B) (n : Fin 64) : 0 ≤ cnt d b n := by
  rw [cnt_eq_binCard]
  exact EReal.coe_nonneg.mpr (Nat.cast_nonneg _)

/-- An occupancy count is at most the number of samples of a row. -/
theorem cnt_le_card (d : B → T → Fin 64) (b : B) (n : Fin 64) :
    cnt d b n ≤ ((Fintype.card T : ℝ) : EReal) := by
  rw [cnt_eq_binCard, EReal.coe_le_coe_iff]
  exact_mod_cast Finset.card_filter_le _ _

/-- A bin is occupied exactly when its count is positive. -/
theorem cnt_pos_iff (d : B → T → Fin 64) (b : B) (n : Fin 64) : 0 < cnt d b n ↔ ∃ t, d b t = n := by
  rw [cnt_eq_binCard, EReal.coe_pos, Nat.cast_pos, binCard, Finset.card_pos]
  constructor
  · rintro ⟨t, ht⟩; exact ⟨t, (Finset.mem_filter.mp ht).2⟩
  · rintro ⟨t, ht⟩; exact ⟨t, Finset.mem_filter.mpr ⟨Finset.mem_univ t, ht⟩⟩

/-- The bin of a sample is occupied, by that sample. -/
theorem cnt_self_pos (d : B → T → Fin 64) (b : B) (t : T) : 0 < cnt d b (d b t) :=
  (cnt_pos_iff d b (d b t)).mpr ⟨t, rfl⟩

/-- The masked reciprocal count is the real reciprocal of the count, which is 0 for an empty bin. -/
theorem invCnt_cnt (d : B → T → Fin 64) (b : B) (n : Fin 64) :
    invCnt (cnt d b n) = (((binCard d b n : ℝ)⁻¹ : ℝ) : EReal) := by
  rw [cnt_eq_binCard]
  unfold invCnt
  by_cases h : binCard d b n = 0
  · simp [h]
  · have hpos : (0 : ℝ) < (binCard d b n : ℝ) := Nat.cast_pos.mpr (Nat.pos_of_ne_zero h)
    rw [if_pos (EReal.coe_pos.mpr hpos), Ideal.div_coe hpos.ne', one_mul, one_div]

/-- The reciprocal of the count of a sample's own bin is a real reciprocal: that count is not zero. -/
theorem div_one_cnt_self (d : B → T → Fin 64) (b : B) (t : T) :
    Ideal.div 1 (cnt d b (d b t)) = (((binCard d b (d b t) : ℝ)⁻¹ : ℝ) : EReal) := by
  rw [← invCnt_cnt, invCnt, if_pos (cnt_self_pos d b t)]

/-- The occupancy indicator is count times reciprocal count. -/
theorem occ_cnt (d : B → T → Fin 64) (b : B) (n : Fin 64) :
    occ (cnt d b n) = (((binCard d b n : ℝ) * (binCard d b n : ℝ)⁻¹ : ℝ) : EReal) := by
  rw [cnt_eq_binCard]
  unfold occ
  by_cases h : binCard d b n = 0
  · simp [h]
  · have hpos : (0 : ℝ) < (binCard d b n : ℝ) := Nat.cast_pos.mpr (Nat.pos_of_ne_zero h)
    rw [if_pos (EReal.coe_pos.mpr hpos), mul_inv_cancel₀ hpos.ne', EReal.coe_one]

/-- The count as the real sum of the indicators. -/
theorem binCard_eq_sum (d : B → T → Fin 64) (b : B) (n : Fin 64) :
    (binCard d b n : ℝ) = ∑ t, (1 : ℝ) * (if d b t = n then 1 else 0) := by
  simp only [one_mul, Finset.sum_boole, binCard]

/-- A bin's loss sum, for real losses, is the coercion of the real indicator-weighted sum. -/
theorem lsum_coe (d : B → T → Fin 64) (ℓ : B → T → EReal) (b : B) (r : T → ℝ) (hr : ∀ t, ℓ b t = (r t : EReal))
    (n : Fin 64) : lsum d ℓ b n = ((∑ t, r t * (if d b t = n then 1 else 0) : ℝ) : EReal) := by
  unfold lsum
  rw [coe_finset_sum]
  refine Finset.sum_congr rfl fun t _ => ?_
  by_cases h : d b t = n <;> simp [h, hr t]

/-- One row's numerators agree. -/
theorem num_row (d : B → T → Fin 64) (ℓ : B → T → EReal) (hℓ : ∀ b t, ∃ r : ℝ, ℓ b t = (r : EReal)) (b : B) :
    ∑ n, lsum d ℓ b n * invCnt (cnt d b n) = ∑ t, ℓ b t * Ideal.div 1 (cnt d b (d b t)) := by
  choose r hr using hℓ
  have hL : ∀ n, lsum d ℓ b n * invCnt (cnt d b n)
      = (((∑ t, r b t * (if d b t = n then 1 else 0)) * (binCard d b n : ℝ)⁻¹ : ℝ) : EReal) := by
    intro n
    rw [lsum_coe d ℓ b (r b) (hr b) n, invCnt_cnt, ← EReal.coe_mul]
  have hR : ∀ t, ℓ b t * Ideal.div 1 (cnt d b (d b t)) = ((r b t * (binCard d b (d b t) : ℝ)⁻¹ : ℝ) : EReal) := by
    intro t
    rw [hr b t, div_one_cnt_self, ← EReal.coe_mul]
  rw [Finset.sum_congr rfl (fun n _ => hL n), Finset.sum_congr rfl (fun t _ => hR t),
    ← coe_finset_sum, ← coe_finset_sum,
    sum_bins_eq_sum_samples (d b) (r b) (fun n => (binCard d b n : ℝ)⁻¹)]

/-- One row's denominators agree: the reciprocal counts of the samples add up to the number of occupied bins. -/
theorem den_row (d : B → T → Fin 64) (b : B) :
    ∑ n, occ (cnt d b n) = ∑ t, Ideal.div 1 (cnt d b (d b t)) := by
  have hL : ∀ n, occ (cnt d b n)
      = (((∑ t, (1 : ℝ) * (if d b t = n then 1 else 0)) * (binCard d b n : ℝ)⁻¹ : ℝ) : EReal) := by
    intro n
    rw [occ_cnt, binCard_eq_sum]
  have hR : ∀ t, Ideal.div 1 (cnt d b (d b t)) = (((1 : ℝ) * (binCard d b (d b t) : ℝ)⁻¹ : ℝ) : EReal) := by
    intro t
    rw [div_one_cnt_self, one_mul]
  rw [Finset.sum_congr rfl (fun n _ => hL n), Finset.sum_congr rfl (fun t _ => hR t),
    ← coe_finset_sum, ← coe_finset_sum,
    sum_bins_eq_sum_samples (d b) (fun _ => (1 : ℝ)) (fun n => (binCard d b n : ℝ)⁻¹)]

/-- The loss arranged by bins is the loss arranged by samples, for real-valued losses. -/
theorem byBins_eq_bySamples (d : B → T → Fin 64) (ℓ : B → T → EReal)
    (hℓ : ∀ b t, ∃ r : ℝ, ℓ b t = (r : EReal)) : byBins d ℓ = bySamples d ℓ := by
  unfold byBins bySamples
  rw [Finset.sum_congr rfl (fun b _ => num_row d ℓ hℓ b), Finset.sum_congr rfl (fun b _ => den_row d b)]

end Arrangements

end Cert.HistSpec

end
-- ==== Proof.HistFinite.lean ====
import proofs.«148309_j60421599920187_2_alg».proof.Proof.Gen.Pre_finite_inputs
import Idealize.ShloMosaic.Lib.ReduceAll
import Idealize.ShloMosaic.Lib.ValueIdx
import Idealize.ShloMosaic.PureOps.Ideal.Laws

/-!
  Finiteness of the two inputs, read back from the precondition.

  The precondition is the conjunction of two statements of the form "every entry x satisfies |x| < +∞",
  each a reduction by `and` of the entrywise comparison over the whole array. In the extended reals
  |x| = max x (-x), and max x (-x) < ⊤ excludes x = ⊤ (the maximum is ⊤) and x = ⊥ (its negation is ⊤),
  so every entry is the image of a real number.
-/

namespace Cert.HistFinite

open Idealize.ShloMosaic

/-- The f32 word with sign 0, exponent all ones and fraction 0 denotes +∞. -/
theorem ofBits_inf : Ideal.ofBits .f32 0x7F800000#32 = (⊤ : EReal) := by
  simp [Ideal.ofBits, Ideal.ieee]

/-- In the extended reals, max x (-x) < ⊤ forces x to be a real: at x = ⊤ the maximum is ⊤, and at
    x = ⊥ the negation -x is ⊤. -/
theorem real_of_abs_lt_top (x : EReal) (h : Ideal.cmp .olt (max x (-x)) ⊤ = 1#1) :
    ∃ r : ℝ, x = (r : EReal) := by
  induction x using EReal.rec with
  | bot => simp [Ideal.cmp] at h
  | coe r => exact ⟨r, rfl⟩
  | top => simp [Ideal.cmp] at h

/-- The scalar shape has exactly one index. -/
instance : Subsingleton Cert.Pre_finite_inputs.S_.Idx := ⟨fun a b => funext fun d => d.elim0⟩

/-- One entry: the comparison |x| < (the word of +∞) being true makes x a real. -/
theorem real_of_entry (x : Ideal .f32)
    (h : FloatOps.cmpf .olt (FloatOps.hostAbsf x) (FloatOps.ofBits (F := Ideal) .f32 0x7F800000#32) = 1#1) :
    ∃ r : ℝ, x = (r : EReal) := by
  refine real_of_abs_lt_top x ?_
  rw [← ofBits_inf]
  exact h

theorem real_of_pre (x0 x1 : FVec Ideal Cert.Pre_finite_inputs.S64x524288x1 .f32)
    (h : Cert.Pre_finite_inputs.fn (F := Ideal) x0 x1 = fun _ => 1#1) :
    (∀ i, ∃ r : ℝ, x0 i = (r : EReal)) ∧ (∀ i, ∃ r : ℝ, x1 i = (r : EReal)) := by
  have h0 := congrFun h ValueIdx.ix0
  dsimp only [Cert.Pre_finite_inputs.fn] at h0
  obtain ⟨ha, hb⟩ := IntOp.andi_eq_one.1 h0
  refine ⟨fun i => ?_, fun i => ?_⟩
  · have := Host.reduce_andi_all _ _ _ _ _ ha i
    exact real_of_entry (x0 i) this
  · have := Host.reduce_andi_all _ _ _ _ _ hb i
    exact real_of_entry (x1 i) this

end Cert.HistFinite
-- ==== Proof.lean ====
/-
  The decade-weighted loss: a histogram kernel against its scatter/gather reference, over the extended reals.

  Both programs bin each target y into clip(floor(max(|y|, 2^-23)), 0, 63) and weight each sample's squared error by
  the reciprocal of its bin's occupancy within its row.  The kernel accumulates, per (row, bin), the occupancy count
  and the sum of the squared errors (one-hot sums over 64 column tiles of 64 chunks of 128 lanes), and the host lines
  after it form  sqrt(sum(loss sums / counts) / #occupied bins);  the reference scatters ones into the counts, gathers
  1 / count at each sample and forms  sqrt(sum(loss * weight) / sum(weight)).  For real inputs the two arrangements
  are one number (HistAlgebra.lean); the precondition says the inputs are real (HistFinite.lean).

  The frames: the kernel's body is run once per case of its one branch (first column tile or not), at any float
  instance, and the pipeline's proof data carry the accumulator blocks from point to point (KBody / KFrame for the
  program as printed, KIBody / KIFrame for its idealization); the reference's frame is its run with the result
  dropped (the run walks the host program once, operation by operation: RefRunSteps / RefRunFast).  The ideal pass rewrote nothing, so its conjunct is trivial.
-/
import proofs.«148309_j60421599920187_2_alg».proof.Defs
import proofs.«148309_j60421599920187_2_alg».proof.Proof.Gen.Kernel
import proofs.«148309_j60421599920187_2_alg».proof.Proof.Gen.KernelIdeal
import proofs.«148309_j60421599920187_2_alg».proof.Proof.Gen.ReferenceIdeal
import proofs.«148309_j60421599920187_2_alg».proof.Proof.Gen.Pre_finite_inputs
import proofs.«148309_j60421599920187_2_alg».proof.Proof.RefRunFast
import proofs.«148309_j60421599920187_2_alg».proof.Proof.KFrame
import proofs.«148309_j60421599920187_2_alg».proof.Proof.KIFinal
import proofs.«148309_j60421599920187_2_alg».proof.Proof.RefValue
import proofs.«148309_j60421599920187_2_alg».proof.Proof.HistAlgebra
import proofs.«148309_j60421599920187_2_alg».proof.Proof.HistFinite
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx
open Cert.HistSpec (byBins bySamples sqErr bin)

theorem frame_k : Cert.frame_Kernel := fun m ρ _ => Cert.Kernel.Hist.frame m ρ
theorem frame_ki : Cert.frame_KernelIdeal := fun m ρ _ => Cert.KernelIdeal.Hist.frame m ρ
theorem frame_ri : Cert.frame_ReferenceIdeal := fun m ρ _ =>
  (θ_run Cert.ReferenceIdeal.defs _ _).mono (fun _ h c => (h c).2) (Cert.ReferenceIdeal.FastRun.run (F := Ideal) m ρ)

/-- The ideal pass rewrote no operation. -/
theorem preserves : Cert.preserves_Kernel_KernelIdeal := trivial

/-- Real predictions and targets have real squared errors. -/
theorem loss_real (x0 x1 : Cert.KernelIdeal.S64x524288x1.Idx → EReal)
    (h : (∀ i, ∃ r : ℝ, x0 i = (r : EReal)) ∧ (∀ i, ∃ r : ℝ, x1 i = (r : EReal))) (b : Fin 64) (t : Fin 524288) :
    ∃ r : ℝ, Cert.KernelIdeal.Hist.lossOf x0 x1 b t = (r : EReal) := by
  obtain ⟨r0, h0⟩ := h.1 (ix3 b t (0 : Fin 1))
  obtain ⟨r1, h1⟩ := h.2 (ix3 b t (0 : Fin 1))
  refine ⟨(r0 - r1) * (r0 - r1), ?_⟩
  unfold Cert.KernelIdeal.Hist.lossOf Cert.HistSpec.sqErr
  rw [h0, h1, ← EReal.coe_sub, ← EReal.coe_mul]

/-- Both idealized programs end, from memories agreeing on the arguments, at the loss arranged by samples. -/
theorem algebraic : Cert.algebraic_KernelIdeal_ReferenceIdeal := by
  intro m ρ m' ρ' hpre hagree
  refine ⟨fun c => fun _ => bySamples (B := Fin 64) (T := Fin 524288)
      (Cert.KernelIdeal.Hist.binsOf (m ((c.tc : Thread Cert.KernelIdeal.nD Cert.KernelIdeal.τ).loc Cert.KernelIdeal.main_arg1)))
      (Cert.KernelIdeal.Hist.lossOf (m ((c.tc : Thread Cert.KernelIdeal.nD Cert.KernelIdeal.τ).loc Cert.KernelIdeal.main_arg0))
        (m ((c.tc : Thread Cert.KernelIdeal.nD Cert.KernelIdeal.τ).loc Cert.KernelIdeal.main_arg1))), ?_, ?_⟩
  · refine (θ_run Cert.KernelIdeal.defs _ _).mono (fun _ h c => ⟨?_, ?_, ?_⟩) (Cert.KernelIdeal.Hist.run_main m ρ)
    · have hv := (h c).2 Cert.KernelIdeal.main_v16 (Pipeline.mem_restRefs_of Cert.KernelIdeal.main_v16 (by decide) (by decide))
      rw [Cert.KernelIdeal.Hist.kernel_value m c] at hv
      exact hv.trans (funext fun _ => Cert.HistSpec.byBins_eq_bySamples _ _
        (loss_real _ _ (Cert.HistFinite.real_of_pre _ _ (hpre c))))
    · exact ((h c).2 Cert.KernelIdeal.main_arg0 (Pipeline.mem_restRefs_of Cert.KernelIdeal.main_arg0 (by decide) (by decide))).trans
        (Cert.KernelIdeal.Gen.W_main_arg0 m (Cert.KernelIdeal.Hist.dats m) c)
    · exact ((h c).2 Cert.KernelIdeal.main_arg1 (Pipeline.mem_restRefs_of Cert.KernelIdeal.main_arg1 (by decide) (by decide))).trans
        (Cert.KernelIdeal.Gen.W_main_arg1 m (Cert.KernelIdeal.Hist.dats m) c)
  · refine (θ_run Cert.ReferenceIdeal.defs _ _).mono (fun _ h c => ⟨?_, (h c).2.1, (h c).2.2⟩)
      (Cert.ReferenceIdeal.FastRun.run (F := Ideal) m' ρ')
    rw [(h c).1, Cert.ReferenceIdeal.RefValue.ref_value, (hagree c).1, (hagree c).2]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
